-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v33)) (v4 : (c : Dev Cert.KernelIdeal.nD) → Buf (Elt Ideal) ((c.tc : Thread Cert.KernelIdeal.nD Cert.KernelIdeal.τ).loc Cert.KernelIdeal.main_v35)) (v5 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_v35) = v4 c
          ∧ r.2.mem ((c.tc : Thread Cert.KernelIdeal.nD Cert.KernelIdeal.τ).loc Cert.KernelIdeal.main_v37) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S1x1 : Shape := ⟨2, ![1, 1]⟩
abbrev S1024x256 : Shape := ⟨2, ![1024, 256]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩
abbrev S1 : Shape := ⟨1, ![1]⟩
abbrev S5 : Shape := ⟨1, ![5]⟩
abbrev S1x128 : Shape := ⟨2, ![1, 128]⟩
abbrev S2 : Shape := ⟨1, ![2]⟩

abbrev nBuf : Space → Nat
  | .hbm => 68
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x256, .bf16⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S5, .f32⟩
  | .hbm, ⟨40, _⟩ => ⟨S_, .f32⟩
  | .hbm, ⟨41, _⟩ => ⟨S1x128, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S1x128, .f32⟩
  | .hbm, ⟨48, _⟩ => ⟨S1x1, .f32⟩
  | .hbm, ⟨49, _⟩ => ⟨S1x1, .f32⟩
  | .hbm, ⟨50, _⟩ => ⟨S1x1, .f32⟩
  | .hbm, ⟨51, _⟩ => ⟨S1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S8192x256, .bf16⟩
  | .local _ .vmem, ⟨1, _⟩ => ⟨S8192, .f32⟩
  | .local _ .vmem, ⟨2, _⟩ => ⟨S1x1, .f32⟩
  | .local _ .vmem, ⟨3, _⟩ => ⟨S1x1, .f32⟩
  | .local _ .vmem, ⟨4, _⟩ => ⟨S8192x256, .bf16⟩
  | .local _ .vmem, ⟨5, _⟩ => ⟨S8192, .f32⟩
  | .local _ .vmem, ⟨6, _⟩ => ⟨S1x128, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_cst_6 : Ref sig .tc := ⟨.hbm, 22, rfl⟩
abbrev main_v12 : Ref sig .tc := ⟨.hbm, 23, rfl⟩
abbrev main_cst_7 : Ref sig .tc := ⟨.hbm, 24, rfl⟩
abbrev main_v13 : Ref sig .tc := ⟨.hbm, 25, rfl⟩
abbrev main_cst_8 : Ref sig .tc := ⟨.hbm, 26, rfl⟩
abbrev main_v14 : Ref sig .tc := ⟨.hbm, 27, rfl⟩
abbrev main_cst_9 : Ref sig .tc := ⟨.hbm, 28, rfl⟩
abbrev main_v15 : Ref sig .tc := ⟨.hbm, 29, rfl⟩
abbrev main_cst_10 : Ref sig .tc := ⟨.hbm, 30, rfl⟩
abbrev main_v16 : Ref sig .tc := ⟨.hbm, 31, rfl⟩
abbrev main_cst_11 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_12 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_c_13 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev main_v29_3 : Ref sig .tc := ⟨.hbm, 51, rfl⟩
abbrev main_v30 : Ref sig .tc := ⟨.hbm, 52, rfl⟩
abbrev main_cst_14 : Ref sig .tc := ⟨.hbm, 53, rfl⟩
abbrev main_v31 : Ref sig .tc := ⟨.hbm, 54, rfl⟩
abbrev main_v32 : Ref sig .tc := ⟨.hbm, 55, rfl⟩
abbrev main_cst_15 : Ref sig .tc := ⟨.hbm, 56, rfl⟩
abbrev main_v33 : Ref sig .tc := ⟨.hbm, 57, rfl⟩
abbrev main_v34 : Ref sig .tc := ⟨.hbm, 58, rfl⟩
abbrev main_cst_16 : Ref sig .tc := ⟨.hbm, 59, rfl⟩
abbrev main_v35 : Ref sig .tc := ⟨.hbm, 60, rfl⟩
abbrev main_v36 : Ref sig .tc := ⟨.hbm, 61, rfl⟩
abbrev main_cst_17 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg1 : BitVec 32 := BitVec.ofNat 32 (i 1).val
  let c1024_i32_0 : BitVec 32 := 1024#32
  let v2 : BitVec 32 := Scalar.muli arg1 c1024_i32_0
  v2
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c1024_i32_0 : BitVec 32 := 1024#32
  let v2 : BitVec 32 := Scalar.muli arg1 c1024_i32_0
  let v3 : BitVec 32 := v2
  let v7 : Index := Scalar.indexCast v3
  let c0_1 : Index := 0#32
  ![v7.toNat, 0]
def k0_off3 (i : grid0.Coords) : Fin 1 → Nat :=
  let arg0 : BitVec 32 := BitVec.ofNat 32 (i 0).val
  let c1024_i32 : BitVec 32 := 1024#32
  let v0 : BitVec 32 := Scalar.muli arg0 c1024_i32
  let v1 : BitVec 32 := v0
  let v10 : Index := Scalar.indexCast v1
  ![v10.toNat]
def k0_off4 (i : grid0.Coords) : Fin 1 → Nat :=
  let arg1 : BitVec 32 := BitVec.ofNat 32 (i 1).val
  let c1024_i32_0 : BitVec 32 := 1024#32
  let v2 : BitVec 32 := Scalar.muli arg1 c1024_i32_0
  let v3 : BitVec 32 := v2
  let v13 : Index := Scalar.indexCast v3
  ![v13.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![8, 8], ![false, false]⟩

def k1_mult1 (i : grid1.Coords) : BitVec 32 :=
  let arg0 : BitVec 32 := BitVec.ofNat 32 (i 0).val
  let c1024_i32 : BitVec 32 := 1024#32
  let v0 : BitVec 32 := Scalar.muli arg0 c1024_i32
  v0
def k1_mult2 (i : grid1.Coords) : BitVec 32 :=
  let arg1 : BitVec 32 := BitVec.ofNat 32 (i 1).val
  let c1024_i32_0 : BitVec 32 := 1024#32
  let v2 : BitVec 32 := Scalar.muli arg1 c1024_i32_0
  v2
def k1_off1 (i : grid1.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k1_off2 (i : grid1.Coords) : Fin 2 → Nat :=
  let arg1 : BitVec 32 := BitVec.ofNat 32 (i 1).val
  let c1024_i32_0 : BitVec 32 := 1024#32
  let v2 : BitVec 32 := Scalar.muli arg1 c1024_i32_0
  let v3 : BitVec 32 := v2
  let v7 : Index := Scalar.indexCast v3
  let c0_1 : Index := 0#32
  ![v7.toNat, 0]
def k1_off3 (i : grid1.Coords) : Fin 1 → Nat :=
  let arg0 : BitVec 32 := BitVec.ofNat 32 (i 0).val
  let c1024_i32 : BitVec 32 := 1024#32
  let v0 : BitVec 32 := Scalar.muli arg0 c1024_i32
  let v1 : BitVec 32 := v0
  let v10 : Index := Scalar.indexCast v1
  ![v10.toNat]
def k1_off4 (i : grid1.Coords) : Fin 1 → Nat :=
  let arg1 : BitVec 32 := BitVec.ofNat 32 (i 1).val
  let c1024_i32_0 : BitVec 32 := 1024#32
  let v2 : BitVec 32 := Scalar.muli arg1 c1024_i32_0
  let v3 : BitVec 32 := v2
  let v13 : Index := Scalar.indexCast v3
  ![v13.toNat]
def k1_cond1 (i : grid1.Coords) : BitVec 1 :=
  let arg0 : BitVec 32 := BitVec.ofNat 32 (i 0).val
  let c0_i32 : BitVec 32 := 0#32
  let v72 : BitVec 1 := Scalar.cmpi .eq arg0 c0_i32
  let arg1 : BitVec 32 := BitVec.ofNat 32 (i 1).val
  let c0_i32_18 : BitVec 32 := 0#32
  let v73 : BitVec 1 := Scalar.cmpi .eq arg1 c0_i32_18
  let v74 : BitVec 1 := Scalar.andi v72 v73
  let v75 : BitVec 32 := Scalar.extui v74
  let c0_i32_19 : BitVec 32 := 0#32
  let v76 : BitVec 1 := Scalar.cmpi .ne v75 c0_i32_19
  v76

def k1_cond2 (i : grid1.Coords) : BitVec 1 :=
  let arg0 : BitVec 32 := BitVec.ofNat 32 (i 0).val
  let c4_i32 : BitVec 32 := 4#32
  let v77 : BitVec 1 := Scalar.cmpi .slt arg0 c4_i32
  let arg1 : BitVec 32 := BitVec.ofNat 32 (i 1).val
  let c4_i32_20 : BitVec 32 := 4#32
  let v78 : BitVec 1 := Scalar.cmpi .slt arg1 c4_i32_20
  let v79 : BitVec 1 := Scalar.andi v77 v78
  let v80 : BitVec 32 := Scalar.extui v79
  let c0_i32_21 : BitVec 32 := 0#32
  let v81 : BitVec 1 := Scalar.cmpi .ne v80 c0_i32_21
  v81

def k1_cond5 (i : grid1.Coords) : BitVec 1 :=
  let arg0 : BitVec 32 := BitVec.ofNat 32 (i 0).val
  let c4_i32 : BitVec 32 := 4#32
  let v77 : BitVec 1 := Scalar.cmpi .slt arg0 c4_i32
  let true_25 : BitVec 1 := 1#1
  let v90 : BitVec 1 := Scalar.xori v77 true_25
  let arg1 : BitVec 32 := BitVec.ofNat 32 (i 1).val
  let c4_i32_20 : BitVec 32 := 4#32
  let v78 : BitVec 1 := Scalar.cmpi .slt arg1 c4_i32_20
  let true_26 : BitVec 1 := 1#1
  let v91 : BitVec 1 := Scalar.xori v78 true_26
  let v92 : BitVec 1 := Scalar.andi v90 v91
  let v93 : BitVec 32 := Scalar.extui v92
  let c0_i32_27 : BitVec 32 := 0#32
  let v94 : BitVec 1 := Scalar.cmpi .ne v93 c0_i32_27
  v94

def k1_cond3 (i : grid1.Coords) : BitVec 1 :=
  let arg0 : BitVec 32 := BitVec.ofNat 32 (i 0).val
  let c4_i32 : BitVec 32 := 4#32
  let v77 : BitVec 1 := Scalar.cmpi .slt arg0 c4_i32
  let arg1 : BitVec 32 := BitVec.ofNat 32 (i 1).val
  let c4_i32_20 : BitVec 32 := 4#32
  let v78 : BitVec 1 := Scalar.cmpi .slt arg1 c4_i32_20
  let v_true : BitVec 1 := 1#1
  let v82 : BitVec 1 := Scalar.xori v78 v_true
  let v83 : BitVec 1 := Scalar.andi v77 v82
  let v84 : BitVec 32 := Scalar.extui v83
  let c0_i32_22 : BitVec 32 := 0#32
  let v85 : BitVec 1 := Scalar.cmpi .ne v84 c0_i32_22
  v85

def k1_cond4 (i : grid1.Coords) : BitVec 1 :=
  let arg0 : BitVec 32 := BitVec.ofNat 32 (i 0).val
  let c4_i32 : BitVec 32 := 4#32
  let v77 : BitVec 1 := Scalar.cmpi .slt arg0 c4_i32
  let true_23 : BitVec 1 := 1#1
  let v86 : BitVec 1 := Scalar.xori v77 true_23
  let arg1 : BitVec 32 := BitVec.ofNat 32 (i 1).val
  let c4_i32_20 : BitVec 32 := 4#32
  let v78 : BitVec 1 := Scalar.cmpi .slt arg1 c4_i32_20
  let v87 : BitVec 1 := Scalar.andi v86 v78
  let v88 : BitVec 32 := Scalar.extui v87
  let c0_i32_24 : BitVec 32 := 0#32
  let v89 : BitVec 1 := Scalar.cmpi .ne v88 c0_i32_24
  v89

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bitsLt_bf16_f32 : FTy.bits .bf16 < FTy.bits .f32
  h_S1024x256 : 0 < S1024x256.numel
  shapeCasts_S1024x256_S1024x256 : S1024x256.ShapeCasts S1024x256
  h_S1024 : 0 < S1024.numel
  shapeCasts_S1024_S1024 : S1024.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  bcast_S_S1 : S_.BroadcastsInDim S1 (![] : Fin 0 → Fin S1.rank)
  concatenates_S1_S1_S1_S1_S1_S5_d0 : Shape.Concatenates [S1, S1, S1, S1, S1] S5 0
  bcast_S_S1x128 : S_.BroadcastsInDim S1x128 (![] : Fin 0 → Fin S1x128.rank)
  concatenates_S1_S1_S2_d0 : Shape.Concatenates [S1, S1] S2 0
  inb_S1x128_S1x1_0_0 : ∀ a, (![0, 0] : Fin 2 → Nat) a + S1x1.size a ≤ S1x128.size a
  inpos_S1x1_p0_0 : ∀ a, (![0, 0] : Fin 2 → Nat) a < S1x1.size a
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  dot_S1024x256_S1024x256_S1024x1024_1_1_0_0_n_n_wf : DotDims.WF S1024x256 S1024x256 S1024x1024 [1] [1] [0] [0] [] []
  scatter_S1x128_S2_S5_0_0_01_0_wf : ScatterDims.WF S1x128 S2 S5 [0] [0] [0, 1] 0
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x256.size a ≤ S8192x256.size a
  k0_off2_inb : ∀ i : grid0.Coords, ∀ a, (k0_off2 i) a + S1024x256.size a ≤ S8192x256.size a
  k0_off3_inb : ∀ i : grid0.Coords, ∀ a, (k0_off3 i) a + S1024.size a ≤ S8192.size a
  k0_off4_inb : ∀ i : grid0.Coords, ∀ a, (k0_off4 i) a + S1024.size a ≤ S8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .bf16 = 32 ∨ (Rect.block (s := S8192x256) S8192x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S8192.size a
  hwx0_1 : ∀ i : grid0.Coords, EltTy.bits .f32 = 32 ∨ (Rect.block (s := S8192) S8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  k1_mult1_dvd : ∀ i : grid1.Coords, 1024 ∣ (k1_mult1 i).toNat
  k1_mult2_dvd : ∀ i : grid1.Coords, 1024 ∣ (k1_mult2 i).toNat
  k1_off1_inb : ∀ i : grid1.Coords, ∀ a, (k1_off1 i) a + S1024x256.size a ≤ S8192x256.size a
  k1_off2_inb : ∀ i : grid1.Coords, ∀ a, (k1_off2 i) a + S1024x256.size a ≤ S8192x256.size a
  k1_off3_inb : ∀ i : grid1.Coords, ∀ a, (k1_off3 i) a + S1024.size a ≤ S8192.size a
  k1_off4_inb : ∀ i : grid1.Coords, ∀ a, (k1_off4 i) a + S1024.size a ≤ S8192.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .bf16 = 32 ∨ (Rect.block (s := S8192x256) S8192x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S8192.size a
  hwx1_1 : ∀ i : grid1.Coords, EltTy.bits .f32 = 32 ∨ (Rect.block (s := S8192) S8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def scatter_S1x128_S2_S5_0_0_01_0 : ScatterDims S1x128 S2 S5 where
  updateWindowDims := [0]
  insertedWindowDims := [0]
  scatterDimsToOperandDims := [0, 1]
  indexVectorDim := 0
  wf := scatter_S1x128_S2_S5_0_0_01_0_wf

abbrev win0_0 : Pipeline.Window sig grid0 :=
  Pipeline.Window.ofSpec (Memref.whole main_v3) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29_1) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29_2) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29_3) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun i => !(k1_cond1 i == 1#1) && !(k1_cond2 i == 1#1) | 4 => fun i => !(k1_cond1 i == 1#1) && !(k1_cond5 i == 1#1) | 5 => fun i => !(k1_cond1 i == 1#1) && !(k1_cond3 i == 1#1) | 6 => fun i => !(k1_cond1 i == 1#1) && !(k1_cond4 i == 1#1) | ⟨_ + 7, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩
abbrev S4096x4096 : Shape := ⟨2, ![4096, 4096]⟩

abbrev nBuf : Space → Nat
  | .hbm => 98
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S256x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S4096x4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4096x4096, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4096x4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4096x4096, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_12 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_14 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_16 : Ref sig .tc := ⟨.hbm, 74, rfl⟩
abbrev main_v55 : Ref sig .tc := ⟨.hbm, 75, rfl⟩
abbrev main_cst_17 : Ref sig .tc := ⟨.hbm, 76, rfl⟩
abbrev main_v56 : Ref sig .tc := ⟨.hbm, 77, rfl⟩
abbrev main_v57 : Ref sig .tc := ⟨.hbm, 78, rfl⟩
abbrev main_cst_18 : Ref sig .tc := ⟨.hbm, 79, rfl⟩
abbrev main_v58 : Ref sig .tc := ⟨.hbm, 80, rfl⟩
abbrev main_cst_19 : Ref sig .tc := ⟨.hbm, 81, rfl⟩
abbrev main_v59 : Ref sig .tc := ⟨.hbm, 82, rfl⟩
abbrev main_v60 : Ref sig .tc := ⟨.hbm, 83, rfl⟩
abbrev main_cst_20 : Ref sig .tc := ⟨.hbm, 84, rfl⟩
abbrev main_v61 : Ref sig .tc := ⟨.hbm, 85, rfl⟩
abbrev main_cst_21 : Ref sig .tc := ⟨.hbm, 86, rfl⟩
abbrev main_v62 : Ref sig .tc := ⟨.hbm, 87, rfl⟩
abbrev main_v63 : Ref sig .tc := ⟨.hbm, 88, rfl⟩
abbrev main_cst_22 : Ref sig .tc := ⟨.hbm, 89, rfl⟩
abbrev main_v64 : Ref sig .tc := ⟨.hbm, 90, rfl⟩
abbrev main_cst_23 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_24 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  slices_S8192x8192_S4096x4096_0_0 : S8192x8192.Slices ![0, 0] S4096x4096
  reducesTo_S4096x4096_S_d0_1 : S4096x4096.ReducesTo [0, 1] S_
  slices_S8192x8192_S4096x4096_4096_4096 : S8192x8192.Slices ![4096, 4096] S4096x4096
  slices_S8192x8192_S4096x4096_0_4096 : S8192x8192.Slices ![0, 4096] S4096x4096
  slices_S8192x8192_S4096x4096_4096_0 : S8192x8192.Slices ![4096, 0] S4096x4096
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Kernel.Stage1Runs.lean ====
/-
  The first region: the pass that adds up and maximises the clipped squared distances
  max(|x_r|² + |x_c|² − 2⟨x_r, x_c⟩, 0) over all pairs of rows, one 1024 × 1024 tile of pairs per grid point, into two
  one-element accumulators that stay in their buffers from one grid point to the next and are written back after the
  last one. Here: the blocks the pipeline hands the body, the one condition of the body (the accumulators are reset at
  the first grid point and nowhere else), and the body run once per case on arbitrary whole buffers.
  Case "first": both accumulators are overwritten before they are read, so what they held does not matter.
  Case "later": both are read (their contents are parameters) and then overwritten.
  Everything is stated for any float instance and at an arbitrary contents V of the core's buffers on entry.
-/
import proofs.«149507_j24644522344587_1_alg».proof.Proof.Gen.Kernel.Launch
import proofs.«149507_j24644522344587_1_alg».proof.Proof.Gen.Kernel.Skeleton
import proofs.«149507_j24644522344587_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole array of rows sits in its buffer at every grid point: it is fetched once and its block never moves. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- So does the vector of squared norms. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one condition -/

/-- "Both grid coordinates are zero", as the body computes it. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first grid point only. -/
theorem hcond0 : ∀ t : Fin cfg0.N, cond0 (grid0.coords t) ↔ t.val = 0 :=
  (by decide +kernel : ∀ t : Fin grid0.N, cond0 (grid0.coords t) ↔ t.val = 0)

/-! ## The buffers the body is called on -/

/-- One buffer of each accumulator's window, through which its contents are stated. -/
abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view
/-- Each window's current buffer at grid point t, spelled as the pipeline passes it, and its wholeness. -/
abbrev ms0_0 (t : Fin cfg0.N) : Memref sig .tc .vmem S8192x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

/-! ## The body, run once per case -/

set_option maxHeartbeats 2000000 in
/-- The first grid point. On whole buffers — the two inputs at given contents, the accumulators at anything — the body
    runs to the end, leaves the inputs as they were and each accumulator with a list of stores written into it (last
    first); the two lists are part of what is stated: there are such lists. -/
noncomputable def kernelRun0_A (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__stage1_kernel i arg2 harg2 arg3 harg3 arg4 harg4 arg5 harg5) K } := by
  refine ⟨?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- Every later grid point. The accumulators come in at given contents, are read, and are overwritten. -/
noncomputable def kernelRun0_B (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__stage1_kernel i arg2 harg2 arg3 harg3 arg4 harg4 arg5 harg5) K } := by
  refine ⟨?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.Hand

end
-- ==== Proof.Kernel.Stage1.lean ====
/-
  The first region, continued: what each case of the body leaves in the two accumulators (its stores cover the
  one-element buffer), the accumulators' contents grid point by grid point — the first point's case, then the later
  points' case applied to what the point before left —, the pipeline's proof data built on them, and the body's
  obligation at every grid point.
-/
import proofs.«149507_j24644522344587_1_alg».proof.Proof.Kernel.Stage1Runs

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves in the accumulators -/

theorem cover0_A_2 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) (y : S1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1.size (by sl_kernel_rfl) y
theorem cover0_A_3 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) (y : S1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1.size (by sl_kernel_rfl) y
theorem cover0_B_2 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) (y : S1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1.size (by sl_kernel_rfl) y
theorem cover0_B_3 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) (y : S1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1.size (by sl_kernel_rfl) y

/-- The sum accumulator after the first point: the run's stores read back. -/
def out0_A_2 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) : Vec F S1x1 .f32 :=
  VO0_2.read (Elt F) (VO0_2.writes (Elt F) VO0_2.junk (kernelRun0_A c i arg2 harg2 arg3 harg3 arg4 harg4 arg5 harg5 hc0 x0 x1).1)
/-- The maximum accumulator after the first point. -/
def out0_A_3 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) : Vec F S1x1 .f32 :=
  VO0_3.read (Elt F) (VO0_3.writes (Elt F) VO0_3.junk (kernelRun0_A c i arg2 harg2 arg3 harg3 arg4 harg4 arg5 harg5 hc0 x0 x1).2.1)
/-- The sum accumulator after a later point, from what it held before. -/
def out0_B_2 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) : Vec F S1x1 .f32 :=
  VO0_2.read (Elt F) (VO0_2.writes (Elt F) VO0_2.junk (kernelRun0_B c i arg2 harg2 arg3 harg3 arg4 harg4 arg5 harg5 hc0 x0 x1 xo2 xo3).1)
/-- The maximum accumulator after a later point, from what it held before. -/
def out0_B_3 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) : Vec F S1x1 .f32 :=
  VO0_3.read (Elt F) (VO0_3.writes (Elt F) VO0_3.junk (kernelRun0_B c i arg2 harg2 arg3 harg3 arg4 harg4 arg5 harg5 hc0 x0 x1 xo2 xo3).2.1)

/-! ## The accumulators, grid point by grid point -/

/-- What the two accumulators hold after the body at position n: the first point's case at n = 0, and from then on
    the later points' case applied to what position n − 1 left (the buffers are not written back in between). -/
def outsAt0 (c : Dev nD) : (n : ℕ) → n < cfg0.N → Vec F S1x1 .f32 × Vec F S1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr rfl) (iblk0 V c 0 ⟨0, hn⟩) (iblk0 V c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr rfl) (iblk0 V c 0 ⟨0, hn⟩) (iblk0 V c 1 ⟨0, hn⟩))
  | n + 1, hn =>
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => Nat.succ_ne_zero n ((hcond0 ⟨n + 1, hn⟩).mp h)) (iblk0 V c 0 ⟨n + 1, hn⟩) (iblk0 V c 1 ⟨n + 1, hn⟩)
        (outsAt0 c n (Nat.lt_of_succ_lt hn)).1 (outsAt0 c n (Nat.lt_of_succ_lt hn)).2,
     out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => Nat.succ_ne_zero n ((hcond0 ⟨n + 1, hn⟩).mp h)) (iblk0 V c 0 ⟨n + 1, hn⟩) (iblk0 V c 1 ⟨n + 1, hn⟩)
        (outsAt0 c n (Nat.lt_of_succ_lt hn)).1 (outsAt0 c n (Nat.lt_of_succ_lt hn)).2)

/-- At the first point. -/
theorem outsAt0_A (c : Dev nD) (t : Fin cfg0.N) (h0 : t.val = 0) :
    outsAt0 V c t.val t.isLt =
      (out0_A_2 c (grid0.coords t) (ms0_0 t) (hs0_0 t) (ms0_1 t) (hs0_1 t) (ms0_2 t) (hs0_2 t) (ms0_3 t) (hs0_3 t) ((hcond0 t).mpr h0) (iblk0 V c 0 t) (iblk0 V c 1 t),
       out0_A_3 c (grid0.coords t) (ms0_0 t) (hs0_0 t) (ms0_1 t) (hs0_1 t) (ms0_2 t) (hs0_2 t) (ms0_3 t) (hs0_3 t) ((hcond0 t).mpr h0) (iblk0 V c 0 t) (iblk0 V c 1 t)) := by
  obtain ⟨n, hn⟩ := t
  cases n with
  | zero => exact rfl
  | succ n => exact absurd h0 (Nat.succ_ne_zero n)

/-- At a later point. -/
theorem outsAt0_B (c : Dev nD) (t : Fin cfg0.N) (h0 : ¬t.val = 0) :
    outsAt0 V c t.val t.isLt =
      (out0_B_2 c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t)
          (outsAt0 V c (t.val - 1) (Nat.lt_of_le_of_lt (Nat.sub_le _ _) t.isLt)).1 (outsAt0 V c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t)
          (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The arrays as the region finds them; after the body at point t each input's buffer at its block and the
    accumulators at their running contents; the class invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point each accumulator's buffer holds what the body left at the point before: the point is not the
    first and the buffer was not written back in between. -/
theorem before0_2_B (c : Dev nD) (t : Fin cfg0.N) (h0 : ¬t.val = 0) (d) :
    (dat0 V c).before 2 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]
theorem before0_3_B (c : Dev nD) (t : Fin cfg0.N) (h0 : ¬t.val = 0) (d) :
    (dat0 V c).before 3 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body's obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the inputs' buffers hold their blocks; the point is the first or a later one; at a later
    one each accumulator holds what the point before left; so the case's run applies. The invariant and what the
    core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [outsAt0_A V c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    dsimp only
    simp only [before0_2_B V c t h0, before0_3_B V c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Stage2Runs.lean ====
/-
  The second region: the pass that, for every pair of rows, adds up five Gaussian kernels exp(−d / b_k) of the clipped
  squared distance d = max(|x_r|² + |x_c|² − 2⟨x_r, x_c⟩, 0), one 1024 × 1024 tile of pairs per grid point, into four
  one-element sums — one per quadrant of the matrix of pairs (rows and columns each split into a first and a second
  half) — that stay in their buffers from one grid point to the next and are written back after the last one.
  Here: the blocks the pipeline hands the body, the body's five conditions in closed form over the grid, where each
  sum's buffer is left alone, and the body run once per case on arbitrary whole buffers.
  Case Z (the first grid point): all four sums are reset before anything reads them, then the first is added to.
  Cases XX, XY, YX, YY (every other grid point, by the quadrant its tile lies in): one sum is read, added to and
  stored back; the other three are not touched.
  Everything is stated for any float instance and at an arbitrary contents V of the core's buffers on entry.
-/
import proofs.«149507_j24644522344587_1_alg».proof.Proof.Gen.Kernel.Launch
import proofs.«149507_j24644522344587_1_alg».proof.Proof.Gen.Kernel.Skeleton
import proofs.«149507_j24644522344587_1_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole array of rows sits in its buffer at every grid point: it is fetched once and its block never moves. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the vector of squared norms, -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and the row of bandwidths. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's five conditions

With (r, s) = (t / 8, t % 8) the coordinates of grid point t, and a row block "in the first half" when its
coordinate is below 4: the four sums are reset where r = s = 0; the tile's sum goes to the first sum where both
blocks are in the first half, to the third where only the row block is, to the fourth where only the column block
is, to the second where neither is. -/

abbrev cond1_1 (i : grid1.Coords) : Prop := k1_cond1 i = 1#1
abbrev cond1_2 (i : grid1.Coords) : Prop := k1_cond2 i = 1#1
abbrev cond1_3 (i : grid1.Coords) : Prop := k1_cond3 i = 1#1
abbrev cond1_4 (i : grid1.Coords) : Prop := k1_cond4 i = 1#1
abbrev cond1_5 (i : grid1.Coords) : Prop := k1_cond5 i = 1#1

theorem hcond1_1 : ∀ t : Fin cfg1.N, cond1_1 (grid1.coords t) ↔ t.val = 0 :=
  (by decide +kernel : ∀ t : Fin grid1.N, cond1_1 (grid1.coords t) ↔ t.val = 0)
theorem hcond1_2 : ∀ t : Fin cfg1.N, cond1_2 (grid1.coords t) ↔ (t.val / 8 < 4 ∧ t.val % 8 < 4) :=
  (by decide +kernel : ∀ t : Fin grid1.N, cond1_2 (grid1.coords t) ↔ (t.val / 8 < 4 ∧ t.val % 8 < 4))
theorem hcond1_3 : ∀ t : Fin cfg1.N, cond1_3 (grid1.coords t) ↔ (t.val / 8 < 4 ∧ ¬t.val % 8 < 4) :=
  (by decide +kernel : ∀ t : Fin grid1.N, cond1_3 (grid1.coords t) ↔ (t.val / 8 < 4 ∧ ¬t.val % 8 < 4))
theorem hcond1_4 : ∀ t : Fin cfg1.N, cond1_4 (grid1.coords t) ↔ (¬t.val / 8 < 4 ∧ t.val % 8 < 4) :=
  (by decide +kernel : ∀ t : Fin grid1.N, cond1_4 (grid1.coords t) ↔ (¬t.val / 8 < 4 ∧ t.val % 8 < 4))
theorem hcond1_5 : ∀ t : Fin cfg1.N, cond1_5 (grid1.coords t) ↔ (¬t.val / 8 < 4 ∧ ¬t.val % 8 < 4) :=
  (by decide +kernel : ∀ t : Fin grid1.N, cond1_5 (grid1.coords t) ↔ (¬t.val / 8 < 4 ∧ ¬t.val % 8 < 4))

/-! ## Where a sum's buffer is left alone

A sum's buffer is stored into exactly where the reset or its own condition holds. -/

theorem hidle1_3 : ∀ t : Fin cfg1.N, cfg1.idle 3 (cfg1.grid.coords t) = true ↔ (t.val ≠ 0 ∧ ¬(t.val / 8 < 4 ∧ t.val % 8 < 4)) :=
  (by decide +kernel : ∀ t : Fin grid1.N, idle1 3 (grid1.coords t) = true ↔ (t.val ≠ 0 ∧ ¬(t.val / 8 < 4 ∧ t.val % 8 < 4)))
theorem hidle1_4 : ∀ t : Fin cfg1.N, cfg1.idle 4 (cfg1.grid.coords t) = true ↔ (t.val ≠ 0 ∧ ¬(¬t.val / 8 < 4 ∧ ¬t.val % 8 < 4)) :=
  (by decide +kernel : ∀ t : Fin grid1.N, idle1 4 (grid1.coords t) = true ↔ (t.val ≠ 0 ∧ ¬(¬t.val / 8 < 4 ∧ ¬t.val % 8 < 4)))
theorem hidle1_5 : ∀ t : Fin cfg1.N, cfg1.idle 5 (cfg1.grid.coords t) = true ↔ (t.val ≠ 0 ∧ ¬(t.val / 8 < 4 ∧ ¬t.val % 8 < 4)) :=
  (by decide +kernel : ∀ t : Fin grid1.N, idle1 5 (grid1.coords t) = true ↔ (t.val ≠ 0 ∧ ¬(t.val / 8 < 4 ∧ ¬t.val % 8 < 4)))
theorem hidle1_6 : ∀ t : Fin cfg1.N, cfg1.idle 6 (cfg1.grid.coords t) = true ↔ (t.val ≠ 0 ∧ ¬(¬t.val / 8 < 4 ∧ t.val % 8 < 4)) :=
  (by decide +kernel : ∀ t : Fin grid1.N, idle1 6 (grid1.coords t) = true ↔ (t.val ≠ 0 ∧ ¬(¬t.val / 8 < 4 ∧ t.val % 8 < 4)))

/-! ## The buffers the body is called on -/

/-- One buffer of each sum's window, through which its contents are stated. -/
abbrev VO1_3 : View sig .tc .vmem S1x1 .f32 := (Memref.whole cc1_stg3_0 : Memref sig .tc .vmem S1x1 .f32).view
abbrev VO1_4 : View sig .tc .vmem S1x1 .f32 := (Memref.whole cc1_stg4_0 : Memref sig .tc .vmem S1x1 .f32).view
abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view
/-- Each window's current buffer at grid point t, spelled as the pipeline passes it, and its wholeness. -/
abbrev ms1_0 (t : Fin cfg1.N) : Memref sig .tc .vmem S8192x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)

set_option maxHeartbeats 4000000 in
/-- The first grid point. On whole buffers — the three inputs at given contents, the four sums at anything — the body
    runs to the end, leaves the inputs as they were and each sum with a list of stores written into it (last first):
    every sum is reset before it is read, so what it held does not matter; the first sum is then read back and the
    tile's sum added to it. The four lists of stores are part of what is stated: there are such lists. -/
noncomputable def kernelRun1_Z (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) :
    Σ' (L3 : List (View.Piece (Elt F) S1x1 .f32)) (L4 : List (View.Piece (Elt F) S1x1 .f32)) (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, ?_, ?_, ?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

set_option maxHeartbeats 4000000 in
/-- A grid point other than the first whose row block and column block are both in the first half: the first sum is read, the tile's sum is added, and it is stored back; the other three sums are not touched. On whole buffers — the three inputs and the four sums at given contents — the body runs to the end,
    leaves the inputs and the three other sums as they were, and the sum it adds to with a list of stores written
    into it (last first); the list is part of what is stated: there is such a list. -/
noncomputable def kernelRun1_XX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xo4 ∗ owns (c : Thread nD τ) arg7 fullShare xo5 ∗ owns (c : Thread nD τ) arg8 fullShare xo6) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6

set_option maxHeartbeats 4000000 in
/-- A grid point whose row block is in the first half and whose column block is not: the third sum is read, the tile's sum is added, and it is stored back; the other three sums are not touched. On whole buffers — the three inputs and the four sums at given contents — the body runs to the end,
    leaves the inputs and the three other sums as they were, and the sum it adds to with a list of stores written
    into it (last first); the list is part of what is stated: there is such a list. -/
noncomputable def kernelRun1_XY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬cond1_1 i) (hc2 : ¬cond1_2 i) (hc3 : cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    { L5 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ (∃ f, arg7.view.loc (c : Thread nD τ) ↦[arg7.view.set]{fullShare} arg7.view.writes (Elt F) f L5) ∗ owns (c : Thread nD τ) arg8 fullShare xo6) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact H6

set_option maxHeartbeats 4000000 in
/-- A grid point whose column block is in the first half and whose row block is not: the fourth sum is read, the tile's sum is added, and it is stored back; the other three sums are not touched. On whole buffers — the three inputs and the four sums at given contents — the body runs to the end,
    leaves the inputs and the three other sums as they were, and the sum it adds to with a list of stores written
    into it (last first); the list is part of what is stated: there is such a list. -/
noncomputable def kernelRun1_YX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬cond1_1 i) (hc2 : ¬cond1_2 i) (hc3 : ¬cond1_3 i) (hc4 : cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ (∃ f, arg8.view.loc (c : Thread nD τ) ↦[arg8.view.set]{fullShare} arg8.view.writes (Elt F) f L6)) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 4000000 in
/-- A grid point neither of whose blocks is in the first half: the second sum is read, the tile's sum is added, and it is stored back; the other three sums are not touched. On whole buffers — the three inputs and the four sums at given contents — the body runs to the end,
    leaves the inputs and the three other sums as they were, and the sum it adds to with a list of stores written
    into it (last first); the list is part of what is stated: there is such a list. -/
noncomputable def kernelRun1_YY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬cond1_1 i) (hc2 : ¬cond1_2 i) (hc3 : ¬cond1_3 i) (hc4 : ¬cond1_4 i) (hc5 : cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare xo3 ∗ (∃ f, arg6.view.loc (c : Thread nD τ) ↦[arg6.view.set]{fullShare} arg6.view.writes (Elt F) f L4) ∗ owns (c : Thread nD τ) arg7 fullShare xo5 ∗ owns (c : Thread nD τ) arg8 fullShare xo6) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact H6

end Cert.Kernel.Hand

end
-- ==== Proof.Kernel.Stage2.lean ====
/-
  The second region, continued: what each case of the body leaves in the sum it stores into (its stores cover the
  one-element buffer), the four sums' contents grid point by grid point — the first point's case, then at every later
  point the case of the quadrant its tile lies in applied to what the point before left, the three sums it does not
  touch carried over unchanged —, the pipeline's proof data built on them, what each sum's buffer holds when the body
  is entered (what the point before left, however many points left it alone in between), and the body's obligation at
  every grid point: where a sum is left alone and not written back its buffer is handed back as it was found.
-/
import proofs.«149507_j24644522344587_1_alg».proof.Proof.Kernel.Stage2Runs

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves in the sums it stores into -/

theorem cover1_Z_3 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (y : S1x1.Idx) :
    ∃ pc ∈ (kernelRun1_Z c i arg2 harg2 arg3 harg3 arg4 harg4 arg5 harg5 arg6 harg6 arg7 harg7 arg8 harg8 hc1 hc2 hc3 hc4 hc5 x0 x1 x2).1, y ∈ pc.1.set :=
  View.cover_of_tiledL (kernelRun1_Z c i arg2 harg2 arg3 harg3 arg4 harg4 arg5 harg5 arg6 harg6 arg7 harg7 arg8 harg8 hc1 hc2 hc3 hc4 hc5 x0 x1 x2).1 S1x1.size (by sl_kernel_rfl) y
/-- The first sum after the first point: the stores into it read back. -/
def out1_Z_3 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) : Vec F S1x1 .f32 :=
  VO1_3.read (Elt F) (VO1_3.writes (Elt F) VO1_3.junk (kernelRun1_Z c i arg2 harg2 arg3 harg3 arg4 harg4 arg5 harg5 arg6 harg6 arg7 harg7 arg8 harg8 hc1 hc2 hc3 hc4 hc5 x0 x1 x2).1)

theorem cover1_Z_4 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (y : S1x1.Idx) :
    ∃ pc ∈ (kernelRun1_Z c i arg2 harg2 arg3 harg3 arg4 harg4 arg5 harg5 arg6 harg6 arg7 harg7 arg8 harg8 hc1 hc2 hc3 hc4 hc5 x0 x1 x2).2.1, y ∈ pc.1.set :=
  View.cover_of_tiledL (kernelRun1_Z c i arg2 harg2 arg3 harg3 arg4 harg4 arg5 harg5 arg6 harg6 arg7 harg7 arg8 harg8 hc1 hc2 hc3 hc4 hc5 x0 x1 x2).2.1 S1x1.size (by sl_kernel_rfl) y
/-- The second sum after the first point: the stores into it read back. -/
def out1_Z_4 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) : Vec F S1x1 .f32 :=
  VO1_4.read (Elt F) (VO1_4.writes (Elt F) VO1_4.junk (kernelRun1_Z c i arg2 harg2 arg3 harg3 arg4 harg4 arg5 harg5 arg6 harg6 arg7 harg7 arg8 harg8 hc1 hc2 hc3 hc4 hc5 x0 x1 x2).2.1)

theorem cover1_Z_5 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (y : S1x1.Idx) :
    ∃ pc ∈ (kernelRun1_Z c i arg2 harg2 arg3 harg3 arg4 harg4 arg5 harg5 arg6 harg6 arg7 harg7 arg8 harg8 hc1 hc2 hc3 hc4 hc5 x0 x1 x2).2.2.1, y ∈ pc.1.set :=
  View.cover_of_tiledL (kernelRun1_Z c i arg2 harg2 arg3 harg3 arg4 harg4 arg5 harg5 arg6 harg6 arg7 harg7 arg8 harg8 hc1 hc2 hc3 hc4 hc5 x0 x1 x2).2.2.1 S1x1.size (by sl_kernel_rfl) y
/-- The third sum after the first point: the stores into it read back. -/
def out1_Z_5 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) : Vec F S1x1 .f32 :=
  VO1_5.read (Elt F) (VO1_5.writes (Elt F) VO1_5.junk (kernelRun1_Z c i arg2 harg2 arg3 harg3 arg4 harg4 arg5 harg5 arg6 harg6 arg7 harg7 arg8 harg8 hc1 hc2 hc3 hc4 hc5 x0 x1 x2).2.2.1)

theorem cover1_Z_6 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (y : S1x1.Idx) :
    ∃ pc ∈ (kernelRun1_Z c i arg2 harg2 arg3 harg3 arg4 harg4 arg5 harg5 arg6 harg6 arg7 harg7 arg8 harg8 hc1 hc2 hc3 hc4 hc5 x0 x1 x2).2.2.2.1, y ∈ pc.1.set :=
  View.cover_of_tiledL (kernelRun1_Z c i arg2 harg2 arg3 harg3 arg4 harg4 arg5 harg5 arg6 harg6 arg7 harg7 arg8 harg8 hc1 hc2 hc3 hc4 hc5 x0 x1 x2).2.2.2.1 S1x1.size (by sl_kernel_rfl) y
/-- The fourth sum after the first point: the stores into it read back. -/
def out1_Z_6 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) : Vec F S1x1 .f32 :=
  VO1_6.read (Elt F) (VO1_6.writes (Elt F) VO1_6.junk (kernelRun1_Z c i arg2 harg2 arg3 harg3 arg4 harg4 arg5 harg5 arg6 harg6 arg7 harg7 arg8 harg8 hc1 hc2 hc3 hc4 hc5 x0 x1 x2).2.2.2.1)

theorem cover1_XX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) (y : S1x1.Idx) :
    ∃ pc ∈ (kernelRun1_XX c i arg2 harg2 arg3 harg3 arg4 harg4 arg5 harg5 arg6 harg6 arg7 harg7 arg8 harg8 hc1 hc2 hc3 hc4 hc5 x0 x1 x2 xo3 xo4 xo5 xo6).1, y ∈ pc.1.set :=
  View.cover_of_tiledL (kernelRun1_XX c i arg2 harg2 arg3 harg3 arg4 harg4 arg5 harg5 arg6 harg6 arg7 harg7 arg8 harg8 hc1 hc2 hc3 hc4 hc5 x0 x1 x2 xo3 xo4 xo5 xo6).1 S1x1.size (by sl_kernel_rfl) y
/-- The first sum after a point of this case, from what the four sums held before. -/
def out1_XX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) : Vec F S1x1 .f32 :=
  VO1_3.read (Elt F) (VO1_3.writes (Elt F) VO1_3.junk (kernelRun1_XX c i arg2 harg2 arg3 harg3 arg4 harg4 arg5 harg5 arg6 harg6 arg7 harg7 arg8 harg8 hc1 hc2 hc3 hc4 hc5 x0 x1 x2 xo3 xo4 xo5 xo6).1)

theorem cover1_XY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) (y : S1x1.Idx) :
    ∃ pc ∈ (kernelRun1_XY c i arg2 harg2 arg3 harg3 arg4 harg4 arg5 harg5 arg6 harg6 arg7 harg7 arg8 harg8 hc1 hc2 hc3 hc4 hc5 x0 x1 x2 xo3 xo4 xo5 xo6).1, y ∈ pc.1.set :=
  View.cover_of_tiledL (kernelRun1_XY c i arg2 harg2 arg3 harg3 arg4 harg4 arg5 harg5 arg6 harg6 arg7 harg7 arg8 harg8 hc1 hc2 hc3 hc4 hc5 x0 x1 x2 xo3 xo4 xo5 xo6).1 S1x1.size (by sl_kernel_rfl) y
/-- The third sum after a point of this case, from what the four sums held before. -/
def out1_XY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) : Vec F S1x1 .f32 :=
  VO1_5.read (Elt F) (VO1_5.writes (Elt F) VO1_5.junk (kernelRun1_XY c i arg2 harg2 arg3 harg3 arg4 harg4 arg5 harg5 arg6 harg6 arg7 harg7 arg8 harg8 hc1 hc2 hc3 hc4 hc5 x0 x1 x2 xo3 xo4 xo5 xo6).1)

theorem cover1_YX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) (y : S1x1.Idx) :
    ∃ pc ∈ (kernelRun1_YX c i arg2 harg2 arg3 harg3 arg4 harg4 arg5 harg5 arg6 harg6 arg7 harg7 arg8 harg8 hc1 hc2 hc3 hc4 hc5 x0 x1 x2 xo3 xo4 xo5 xo6).1, y ∈ pc.1.set :=
  View.cover_of_tiledL (kernelRun1_YX c i arg2 harg2 arg3 harg3 arg4 harg4 arg5 harg5 arg6 harg6 arg7 harg7 arg8 harg8 hc1 hc2 hc3 hc4 hc5 x0 x1 x2 xo3 xo4 xo5 xo6).1 S1x1.size (by sl_kernel_rfl) y
/-- The fourth sum after a point of this case, from what the four sums held before. -/
def out1_YX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) : Vec F S1x1 .f32 :=
  VO1_6.read (Elt F) (VO1_6.writes (Elt F) VO1_6.junk (kernelRun1_YX c i arg2 harg2 arg3 harg3 arg4 harg4 arg5 harg5 arg6 harg6 arg7 harg7 arg8 harg8 hc1 hc2 hc3 hc4 hc5 x0 x1 x2 xo3 xo4 xo5 xo6).1)

theorem cover1_YY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : ¬cond1_4 i) (hc5 : cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) (y : S1x1.Idx) :
    ∃ pc ∈ (kernelRun1_YY c i arg2 harg2 arg3 harg3 arg4 harg4 arg5 harg5 arg6 harg6 arg7 harg7 arg8 harg8 hc1 hc2 hc3 hc4 hc5 x0 x1 x2 xo3 xo4 xo5 xo6).1, y ∈ pc.1.set :=
  View.cover_of_tiledL (kernelRun1_YY c i arg2 harg2 arg3 harg3 arg4 harg4 arg5 harg5 arg6 harg6 arg7 harg7 arg8 harg8 hc1 hc2 hc3 hc4 hc5 x0 x1 x2 xo3 xo4 xo5 xo6).1 S1x1.size (by sl_kernel_rfl) y
/-- The second sum after a point of this case, from what the four sums held before. -/
def out1_YY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : ¬cond1_4 i) (hc5 : cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) : Vec F S1x1 .f32 :=
  VO1_4.read (Elt F) (VO1_4.writes (Elt F) VO1_4.junk (kernelRun1_YY c i arg2 harg2 arg3 harg3 arg4 harg4 arg5 harg5 arg6 harg6 arg7 harg7 arg8 harg8 hc1 hc2 hc3 hc4 hc5 x0 x1 x2 xo3 xo4 xo5 xo6).1)

/-! ## The conditions at a grid point, from its position -/

theorem z_i {n : ℕ} (h : n = 0) : n / 8 < 4 := by omega
theorem z_j {n : ℕ} (h : n = 0) : n % 8 < 4 := by omega
theorem c1_of (t : Fin cfg1.N) (h : t.val = 0) : cond1_1 (grid1.coords t) := (hcond1_1 t).mpr h
theorem n1_of (t : Fin cfg1.N) (h : t.val ≠ 0) : ¬cond1_1 (grid1.coords t) := fun hc => h ((hcond1_1 t).mp hc)
theorem n1_of_j (t : Fin cfg1.N) (hj : ¬t.val % 8 < 4) : ¬cond1_1 (grid1.coords t) := fun hc => hj (z_j ((hcond1_1 t).mp hc))
theorem n1_of_i (t : Fin cfg1.N) (hi : ¬t.val / 8 < 4) : ¬cond1_1 (grid1.coords t) := fun hc => hi (z_i ((hcond1_1 t).mp hc))
theorem c2_of (t : Fin cfg1.N) (hi : t.val / 8 < 4) (hj : t.val % 8 < 4) : cond1_2 (grid1.coords t) := (hcond1_2 t).mpr ⟨hi, hj⟩
theorem n2_of (t : Fin cfg1.N) (h : ¬(t.val / 8 < 4 ∧ t.val % 8 < 4)) : ¬cond1_2 (grid1.coords t) := fun hc => h ((hcond1_2 t).mp hc)
theorem c3_of (t : Fin cfg1.N) (hi : t.val / 8 < 4) (hj : ¬t.val % 8 < 4) : cond1_3 (grid1.coords t) := (hcond1_3 t).mpr ⟨hi, hj⟩
theorem n3_of (t : Fin cfg1.N) (h : ¬(t.val / 8 < 4 ∧ ¬t.val % 8 < 4)) : ¬cond1_3 (grid1.coords t) := fun hc => h ((hcond1_3 t).mp hc)
theorem c4_of (t : Fin cfg1.N) (hi : ¬t.val / 8 < 4) (hj : t.val % 8 < 4) : cond1_4 (grid1.coords t) := (hcond1_4 t).mpr ⟨hi, hj⟩
theorem n4_of (t : Fin cfg1.N) (h : ¬(¬t.val / 8 < 4 ∧ t.val % 8 < 4)) : ¬cond1_4 (grid1.coords t) := fun hc => h ((hcond1_4 t).mp hc)
theorem c5_of (t : Fin cfg1.N) (hi : ¬t.val / 8 < 4) (hj : ¬t.val % 8 < 4) : cond1_5 (grid1.coords t) := (hcond1_5 t).mpr ⟨hi, hj⟩
theorem n5_of (t : Fin cfg1.N) (h : ¬(¬t.val / 8 < 4 ∧ ¬t.val % 8 < 4)) : ¬cond1_5 (grid1.coords t) := fun hc => h ((hcond1_5 t).mp hc)

/-! ## The four sums, grid point by grid point -/

/-- What the four sums (first, second, third, fourth) hold after the body at position n: the first point's case at
    n = 0; from then on the case of the quadrant the tile lies in, applied to what position n − 1 left, the three sums
    the case does not touch being what position n − 1 left (no buffer is written back in between). -/
def outsAt1 (c : Dev nD) : (n : ℕ) → n < cfg1.N → Vec F S1x1 .f32 × Vec F S1x1 .f32 × Vec F S1x1 .f32 × Vec F S1x1 .f32
  | 0, hn =>
    (out1_Z_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (c1_of ⟨0, hn⟩ (rfl : (⟨0, hn⟩ : Fin cfg1.N).val = 0)) (c2_of ⟨0, hn⟩ (z_i (rfl : (⟨0, hn⟩ : Fin cfg1.N).val = 0)) (z_j (rfl : (⟨0, hn⟩ : Fin cfg1.N).val = 0))) (n3_of ⟨0, hn⟩ (fun h => h.2 (z_j (rfl : (⟨0, hn⟩ : Fin cfg1.N).val = 0)))) (n4_of ⟨0, hn⟩ (fun h => h.1 (z_i (rfl : (⟨0, hn⟩ : Fin cfg1.N).val = 0)))) (n5_of ⟨0, hn⟩ (fun h => h.1 (z_i (rfl : (⟨0, hn⟩ : Fin cfg1.N).val = 0)))) (iblk1 V c 0 ⟨0, hn⟩) (iblk1 V c 1 ⟨0, hn⟩) (iblk1 V c 2 ⟨0, hn⟩),
     out1_Z_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (c1_of ⟨0, hn⟩ (rfl : (⟨0, hn⟩ : Fin cfg1.N).val = 0)) (c2_of ⟨0, hn⟩ (z_i (rfl : (⟨0, hn⟩ : Fin cfg1.N).val = 0)) (z_j (rfl : (⟨0, hn⟩ : Fin cfg1.N).val = 0))) (n3_of ⟨0, hn⟩ (fun h => h.2 (z_j (rfl : (⟨0, hn⟩ : Fin cfg1.N).val = 0)))) (n4_of ⟨0, hn⟩ (fun h => h.1 (z_i (rfl : (⟨0, hn⟩ : Fin cfg1.N).val = 0)))) (n5_of ⟨0, hn⟩ (fun h => h.1 (z_i (rfl : (⟨0, hn⟩ : Fin cfg1.N).val = 0)))) (iblk1 V c 0 ⟨0, hn⟩) (iblk1 V c 1 ⟨0, hn⟩) (iblk1 V c 2 ⟨0, hn⟩),
     out1_Z_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (c1_of ⟨0, hn⟩ (rfl : (⟨0, hn⟩ : Fin cfg1.N).val = 0)) (c2_of ⟨0, hn⟩ (z_i (rfl : (⟨0, hn⟩ : Fin cfg1.N).val = 0)) (z_j (rfl : (⟨0, hn⟩ : Fin cfg1.N).val = 0))) (n3_of ⟨0, hn⟩ (fun h => h.2 (z_j (rfl : (⟨0, hn⟩ : Fin cfg1.N).val = 0)))) (n4_of ⟨0, hn⟩ (fun h => h.1 (z_i (rfl : (⟨0, hn⟩ : Fin cfg1.N).val = 0)))) (n5_of ⟨0, hn⟩ (fun h => h.1 (z_i (rfl : (⟨0, hn⟩ : Fin cfg1.N).val = 0)))) (iblk1 V c 0 ⟨0, hn⟩) (iblk1 V c 1 ⟨0, hn⟩) (iblk1 V c 2 ⟨0, hn⟩),
     out1_Z_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (c1_of ⟨0, hn⟩ (rfl : (⟨0, hn⟩ : Fin cfg1.N).val = 0)) (c2_of ⟨0, hn⟩ (z_i (rfl : (⟨0, hn⟩ : Fin cfg1.N).val = 0)) (z_j (rfl : (⟨0, hn⟩ : Fin cfg1.N).val = 0))) (n3_of ⟨0, hn⟩ (fun h => h.2 (z_j (rfl : (⟨0, hn⟩ : Fin cfg1.N).val = 0)))) (n4_of ⟨0, hn⟩ (fun h => h.1 (z_i (rfl : (⟨0, hn⟩ : Fin cfg1.N).val = 0)))) (n5_of ⟨0, hn⟩ (fun h => h.1 (z_i (rfl : (⟨0, hn⟩ : Fin cfg1.N).val = 0)))) (iblk1 V c 0 ⟨0, hn⟩) (iblk1 V c 1 ⟨0, hn⟩) (iblk1 V c 2 ⟨0, hn⟩))
  | n + 1, hn =>
    if hi : (n + 1) / 8 < 4 then
      if hj : (n + 1) % 8 < 4 then
        (out1_XX c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (n1_of ⟨n + 1, hn⟩ (Nat.succ_ne_zero n)) (c2_of ⟨n + 1, hn⟩ hi hj) (n3_of ⟨n + 1, hn⟩ (fun h => h.2 hj)) (n4_of ⟨n + 1, hn⟩ (fun h => h.1 hi)) (n5_of ⟨n + 1, hn⟩ (fun h => h.1 hi)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2,
         (outsAt1 c n (Nat.lt_of_succ_lt hn)).2.1,
         (outsAt1 c n (Nat.lt_of_succ_lt hn)).2.2.1,
         (outsAt1 c n (Nat.lt_of_succ_lt hn)).2.2.2)
      else
        ((outsAt1 c n (Nat.lt_of_succ_lt hn)).1,
         (outsAt1 c n (Nat.lt_of_succ_lt hn)).2.1,
         out1_XY c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (n1_of_j ⟨n + 1, hn⟩ hj) (n2_of ⟨n + 1, hn⟩ (fun h => hj h.2)) (c3_of ⟨n + 1, hn⟩ hi hj) (n4_of ⟨n + 1, hn⟩ (fun h => h.1 hi)) (n5_of ⟨n + 1, hn⟩ (fun h => h.1 hi)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2,
         (outsAt1 c n (Nat.lt_of_succ_lt hn)).2.2.2)
    else
      if hj : (n + 1) % 8 < 4 then
        ((outsAt1 c n (Nat.lt_of_succ_lt hn)).1,
         (outsAt1 c n (Nat.lt_of_succ_lt hn)).2.1,
         (outsAt1 c n (Nat.lt_of_succ_lt hn)).2.2.1,
         out1_YX c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (n1_of_i ⟨n + 1, hn⟩ hi) (n2_of ⟨n + 1, hn⟩ (fun h => hi h.1)) (n3_of ⟨n + 1, hn⟩ (fun h => hi h.1)) (c4_of ⟨n + 1, hn⟩ hi hj) (n5_of ⟨n + 1, hn⟩ (fun h => h.2 hj)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2)
      else
        ((outsAt1 c n (Nat.lt_of_succ_lt hn)).1,
         out1_YY c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (n1_of_i ⟨n + 1, hn⟩ hi) (n2_of ⟨n + 1, hn⟩ (fun h => hi h.1)) (n3_of ⟨n + 1, hn⟩ (fun h => hi h.1)) (n4_of ⟨n + 1, hn⟩ (fun h => hj h.2)) (c5_of ⟨n + 1, hn⟩ hi hj) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2,
         (outsAt1 c n (Nat.lt_of_succ_lt hn)).2.2.1,
         (outsAt1 c n (Nat.lt_of_succ_lt hn)).2.2.2)

/-- At the first point. -/
theorem outsAt1_Z (c : Dev nD) (t : Fin cfg1.N) (h0 : t.val = 0) :
    outsAt1 V c t.val t.isLt =
      (out1_Z_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t),
       out1_Z_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t),
       out1_Z_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t),
       out1_Z_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t)) := by
  obtain ⟨n, hn⟩ := t
  cases n with
  | zero => exact rfl
  | succ n => exact absurd h0 (Nat.succ_ne_zero n)

/-- At a later point whose tile lies in the first quadrant (both blocks in the first half). -/
theorem outsAt1_XX (c : Dev nD) (t : Fin cfg1.N) (hi : t.val / 8 < 4) (hj : t.val % 8 < 4) (h0 : t.val ≠ 0) :
    outsAt1 V c t.val t.isLt =
      (out1_XX c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (n1_of t h0) (c2_of t hi hj) (n3_of t (fun h => h.2 hj)) (n4_of t (fun h => h.1 hi)) (n5_of t (fun h => h.1 hi)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
       (outsAt1 V c (t.val - 1) (Nat.lt_of_le_of_lt (Nat.sub_le _ _) t.isLt)).2.1,
       (outsAt1 V c (t.val - 1) (Nat.lt_of_le_of_lt (Nat.sub_le _ _) t.isLt)).2.2.1,
       (outsAt1 V c (t.val - 1) (Nat.lt_of_le_of_lt (Nat.sub_le _ _) t.isLt)).2.2.2) := by
  obtain ⟨n, hn⟩ := t
  cases n with
  | zero => exact absurd rfl h0
  | succ n => exact (dif_pos hi).trans ((dif_pos hj).trans rfl)

/-- At a point whose row block is in the first half and whose column block is not. -/
theorem outsAt1_XY (c : Dev nD) (t : Fin cfg1.N) (hi : t.val / 8 < 4) (hj : ¬t.val % 8 < 4) :
    outsAt1 V c t.val t.isLt =
      ((outsAt1 V c (t.val - 1) (Nat.lt_of_le_of_lt (Nat.sub_le _ _) t.isLt)).1,
       (outsAt1 V c (t.val - 1) (Nat.lt_of_le_of_lt (Nat.sub_le _ _) t.isLt)).2.1,
       out1_XY c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (n1_of_j t hj) (n2_of t (fun h => hj h.2)) (c3_of t hi hj) (n4_of t (fun h => h.1 hi)) (n5_of t (fun h => h.1 hi)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
       (outsAt1 V c (t.val - 1) (Nat.lt_of_le_of_lt (Nat.sub_le _ _) t.isLt)).2.2.2) := by
  obtain ⟨n, hn⟩ := t
  cases n with
  | zero => exact absurd (z_j rfl) hj
  | succ n => exact (dif_pos hi).trans ((dif_neg hj).trans rfl)

/-- At a point whose column block is in the first half and whose row block is not. -/
theorem outsAt1_YX (c : Dev nD) (t : Fin cfg1.N) (hi : ¬t.val / 8 < 4) (hj : t.val % 8 < 4) :
    outsAt1 V c t.val t.isLt =
      ((outsAt1 V c (t.val - 1) (Nat.lt_of_le_of_lt (Nat.sub_le _ _) t.isLt)).1,
       (outsAt1 V c (t.val - 1) (Nat.lt_of_le_of_lt (Nat.sub_le _ _) t.isLt)).2.1,
       (outsAt1 V c (t.val - 1) (Nat.lt_of_le_of_lt (Nat.sub_le _ _) t.isLt)).2.2.1,
       out1_YX c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (n1_of_i t hi) (n2_of t (fun h => hi h.1)) (n3_of t (fun h => hi h.1)) (c4_of t hi hj) (n5_of t (fun h => h.2 hj)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (z_i rfl) hi
  | succ n => exact (dif_neg hi).trans ((dif_pos hj).trans rfl)

/-- At a point neither of whose blocks is in the first half. -/
theorem outsAt1_YY (c : Dev nD) (t : Fin cfg1.N) (hi : ¬t.val / 8 < 4) (hj : ¬t.val % 8 < 4) :
    outsAt1 V c t.val t.isLt =
      ((outsAt1 V c (t.val - 1) (Nat.lt_of_le_of_lt (Nat.sub_le _ _) t.isLt)).1,
       out1_YY c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (n1_of_i t hi) (n2_of t (fun h => hi h.1)) (n3_of t (fun h => hi h.1)) (n4_of t (fun h => hj h.2)) (c5_of t hi hj) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
       (outsAt1 V c (t.val - 1) (Nat.lt_of_le_of_lt (Nat.sub_le _ _) t.isLt)).2.2.1,
       (outsAt1 V c (t.val - 1) (Nat.lt_of_le_of_lt (Nat.sub_le _ _) t.isLt)).2.2.2) := by
  obtain ⟨n, hn⟩ := t
  cases n with
  | zero => exact absurd (z_i rfl) hi
  | succ n => exact (dif_neg hi).trans ((dif_neg hj).trans rfl)

/-! ## The pipeline's proof data -/

/-- The arrays as the region finds them; after the body at point t each input's buffer at its block and the four
    sums at their running contents; the class invariant; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2.1
    | ⟨6, _⟩ => (outsAt1 V c t.val t.isLt).2.2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2.1 := by dsimp only [dat1]
theorem after1_6 (c : Dev nD) (t : Fin cfg1.N) : (dat1 V c).after 6 t = (outsAt1 V c t.val t.isLt).2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## What a sum's buffer holds when the body is entered

After the first point a sum's buffer always holds something the body stored: the first point stores into all four,
and no buffer is written back before the last point. -/

/-- A buffer stored into at the first point and written back at the last point only holds stored contents at every
    later position. -/
theorem fresh1_out (w : Fin cfg1.W) (hfl : ∀ t : Fin cfg1.N, (cfg1.win w).flush t = true ↔ t.val % 64 = 63)
    (hi0 : ∀ h : 0 < cfg1.N, cfg1.idle w (cfg1.grid.coords ⟨0, h⟩) = false) :
    ∀ n, n < 63 → cfg1.fresh w (n + 1) = false := by
  have hN : cfg1.N = 64 := N_1
  intro n
  induction n with
  | zero =>
    intro _
    rw [cfg1.fresh_succ w 0 (by omega), hi0, Bool.false_and, Bool.or_false]
    exact Bool.eq_false_iff.mpr fun h => by have this : 0 % 64 = 63 := (hfl _).mp h; omega
  | succ n ih =>
    intro hn
    rw [cfg1.fresh_succ w (n + 1) (by omega), ih (by omega), Bool.and_false, Bool.or_false]
    exact Bool.eq_false_iff.mpr fun h => by have this : (n + 1) % 64 = 63 := (hfl _).mp h; omega

theorem live0_1_3 (h : 0 < cfg1.N) : cfg1.idle 3 (cfg1.grid.coords ⟨0, h⟩) = false :=
  Bool.eq_false_iff.mpr fun hh => ((hidle1_3 ⟨0, h⟩).mp hh).1 rfl

theorem live0_1_4 (h : 0 < cfg1.N) : cfg1.idle 4 (cfg1.grid.coords ⟨0, h⟩) = false :=
  Bool.eq_false_iff.mpr fun hh => ((hidle1_4 ⟨0, h⟩).mp hh).1 rfl

theorem live0_1_5 (h : 0 < cfg1.N) : cfg1.idle 5 (cfg1.grid.coords ⟨0, h⟩) = false :=
  Bool.eq_false_iff.mpr fun hh => ((hidle1_5 ⟨0, h⟩).mp hh).1 rfl

theorem live0_1_6 (h : 0 < cfg1.N) : cfg1.idle 6 (cfg1.grid.coords ⟨0, h⟩) = false :=
  Bool.eq_false_iff.mpr fun hh => ((hidle1_6 ⟨0, h⟩).mp hh).1 rfl

/-- A point that is not of the first sum's case leaves the first sum as the point before left it. -/
theorem keep1_3 (c : Dev nD) (t : Fin cfg1.N) (h : ¬(t.val / 8 < 4 ∧ t.val % 8 < 4)) :
    (outsAt1 V c t.val t.isLt).1 = (outsAt1 V c (t.val - 1) (Nat.lt_of_le_of_lt (Nat.sub_le _ _) t.isLt)).1 := by
  by_cases hi : t.val / 8 < 4
  · have hj : ¬t.val % 8 < 4 := fun hj => h ⟨hi, hj⟩
    exact congrArg (fun p => p.1) (outsAt1_XY V c t hi hj)
  · by_cases hj : t.val % 8 < 4
    · exact congrArg (fun p => p.1) (outsAt1_YX V c t hi hj)
    · exact congrArg (fun p => p.1) (outsAt1_YY V c t hi hj)
/-- Likewise the second sum, at a later point not of its case, -/
theorem keep1_4 (c : Dev nD) (t : Fin cfg1.N) (h0 : t.val ≠ 0) (h : ¬(¬t.val / 8 < 4 ∧ ¬t.val % 8 < 4)) :
    (outsAt1 V c t.val t.isLt).2.1 = (outsAt1 V c (t.val - 1) (Nat.lt_of_le_of_lt (Nat.sub_le _ _) t.isLt)).2.1 := by
  by_cases hi : t.val / 8 < 4
  · by_cases hj : t.val % 8 < 4
    · exact congrArg (fun p => p.2.1) (outsAt1_XX V c t hi hj h0)
    · exact congrArg (fun p => p.2.1) (outsAt1_XY V c t hi hj)
  · by_cases hj : t.val % 8 < 4
    · exact congrArg (fun p => p.2.1) (outsAt1_YX V c t hi hj)
    · exact absurd ⟨hi, hj⟩ h
/-- the third, -/
theorem keep1_5 (c : Dev nD) (t : Fin cfg1.N) (h0 : t.val ≠ 0) (h : ¬(t.val / 8 < 4 ∧ ¬t.val % 8 < 4)) :
    (outsAt1 V c t.val t.isLt).2.2.1 = (outsAt1 V c (t.val - 1) (Nat.lt_of_le_of_lt (Nat.sub_le _ _) t.isLt)).2.2.1 := by
  by_cases hi : t.val / 8 < 4
  · by_cases hj : t.val % 8 < 4
    · exact congrArg (fun p => p.2.2.1) (outsAt1_XX V c t hi hj h0)
    · exact absurd ⟨hi, hj⟩ h
  · by_cases hj : t.val % 8 < 4
    · exact congrArg (fun p => p.2.2.1) (outsAt1_YX V c t hi hj)
    · exact congrArg (fun p => p.2.2.1) (outsAt1_YY V c t hi hj)
/-- and the fourth. -/
theorem keep1_6 (c : Dev nD) (t : Fin cfg1.N) (h0 : t.val ≠ 0) (h : ¬(¬t.val / 8 < 4 ∧ t.val % 8 < 4)) :
    (outsAt1 V c t.val t.isLt).2.2.2 = (outsAt1 V c (t.val - 1) (Nat.lt_of_le_of_lt (Nat.sub_le _ _) t.isLt)).2.2.2 := by
  by_cases hi : t.val / 8 < 4
  · by_cases hj : t.val % 8 < 4
    · exact congrArg (fun p => p.2.2.2) (outsAt1_XX V c t hi hj h0)
    · exact congrArg (fun p => p.2.2.2) (outsAt1_XY V c t hi hj)
  · by_cases hj : t.val % 8 < 4
    · exact absurd ⟨hi, hj⟩ h
    · exact congrArg (fun p => p.2.2.2) (outsAt1_YY V c t hi hj)

/-- Where the first sum's buffer is left alone, what is stated of it after the point is what is stated after the
    point before. -/
theorem carry1_3 (c : Dev nD) (t : Fin cfg1.N) (h0 : t.val ≠ 0) (hi : cfg1.idle 3 (cfg1.grid.coords t) = true) (_ : cfg1.fresh 3 t.val = false) :
    (dat1 V c).after 3 t = (dat1 V c).after 3 ⟨t.val - 1, Nat.lt_of_le_of_lt (Nat.sub_le _ _) t.isLt⟩ := by
  rw [after1_3, after1_3]
  exact keep1_3 V c t ((hidle1_3 t).mp hi).2
/-- At every later point the first sum's buffer holds what the point before left of it. -/
theorem before1_3 (c : Dev nD) (t : Fin cfg1.N) (h0 : t.val ≠ 0) (d) :
    (dat1 V c).before 3 t d = (outsAt1 V c (t.val - 1) (Nat.lt_of_le_of_lt (Nat.sub_le _ _) t.isLt)).1 := by
  have hN : t.val < 64 := lt_of_lt_of_eq t.isLt (show cfg1.N = 64 from N_1)
  have hfr : cfg1.fresh 3 t.val = false := by
    obtain ⟨k, hk⟩ := Nat.exists_eq_succ_of_ne_zero h0
    rw [hk]; exact fresh1_out 3 flush1_3 live0_1_3 k (by omega)
  rw [Dat.before_out_traj (dat1 V c) 3 rfl (fun _ _ => rfl) (carry1_3 V c) t.val t rfl d, hfr, if_neg Bool.false_ne_true]
  dsimp only [dat1]

/-- Where the second sum's buffer is left alone, what is stated of it after the point is what is stated after the
    point before. -/
theorem carry1_4 (c : Dev nD) (t : Fin cfg1.N) (h0 : t.val ≠ 0) (hi : cfg1.idle 4 (cfg1.grid.coords t) = true) (_ : cfg1.fresh 4 t.val = false) :
    (dat1 V c).after 4 t = (dat1 V c).after 4 ⟨t.val - 1, Nat.lt_of_le_of_lt (Nat.sub_le _ _) t.isLt⟩ := by
  rw [after1_4, after1_4]
  exact keep1_4 V c t h0 ((hidle1_4 t).mp hi).2
/-- At every later point the second sum's buffer holds what the point before left of it. -/
theorem before1_4 (c : Dev nD) (t : Fin cfg1.N) (h0 : t.val ≠ 0) (d) :
    (dat1 V c).before 4 t d = (outsAt1 V c (t.val - 1) (Nat.lt_of_le_of_lt (Nat.sub_le _ _) t.isLt)).2.1 := by
  have hN : t.val < 64 := lt_of_lt_of_eq t.isLt (show cfg1.N = 64 from N_1)
  have hfr : cfg1.fresh 4 t.val = false := by
    obtain ⟨k, hk⟩ := Nat.exists_eq_succ_of_ne_zero h0
    rw [hk]; exact fresh1_out 4 flush1_4 live0_1_4 k (by omega)
  rw [Dat.before_out_traj (dat1 V c) 4 rfl (fun _ _ => rfl) (carry1_4 V c) t.val t rfl d, hfr, if_neg Bool.false_ne_true]
  dsimp only [dat1]

/-- Where the third sum's buffer is left alone, what is stated of it after the point is what is stated after the
    point before. -/
theorem carry1_5 (c : Dev nD) (t : Fin cfg1.N) (h0 : t.val ≠ 0) (hi : cfg1.idle 5 (cfg1.grid.coords t) = true) (_ : cfg1.fresh 5 t.val = false) :
    (dat1 V c).after 5 t = (dat1 V c).after 5 ⟨t.val - 1, Nat.lt_of_le_of_lt (Nat.sub_le _ _) t.isLt⟩ := by
  rw [after1_5, after1_5]
  exact keep1_5 V c t h0 ((hidle1_5 t).mp hi).2
/-- At every later point the third sum's buffer holds what the point before left of it. -/
theorem before1_5 (c : Dev nD) (t : Fin cfg1.N) (h0 : t.val ≠ 0) (d) :
    (dat1 V c).before 5 t d = (outsAt1 V c (t.val - 1) (Nat.lt_of_le_of_lt (Nat.sub_le _ _) t.isLt)).2.2.1 := by
  have hN : t.val < 64 := lt_of_lt_of_eq t.isLt (show cfg1.N = 64 from N_1)
  have hfr : cfg1.fresh 5 t.val = false := by
    obtain ⟨k, hk⟩ := Nat.exists_eq_succ_of_ne_zero h0
    rw [hk]; exact fresh1_out 5 flush1_5 live0_1_5 k (by omega)
  rw [Dat.before_out_traj (dat1 V c) 5 rfl (fun _ _ => rfl) (carry1_5 V c) t.val t rfl d, hfr, if_neg Bool.false_ne_true]
  dsimp only [dat1]

/-- Where the fourth sum's buffer is left alone, what is stated of it after the point is what is stated after the
    point before. -/
theorem carry1_6 (c : Dev nD) (t : Fin cfg1.N) (h0 : t.val ≠ 0) (hi : cfg1.idle 6 (cfg1.grid.coords t) = true) (_ : cfg1.fresh 6 t.val = false) :
    (dat1 V c).after 6 t = (dat1 V c).after 6 ⟨t.val - 1, Nat.lt_of_le_of_lt (Nat.sub_le _ _) t.isLt⟩ := by
  rw [after1_6, after1_6]
  exact keep1_6 V c t h0 ((hidle1_6 t).mp hi).2
/-- At every later point the fourth sum's buffer holds what the point before left of it. -/
theorem before1_6 (c : Dev nD) (t : Fin cfg1.N) (h0 : t.val ≠ 0) (d) :
    (dat1 V c).before 6 t d = (outsAt1 V c (t.val - 1) (Nat.lt_of_le_of_lt (Nat.sub_le _ _) t.isLt)).2.2.2 := by
  have hN : t.val < 64 := lt_of_lt_of_eq t.isLt (show cfg1.N = 64 from N_1)
  have hfr : cfg1.fresh 6 t.val = false := by
    obtain ⟨k, hk⟩ := Nat.exists_eq_succ_of_ne_zero h0
    rw [hk]; exact fresh1_out 6 flush1_6 live0_1_6 k (by omega)
  rw [Dat.before_out_traj (dat1 V c) 6 rfl (fun _ _ => rfl) (carry1_6 V c) t.val t rfl d, hfr, if_neg Bool.false_ne_true]
  dsimp only [dat1]

/-! ## The body's obligation -/

/-- What the obligation asks of a window's buffer after the body, where the body stores into it, -/
theorem leavesExact_live1 {c : Dev nD} (dat : Dat τ (Elt F) Unit ℕ (Pipeline.UD sig nD τ) ℕ cfg1 c) (w : Fin cfg1.W) (t : Fin cfg1.N)
    (hi : cfg1.idle w (cfg1.grid.coords t) = false) :
    dat.leavesExact w t = owns (c : Thread nD τ) ((cfg1.win w).stage (cfg1.slots t w)) fullShare (dat.after w t) := by
  unfold Dat.leavesExact; rw [hi]
/-- and where the buffer is written back after the body. -/
theorem leavesExact_flush1 {c : Dev nD} (dat : Dat τ (Elt F) Unit ℕ (Pipeline.UD sig nD τ) ℕ cfg1 c) (w : Fin cfg1.W) (t : Fin cfg1.N)
    (hf : (cfg1.win w).flush t = true) :
    dat.leavesExact w t = owns (c : Thread nD τ) ((cfg1.win w).stage (cfg1.slots t w)) fullShare (dat.after w t) := by
  unfold Dat.leavesExact; rw [hf]; cases cfg1.idle w (cfg1.grid.coords t) <;> rfl

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns: each input's buffer at its block; each sum's buffer at its stated contents where the body
    stores into it or the buffer is written back, and as it was found elsewhere. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ (dat1 V c).leavesExact 3 t ∗ (dat1 V c).leavesExact 4 t ∗ (dat1 V c).leavesExact 5 t ∗ (dat1 V c).leavesExact 6 t)

set_option maxHeartbeats 8000000 in
/-- The body at any point. The inputs' buffers hold their blocks. At the first point all four sums are reset, whatever
    they held. At a later point every sum's buffer holds what the point before left of it; the position says which
    quadrant the tile lies in, hence which case's run applies; the sum of that quadrant is handed back at its new
    contents, and each of the other three as it was found — which, at the last point, where every buffer is written
    back, is also its stated contents, an untouched sum being carried over. The invariant and what the core owes pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  have hN : t.val < 64 := lt_of_lt_of_eq t.isLt (show cfg1.N = 64 from N_1)
  by_cases h0 : t.val = 0
  · -- the first point: all four sums are stored into
    have hi3 : cfg1.idle 3 (cfg1.grid.coords t) = false := Bool.eq_false_iff.mpr fun h => ((hidle1_3 t).mp h).1 h0
    have hi4 : cfg1.idle 4 (cfg1.grid.coords t) = false := Bool.eq_false_iff.mpr fun h => ((hidle1_4 t).mp h).1 h0
    have hi5 : cfg1.idle 5 (cfg1.grid.coords t) = false := Bool.eq_false_iff.mpr fun h => ((hidle1_5 t).mp h).1 h0
    have hi6 : cfg1.idle 6 (cfg1.grid.coords t) = false := Bool.eq_false_iff.mpr fun h => ((hidle1_6 t).mp h).1 h0
    rw [leavesExact_live1 (dat1 V c) 3 t hi3, leavesExact_live1 (dat1 V c) 4 t hi4, leavesExact_live1 (dat1 V c) 5 t hi5, leavesExact_live1 (dat1 V c) 6 t hi6,
      after1_3, after1_4, after1_5, after1_6, outsAt1_Z V c t h0]
    dsimp only
    unfold out1_Z_3 out1_Z_4 out1_Z_5 out1_Z_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_Z c (grid1.coords t) _ _ _ _ _ _ _ _ _ _ _ _ _ _ (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_Z_3 c _ _ _ _ _ _ _ _ _ _ _ _ _ _ _ _ _ _ _ _ _ _ _)
    isplitl [H4]
    · unfold owns; iexists _; isplitr
      swap; · iexact H4
      ipureintro; exact View.read_writes_of_cover _ _ _ _ _ (cover1_Z_4 c _ _ _ _ _ _ _ _ _ _ _ _ _ _ _ _ _ _ _ _ _ _ _)
    isplitl [H5]
    · unfold owns; iexists _; isplitr
      swap; · iexact H5
      ipureintro; exact View.read_writes_of_cover _ _ _ _ _ (cover1_Z_5 c _ _ _ _ _ _ _ _ _ _ _ _ _ _ _ _ _ _ _ _ _ _ _)
    unfold owns; iexists _; isplitr
    swap; · iexact H6
    ipureintro; exact View.read_writes_of_cover _ _ _ _ _ (cover1_Z_6 c _ _ _ _ _ _ _ _ _ _ _ _ _ _ _ _ _ _ _ _ _ _ _)
  · by_cases hi : t.val / 8 < 4
    · by_cases hj : t.val % 8 < 4
      · -- a later point of the first quadrant
        have hl3 : cfg1.idle 3 (cfg1.grid.coords t) = false := Bool.eq_false_iff.mpr fun h => ((hidle1_3 t).mp h).2 ⟨hi, hj⟩
        have hi4 : cfg1.idle 4 (cfg1.grid.coords t) = true := (hidle1_4 t).mpr ⟨h0, fun h => h.1 hi⟩
        have hf4 : (cfg1.win 4).flush t = false := Bool.eq_false_iff.mpr fun h => by have := (flush1_4 t).mp h; omega
        have hi5 : cfg1.idle 5 (cfg1.grid.coords t) = true := (hidle1_5 t).mpr ⟨h0, fun h => h.2 hj⟩
        have hf5 : (cfg1.win 5).flush t = false := Bool.eq_false_iff.mpr fun h => by have := (flush1_5 t).mp h; omega
        have hi6 : cfg1.idle 6 (cfg1.grid.coords t) = true := (hidle1_6 t).mpr ⟨h0, fun h => h.1 hi⟩
        have hf6 : (cfg1.win 6).flush t = false := Bool.eq_false_iff.mpr fun h => by have := (flush1_6 t).mp h; omega
        rw [leavesExact_live1 (dat1 V c) 3 t hl3, Dat.leavesExact_idle (dat1 V c) 4 t hi4 hf4, Dat.leavesExact_idle (dat1 V c) 5 t hi5 hf5, Dat.leavesExact_idle (dat1 V c) 6 t hi6 hf6]
        simp only [before1_3 V c t h0, before1_4 V c t h0, before1_5 V c t h0, before1_6 V c t h0]
        rw [after1_3, outsAt1_XX V c t hi hj h0]
        dsimp only
        unfold out1_XX
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun1_XX c (grid1.coords t) _ _ _ _ _ _ _ _ _ _ _ _ _ _ (n1_of t h0) (c2_of t hi hj) (n3_of t (fun h => h.2 hj)) (n4_of t (fun h => h.1 hi)) (n5_of t (fun h => h.1 hi)) (iblk1 V c 0 t) (iblk1 V c 1 t) (iblk1 V c 2 t) _ _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, ⟨%e3, H3⟩, H4, H5, H6⟩
        isplitl [HΦ]; · iexact HΦ
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_XX c _ _ _ _ _ _ _ _ _ _ _ _ _ _ _ _ _ _ _ _ _ _ _ _ _ _ _)
        isplitl [H4]; · iexists d4; iexact H4
        isplitl [H5]; · iexists d5; iexact H5
        iexists d6; iexact H6
      · -- row block in the first half, column block in the second
        have hl5 : cfg1.idle 5 (cfg1.grid.coords t) = false := Bool.eq_false_iff.mpr fun h => ((hidle1_5 t).mp h).2 ⟨hi, hj⟩
        have hi3 : cfg1.idle 3 (cfg1.grid.coords t) = true := (hidle1_3 t).mpr ⟨h0, fun h => hj h.2⟩
        have hf3 : (cfg1.win 3).flush t = false := Bool.eq_false_iff.mpr fun h => by have := (flush1_3 t).mp h; omega
        have hi4 : cfg1.idle 4 (cfg1.grid.coords t) = true := (hidle1_4 t).mpr ⟨h0, fun h => h.1 hi⟩
        have hf4 : (cfg1.win 4).flush t = false := Bool.eq_false_iff.mpr fun h => by have := (flush1_4 t).mp h; omega
        have hi6 : cfg1.idle 6 (cfg1.grid.coords t) = true := (hidle1_6 t).mpr ⟨h0, fun h => h.1 hi⟩
        have hf6 : (cfg1.win 6).flush t = false := Bool.eq_false_iff.mpr fun h => by have := (flush1_6 t).mp h; omega
        rw [Dat.leavesExact_idle (dat1 V c) 3 t hi3 hf3, Dat.leavesExact_idle (dat1 V c) 4 t hi4 hf4, leavesExact_live1 (dat1 V c) 5 t hl5, Dat.leavesExact_idle (dat1 V c) 6 t hi6 hf6]
        simp only [before1_3 V c t h0, before1_4 V c t h0, before1_5 V c t h0, before1_6 V c t h0]
        rw [after1_5, outsAt1_XY V c t hi hj]
        dsimp only
        unfold out1_XY
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun1_XY c (grid1.coords t) _ _ _ _ _ _ _ _ _ _ _ _ _ _ (n1_of_j t hj) (n2_of t (fun h => hj h.2)) (c3_of t hi hj) (n4_of t (fun h => h.1 hi)) (n5_of t (fun h => h.1 hi)) (iblk1 V c 0 t) (iblk1 V c 1 t) (iblk1 V c 2 t) _ _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexists d3; iexact H3
        isplitl [H4]; · iexists d4; iexact H4
        isplitl [H5]
        · unfold owns; iexists _; isplitr
          swap; · iexact H5
          ipureintro; exact View.read_writes_of_cover _ _ _ _ _ (cover1_XY c _ _ _ _ _ _ _ _ _ _ _ _ _ _ _ _ _ _ _ _ _ _ _ _ _ _ _)
        iexists d6; iexact H6
    · by_cases hj : t.val % 8 < 4
      · -- row block in the second half, column block in the first
        have hl6 : cfg1.idle 6 (cfg1.grid.coords t) = false := Bool.eq_false_iff.mpr fun h => ((hidle1_6 t).mp h).2 ⟨hi, hj⟩
        have hi3 : cfg1.idle 3 (cfg1.grid.coords t) = true := (hidle1_3 t).mpr ⟨h0, fun h => hi h.1⟩
        have hf3 : (cfg1.win 3).flush t = false := Bool.eq_false_iff.mpr fun h => by have := (flush1_3 t).mp h; omega
        have hi4 : cfg1.idle 4 (cfg1.grid.coords t) = true := (hidle1_4 t).mpr ⟨h0, fun h => h.2 hj⟩
        have hf4 : (cfg1.win 4).flush t = false := Bool.eq_false_iff.mpr fun h => by have := (flush1_4 t).mp h; omega
        have hi5 : cfg1.idle 5 (cfg1.grid.coords t) = true := (hidle1_5 t).mpr ⟨h0, fun h => hi h.1⟩
        have hf5 : (cfg1.win 5).flush t = false := Bool.eq_false_iff.mpr fun h => by have := (flush1_5 t).mp h; omega
        rw [Dat.leavesExact_idle (dat1 V c) 3 t hi3 hf3, Dat.leavesExact_idle (dat1 V c) 4 t hi4 hf4, Dat.leavesExact_idle (dat1 V c) 5 t hi5 hf5, leavesExact_live1 (dat1 V c) 6 t hl6]
        simp only [before1_3 V c t h0, before1_4 V c t h0, before1_5 V c t h0, before1_6 V c t h0]
        rw [after1_6, outsAt1_YX V c t hi hj]
        dsimp only
        unfold out1_YX
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun1_YX c (grid1.coords t) _ _ _ _ _ _ _ _ _ _ _ _ _ _ (n1_of_i t hi) (n2_of t (fun h => hi h.1)) (n3_of t (fun h => hi h.1)) (c4_of t hi hj) (n5_of t (fun h => h.2 hj)) (iblk1 V c 0 t) (iblk1 V c 1 t) (iblk1 V c 2 t) _ _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexists d3; iexact H3
        isplitl [H4]; · iexists d4; iexact H4
        isplitl [H5]; · iexists d5; iexact H5
        unfold owns; iexists _; isplitr
        swap; · iexact H6
        ipureintro; exact View.read_writes_of_cover _ _ _ _ _ (cover1_YX c _ _ _ _ _ _ _ _ _ _ _ _ _ _ _ _ _ _ _ _ _ _ _ _ _ _ _)
      · by_cases hl : t.val = 63
        · -- the last point: every sum's buffer is written back after the body
          have hl4 : cfg1.idle 4 (cfg1.grid.coords t) = false := Bool.eq_false_iff.mpr fun h => ((hidle1_4 t).mp h).2 ⟨hi, hj⟩
          have hf3 : (cfg1.win 3).flush t = true := (flush1_3 t).mpr (by omega)
          have hf5 : (cfg1.win 5).flush t = true := (flush1_5 t).mpr (by omega)
          have hf6 : (cfg1.win 6).flush t = true := (flush1_6 t).mpr (by omega)
          rw [leavesExact_flush1 (dat1 V c) 3 t hf3, leavesExact_live1 (dat1 V c) 4 t hl4, leavesExact_flush1 (dat1 V c) 5 t hf5, leavesExact_flush1 (dat1 V c) 6 t hf6]
          simp only [before1_3 V c t h0, before1_4 V c t h0, before1_5 V c t h0, before1_6 V c t h0]
          rw [after1_3, after1_4, after1_5, after1_6, outsAt1_YY V c t hi hj]
          dsimp only
          unfold out1_YY
          iintro ⟨HΦ, Ho, ⟨%d0, H0⟩, ⟨%d1, H1⟩, ⟨%d2, H2⟩, ⟨%d3, H3⟩, ⟨%d4, H4⟩, ⟨%d5, H5⟩, ⟨%d6, H6⟩⟩
          iapply ((kernelRun1_YY c (grid1.coords t) _ _ _ _ _ _ _ _ _ _ _ _ _ _ (n1_of_i t hi) (n2_of t (fun h => hi h.1)) (n3_of t (fun h => hi h.1)) (n4_of t (fun h => hj h.2)) (c5_of t hi hj) (iblk1 V c 0 t) (iblk1 V c 1 t) (iblk1 V c 2 t) _ _ _ _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          iintro ⟨H0, H1, H2, H3, ⟨%e4, H4⟩, H5, H6⟩
          isplitl [HΦ]; · iexact HΦ
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover1_YY c _ _ _ _ _ _ _ _ _ _ _ _ _ _ _ _ _ _ _ _ _ _ _ _ _ _ _)
          isplitl [H5]; · iexact H5
          iexact H6
        · -- both blocks in the second half, before the last point
          have hl4 : cfg1.idle 4 (cfg1.grid.coords t) = false := Bool.eq_false_iff.mpr fun h => ((hidle1_4 t).mp h).2 ⟨hi, hj⟩
          have hi3 : cfg1.idle 3 (cfg1.grid.coords t) = true := (hidle1_3 t).mpr ⟨h0, fun h => hi h.1⟩
          have hf3 : (cfg1.win 3).flush t = false := Bool.eq_false_iff.mpr fun h => by have := (flush1_3 t).mp h; omega
          have hi5 : cfg1.idle 5 (cfg1.grid.coords t) = true := (hidle1_5 t).mpr ⟨h0, fun h => hi h.1⟩
          have hf5 : (cfg1.win 5).flush t = false := Bool.eq_false_iff.mpr fun h => by have := (flush1_5 t).mp h; omega
          have hi6 : cfg1.idle 6 (cfg1.grid.coords t) = true := (hidle1_6 t).mpr ⟨h0, fun h => hj h.2⟩
          have hf6 : (cfg1.win 6).flush t = false := Bool.eq_false_iff.mpr fun h => by have := (flush1_6 t).mp h; omega
          rw [Dat.leavesExact_idle (dat1 V c) 3 t hi3 hf3, leavesExact_live1 (dat1 V c) 4 t hl4, Dat.leavesExact_idle (dat1 V c) 5 t hi5 hf5, Dat.leavesExact_idle (dat1 V c) 6 t hi6 hf6]
          simp only [before1_3 V c t h0, before1_4 V c t h0, before1_5 V c t h0, before1_6 V c t h0]
          rw [after1_4, outsAt1_YY V c t hi hj]
          dsimp only
          unfold out1_YY
          iintro ⟨HΦ, Ho, ⟨%d0, H0⟩, ⟨%d1, H1⟩, ⟨%d2, H2⟩, ⟨%d3, H3⟩, ⟨%d4, H4⟩, ⟨%d5, H5⟩, ⟨%d6, H6⟩⟩
          iapply ((kernelRun1_YY c (grid1.coords t) _ _ _ _ _ _ _ _ _ _ _ _ _ _ (n1_of_i t hi) (n2_of t (fun h => hi h.1)) (n3_of t (fun h => hi h.1)) (n4_of t (fun h => hj h.2)) (c5_of t hi hj) (iblk1 V c 0 t) (iblk1 V c 1 t) (iblk1 V c 2 t) _ _ _ _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          iintro ⟨H0, H1, H2, H3, ⟨%e4, H4⟩, H5, H6⟩
          isplitl [HΦ]; · iexact HΦ
          isplitl [Ho]; · iexact Ho
          isplitl [H0]; · iexact H0
          isplitl [H1]; · iexact H1
          isplitl [H2]; · iexact H2
          isplitl [H3]; · iexists d3; iexact H3
          isplitl [H4]
          · unfold owns; iexists _; isplitr
            swap; · iexact H4
            ipureintro; exact View.read_writes_of_cover _ _ _ _ _ (cover1_YY c _ _ _ _ _ _ _ _ _ _ _ _ _ _ _ _ _ _ _ _ _ _ _ _ _ _ _)
          isplitl [H5]; · iexists d5; iexact H5
          iexists d6; iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program as a run of five segments — a stretch of host operations, the first region, a second stretch, the
  second region, a last stretch — and what every unscoped buffer of a core holds when it ends: the launch memory
  folded through the host operations of each stretch, with each region's windows' arrays replaced by what its
  pipeline leaves (the inputs as they were, each accumulator's write-back). Every weakly fair execution terminates,
  nothing faults, and the final memory agrees with that fold on every unscoped buffer; in particular the two
  argument arrays, which no host operation writes and no region stages for output, end as launched.
  Stated for any float instance.
-/
import proofs.«149507_j24644522344587_1_alg».proof.Proof.Kernel.Stage1
import proofs.«149507_j24644522344587_1_alg».proof.Proof.Kernel.Stage2
import proofs.«149507_j24644522344587_1_alg».proof.Proof.Gen.Kernel.Regions

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the first region: its windows' arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- After the second stretch (the second region's entry). -/
abbrev W3 : Dev nD → Valuation τ sig (Elt F) := fun c => StableHlo.after hostOps1 (W2 m c)
abbrev VV3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (VV3 m) c).arrAt w cfg1.N
theorem W4_arr (c : Dev nD) (w : Fin cfg1.W) :
    W4 m c (Proc.devRef .tc (Pipeline.arrRef spec1 w)) = (dat1 (VV3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VV4 : (c : Dev nD) → (b : Ref sig .tc) → Buf (Elt F) ((c : Thread nD τ).loc b) := fun c b => W4 m c b
theorem hF1 (c : Dev nD) (w : Fin cfg1.W) : (dat1 (VV3 m) c).arrAt w cfg1.N = VV4 m c (Pipeline.arrRef spec1 w) :=
  (W4_arr m c w).symm
theorem hrest1 (c : Dev nD) : ∀ b, b ∉ Finset.univ.image (Pipeline.arrRef spec1) → VV4 m c b = VV3 m c b :=
  fun b hb => W4_of_ne m c b fun w e => hb (Finset.mem_image.mpr ⟨w, Finset.mem_univ _, e⟩)
/-- After the last stretch: the end. -/
abbrev W5 : Dev nD → Valuation τ sig (Elt F) := fun c => StableHlo.after hostOps2 (W4 m c)

/-! ### The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (VV1 m) c
  | ⟨1, _⟩ => fun c => dat1 (VV3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register somewhere. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the contents before it, left with its
    windows' arrays at what the pipeline leaves and every other buffer untouched. Its arrays are split out of the
    unscoped buffers on entry and put back on exit; the generator register goes into the class invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    windows' arrays at what the pipeline leaves and every other buffer untouched. Its arrays are split out of the
    unscoped buffers on entry and put back on exit; the generator register goes into the class invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (VV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- THE RUN: from any memory with zero counters every weakly fair execution of the program terminates, nothing
    faulting, and in the final memory every unscoped buffer of every core holds the fold W5. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run m ρ)

end Cert.Kernel.Hand

end
-- ==== Proof.KernelIdeal.Stage1Runs.lean ====
/-
  The first region: the pass that adds up and maximises the clipped squared distances
  max(|x_r|² + |x_c|² − 2⟨x_r, x_c⟩, 0) over all pairs of rows, one 1024 × 1024 tile of pairs per grid point, into two
  one-element accumulators that stay in their buffers from one grid point to the next and are written back after the
  last one. Here: the blocks the pipeline hands the body, the one condition of the body (the accumulators are reset at
  the first grid point and nowhere else), and the body run once per case on arbitrary whole buffers.
  Case "first": both accumulators are overwritten before they are read, so what they held does not matter.
  Case "later": both are read (their contents are parameters) and then overwritten.
  Everything is stated for any float instance and at an arbitrary contents V of the core's buffers on entry.
-/
import proofs.«149507_j24644522344587_1_alg».proof.Proof.Gen.KernelIdeal.Launch
import proofs.«149507_j24644522344587_1_alg».proof.Proof.Gen.KernelIdeal.Skeleton
import proofs.«149507_j24644522344587_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole array of rows sits in its buffer at every grid point: it is fetched once and its block never moves. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- So does the vector of squared norms. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one condition -/

/-- "Both grid coordinates are zero", as the body computes it. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first grid point only. -/
theorem hcond0 : ∀ t : Fin cfg0.N, cond0 (grid0.coords t) ↔ t.val = 0 :=
  (by decide +kernel : ∀ t : Fin grid0.N, cond0 (grid0.coords t) ↔ t.val = 0)

/-! ## The buffers the body is called on -/

/-- One buffer of each accumulator's window, through which its contents are stated. -/
abbrev VO0_2 : View sig .tc .vmem S1x1 .f32 := (Memref.whole cc0_stg2_0 : Memref sig .tc .vmem S1x1 .f32).view
abbrev VO0_3 : View sig .tc .vmem S1x1 .f32 := (Memref.whole cc0_stg3_0 : Memref sig .tc .vmem S1x1 .f32).view
/-- Each window's current buffer at grid point t, spelled as the pipeline passes it, and its wholeness. -/
abbrev ms0_0 (t : Fin cfg0.N) : Memref sig .tc .vmem S8192x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

/-! ## The body, run once per case -/

set_option maxHeartbeats 2000000 in
/-- The first grid point. On whole buffers — the two inputs at given contents, the accumulators at anything — the body
    runs to the end, leaves the inputs as they were and each accumulator with a list of stores written into it (last
    first); the two lists are part of what is stated: there are such lists. -/
noncomputable def kernelRun0_A (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__stage1_kernel i arg2 harg2 arg3 harg3 arg4 harg4 arg5 harg5) K } := by
  refine ⟨?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

set_option maxHeartbeats 2000000 in
/-- Every later grid point. The accumulators come in at given contents, are read, and are overwritten. -/
noncomputable def kernelRun0_B (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) :
    Σ' (L2 : List (View.Piece (Elt F) S1x1 .f32)), { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc0__stage1_kernel i arg2 harg2 arg3 harg3 arg4 harg4 arg5 harg5) K } := by
  refine ⟨?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.Hand

end
-- ==== Proof.KernelIdeal.Stage1.lean ====
/-
  The first region, continued: what each case of the body leaves in the two accumulators (its stores cover the
  one-element buffer), the accumulators' contents grid point by grid point — the first point's case, then the later
  points' case applied to what the point before left —, the pipeline's proof data built on them, and the body's
  obligation at every grid point.
-/
import proofs.«149507_j24644522344587_1_alg».proof.Proof.KernelIdeal.Stage1Runs

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves in the accumulators -/

theorem cover0_A_2 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) (y : S1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1.size (by sl_kernel_rfl) y
theorem cover0_A_3 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) (y : S1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1.size (by sl_kernel_rfl) y
theorem cover0_B_2 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) (y : S1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1.size (by sl_kernel_rfl) y
theorem cover0_B_3 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) (y : S1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1.size (by sl_kernel_rfl) y

/-- The sum accumulator after the first point: the run's stores read back. -/
def out0_A_2 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) : Vec F S1x1 .f32 :=
  VO0_2.read (Elt F) (VO0_2.writes (Elt F) VO0_2.junk (kernelRun0_A c i arg2 harg2 arg3 harg3 arg4 harg4 arg5 harg5 hc0 x0 x1).1)
/-- The maximum accumulator after the first point. -/
def out0_A_3 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) : Vec F S1x1 .f32 :=
  VO0_3.read (Elt F) (VO0_3.writes (Elt F) VO0_3.junk (kernelRun0_A c i arg2 harg2 arg3 harg3 arg4 harg4 arg5 harg5 hc0 x0 x1).2.1)
/-- The sum accumulator after a later point, from what it held before. -/
def out0_B_2 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) : Vec F S1x1 .f32 :=
  VO0_2.read (Elt F) (VO0_2.writes (Elt F) VO0_2.junk (kernelRun0_B c i arg2 harg2 arg3 harg3 arg4 harg4 arg5 harg5 hc0 x0 x1 xo2 xo3).1)
/-- The maximum accumulator after a later point, from what it held before. -/
def out0_B_3 (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) : Vec F S1x1 .f32 :=
  VO0_3.read (Elt F) (VO0_3.writes (Elt F) VO0_3.junk (kernelRun0_B c i arg2 harg2 arg3 harg3 arg4 harg4 arg5 harg5 hc0 x0 x1 xo2 xo3).2.1)

/-! ## The accumulators, grid point by grid point -/

/-- What the two accumulators hold after the body at position n: the first point's case at n = 0, and from then on
    the later points' case applied to what position n − 1 left (the buffers are not written back in between). -/
def outsAt0 (c : Dev nD) : (n : ℕ) → n < cfg0.N → Vec F S1x1 .f32 × Vec F S1x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr rfl) (iblk0 V c 0 ⟨0, hn⟩) (iblk0 V c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0 ⟨0, hn⟩).mpr rfl) (iblk0 V c 0 ⟨0, hn⟩) (iblk0 V c 1 ⟨0, hn⟩))
  | n + 1, hn =>
    (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => Nat.succ_ne_zero n ((hcond0 ⟨n + 1, hn⟩).mp h)) (iblk0 V c 0 ⟨n + 1, hn⟩) (iblk0 V c 1 ⟨n + 1, hn⟩)
        (outsAt0 c n (Nat.lt_of_succ_lt hn)).1 (outsAt0 c n (Nat.lt_of_succ_lt hn)).2,
     out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => Nat.succ_ne_zero n ((hcond0 ⟨n + 1, hn⟩).mp h)) (iblk0 V c 0 ⟨n + 1, hn⟩) (iblk0 V c 1 ⟨n + 1, hn⟩)
        (outsAt0 c n (Nat.lt_of_succ_lt hn)).1 (outsAt0 c n (Nat.lt_of_succ_lt hn)).2)

/-- At the first point. -/
theorem outsAt0_A (c : Dev nD) (t : Fin cfg0.N) (h0 : t.val = 0) :
    outsAt0 V c t.val t.isLt =
      (out0_A_2 c (grid0.coords t) (ms0_0 t) (hs0_0 t) (ms0_1 t) (hs0_1 t) (ms0_2 t) (hs0_2 t) (ms0_3 t) (hs0_3 t) ((hcond0 t).mpr h0) (iblk0 V c 0 t) (iblk0 V c 1 t),
       out0_A_3 c (grid0.coords t) (ms0_0 t) (hs0_0 t) (ms0_1 t) (hs0_1 t) (ms0_2 t) (hs0_2 t) (ms0_3 t) (hs0_3 t) ((hcond0 t).mpr h0) (iblk0 V c 0 t) (iblk0 V c 1 t)) := by
  obtain ⟨n, hn⟩ := t
  cases n with
  | zero => exact rfl
  | succ n => exact absurd h0 (Nat.succ_ne_zero n)

/-- At a later point. -/
theorem outsAt0_B (c : Dev nD) (t : Fin cfg0.N) (h0 : ¬t.val = 0) :
    outsAt0 V c t.val t.isLt =
      (out0_B_2 c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t)
          (outsAt0 V c (t.val - 1) (Nat.lt_of_le_of_lt (Nat.sub_le _ _) t.isLt)).1 (outsAt0 V c (t.val - 1) (Nat.lt_of_le_of_lt (Nat.sub_le _ _) t.isLt)).2,
       out0_B_3 c (grid0.coords t) (ms0_0 t) (hs0_0 t) (ms0_1 t) (hs0_1 t) (ms0_2 t) (hs0_2 t) (ms0_3 t) (hs0_3 t) (fun h => h0 ((hcond0 t).mp h)) (iblk0 V c 0 t) (iblk0 V c 1 t)
          (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The arrays as the region finds them; after the body at point t each input's buffer at its block and the
    accumulators at their running contents; the class invariant; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point each accumulator's buffer holds what the body left at the point before: the point is not the
    first and the buffer was not written back in between. -/
theorem before0_2_B (c : Dev nD) (t : Fin cfg0.N) (h0 : ¬t.val = 0) (d) :
    (dat0 V c).before 2 t d = (outsAt0 V c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dat0]
theorem before0_3_B (c : Dev nD) (t : Fin cfg0.N) (h0 : ¬t.val = 0) (d) :
    (dat0 V c).before 3 t d = (outsAt0 V c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body's obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
/-- The body at any point: the inputs' buffers hold their blocks; the point is the first or a later one; at a later
    one each accumulator holds what the point before left; so the case's run applies. The invariant and what the
    core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [outsAt0_A V c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    dsimp only
    simp only [before0_2_B V c t h0, before0_3_B V c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Stage2Runs.lean ====
/-
  The second region: the pass that, for every pair of rows, adds up five Gaussian kernels exp(−d / b_k) of the clipped
  squared distance d = max(|x_r|² + |x_c|² − 2⟨x_r, x_c⟩, 0), one 1024 × 1024 tile of pairs per grid point, into four
  one-element sums — one per quadrant of the matrix of pairs (rows and columns each split into a first and a second
  half) — that stay in their buffers from one grid point to the next and are written back after the last one.
  Here: the blocks the pipeline hands the body, the body's five conditions in closed form over the grid, where each
  sum's buffer is left alone, and the body run once per case on arbitrary whole buffers.
  Case Z (the first grid point): all four sums are reset before anything reads them, then the first is added to.
  Cases XX, XY, YX, YY (every other grid point, by the quadrant its tile lies in): one sum is read, added to and
  stored back; the other three are not touched.
  Everything is stated for any float instance and at an arbitrary contents V of the core's buffers on entry.
-/
import proofs.«149507_j24644522344587_1_alg».proof.Proof.Gen.KernelIdeal.Launch
import proofs.«149507_j24644522344587_1_alg».proof.Proof.Gen.KernelIdeal.Skeleton
import proofs.«149507_j24644522344587_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole array of rows sits in its buffer at every grid point: it is fetched once and its block never moves. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- So does the vector of squared norms, -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and the row of bandwidths. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's five conditions

With (r, s) = (t / 8, t % 8) the coordinates of grid point t, and a row block "in the first half" when its
coordinate is below 4: the four sums are reset where r = s = 0; the tile's sum goes to the first sum where both
blocks are in the first half, to the third where only the row block is, to the fourth where only the column block
is, to the second where neither is. -/

abbrev cond1_1 (i : grid1.Coords) : Prop := k1_cond1 i = 1#1
abbrev cond1_2 (i : grid1.Coords) : Prop := k1_cond2 i = 1#1
abbrev cond1_3 (i : grid1.Coords) : Prop := k1_cond3 i = 1#1
abbrev cond1_4 (i : grid1.Coords) : Prop := k1_cond4 i = 1#1
abbrev cond1_5 (i : grid1.Coords) : Prop := k1_cond5 i = 1#1

theorem hcond1_1 : ∀ t : Fin cfg1.N, cond1_1 (grid1.coords t) ↔ t.val = 0 :=
  (by decide +kernel : ∀ t : Fin grid1.N, cond1_1 (grid1.coords t) ↔ t.val = 0)
theorem hcond1_2 : ∀ t : Fin cfg1.N, cond1_2 (grid1.coords t) ↔ (t.val / 8 < 4 ∧ t.val % 8 < 4) :=
  (by decide +kernel : ∀ t : Fin grid1.N, cond1_2 (grid1.coords t) ↔ (t.val / 8 < 4 ∧ t.val % 8 < 4))
theorem hcond1_3 : ∀ t : Fin cfg1.N, cond1_3 (grid1.coords t) ↔ (t.val / 8 < 4 ∧ ¬t.val % 8 < 4) :=
  (by decide +kernel : ∀ t : Fin grid1.N, cond1_3 (grid1.coords t) ↔ (t.val / 8 < 4 ∧ ¬t.val % 8 < 4))
theorem hcond1_4 : ∀ t : Fin cfg1.N, cond1_4 (grid1.coords t) ↔ (¬t.val / 8 < 4 ∧ t.val % 8 < 4) :=
  (by decide +kernel : ∀ t : Fin grid1.N, cond1_4 (grid1.coords t) ↔ (¬t.val / 8 < 4 ∧ t.val % 8 < 4))
theorem hcond1_5 : ∀ t : Fin cfg1.N, cond1_5 (grid1.coords t) ↔ (¬t.val / 8 < 4 ∧ ¬t.val % 8 < 4) :=
  (by decide +kernel : ∀ t : Fin grid1.N, cond1_5 (grid1.coords t) ↔ (¬t.val / 8 < 4 ∧ ¬t.val % 8 < 4))

/-! ## Where a sum's buffer is left alone

A sum's buffer is stored into exactly where the reset or its own condition holds. -/

theorem hidle1_3 : ∀ t : Fin cfg1.N, cfg1.idle 3 (cfg1.grid.coords t) = true ↔ (t.val ≠ 0 ∧ ¬(t.val / 8 < 4 ∧ t.val % 8 < 4)) :=
  (by decide +kernel : ∀ t : Fin grid1.N, idle1 3 (grid1.coords t) = true ↔ (t.val ≠ 0 ∧ ¬(t.val / 8 < 4 ∧ t.val % 8 < 4)))
theorem hidle1_4 : ∀ t : Fin cfg1.N, cfg1.idle 4 (cfg1.grid.coords t) = true ↔ (t.val ≠ 0 ∧ ¬(¬t.val / 8 < 4 ∧ ¬t.val % 8 < 4)) :=
  (by decide +kernel : ∀ t : Fin grid1.N, idle1 4 (grid1.coords t) = true ↔ (t.val ≠ 0 ∧ ¬(¬t.val / 8 < 4 ∧ ¬t.val % 8 < 4)))
theorem hidle1_5 : ∀ t : Fin cfg1.N, cfg1.idle 5 (cfg1.grid.coords t) = true ↔ (t.val ≠ 0 ∧ ¬(t.val / 8 < 4 ∧ ¬t.val % 8 < 4)) :=
  (by decide +kernel : ∀ t : Fin grid1.N, idle1 5 (grid1.coords t) = true ↔ (t.val ≠ 0 ∧ ¬(t.val / 8 < 4 ∧ ¬t.val % 8 < 4)))
theorem hidle1_6 : ∀ t : Fin cfg1.N, cfg1.idle 6 (cfg1.grid.coords t) = true ↔ (t.val ≠ 0 ∧ ¬(¬t.val / 8 < 4 ∧ t.val % 8 < 4)) :=
  (by decide +kernel : ∀ t : Fin grid1.N, idle1 6 (grid1.coords t) = true ↔ (t.val ≠ 0 ∧ ¬(¬t.val / 8 < 4 ∧ t.val % 8 < 4)))

/-! ## The buffers the body is called on -/

/-- One buffer of each sum's window, through which its contents are stated. -/
abbrev VO1_3 : View sig .tc .vmem S1x1 .f32 := (Memref.whole cc1_stg3_0 : Memref sig .tc .vmem S1x1 .f32).view
abbrev VO1_4 : View sig .tc .vmem S1x1 .f32 := (Memref.whole cc1_stg4_0 : Memref sig .tc .vmem S1x1 .f32).view
abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view
/-- Each window's current buffer at grid point t, spelled as the pipeline passes it, and its wholeness. -/
abbrev ms1_0 (t : Fin cfg1.N) : Memref sig .tc .vmem S8192x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)

set_option maxHeartbeats 4000000 in
/-- The first grid point. On whole buffers — the three inputs at given contents, the four sums at anything — the body
    runs to the end, leaves the inputs as they were and each sum with a list of stores written into it (last first):
    every sum is reset before it is read, so what it held does not matter; the first sum is then read back and the
    tile's sum added to it. The four lists of stores are part of what is stated: there are such lists. -/
noncomputable def kernelRun1_Z (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) :
    Σ' (L3 : List (View.Piece (Elt F) S1x1 .f32)) (L4 : List (View.Piece (Elt F) S1x1 .f32)) (L5 : List (View.Piece (Elt F) S1x1 .f32)), { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, ?_, ?_, ?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact H6

set_option maxHeartbeats 4000000 in
/-- A grid point other than the first whose row block and column block are both in the first half: the first sum is read, the tile's sum is added, and it is stored back; the other three sums are not touched. On whole buffers — the three inputs and the four sums at given contents — the body runs to the end,
    leaves the inputs and the three other sums as they were, and the sum it adds to with a list of stores written
    into it (last first); the list is part of what is stated: there is such a list. -/
noncomputable def kernelRun1_XX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    { L3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xo4 ∗ owns (c : Thread nD τ) arg7 fullShare xo5 ∗ owns (c : Thread nD τ) arg8 fullShare xo6) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6

set_option maxHeartbeats 4000000 in
/-- A grid point whose row block is in the first half and whose column block is not: the third sum is read, the tile's sum is added, and it is stored back; the other three sums are not touched. On whole buffers — the three inputs and the four sums at given contents — the body runs to the end,
    leaves the inputs and the three other sums as they were, and the sum it adds to with a list of stores written
    into it (last first); the list is part of what is stated: there is such a list. -/
noncomputable def kernelRun1_XY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬cond1_1 i) (hc2 : ¬cond1_2 i) (hc3 : cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    { L5 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ (∃ f, arg7.view.loc (c : Thread nD τ) ↦[arg7.view.set]{fullShare} arg7.view.writes (Elt F) f L5) ∗ owns (c : Thread nD τ) arg8 fullShare xo6) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact H6

set_option maxHeartbeats 4000000 in
/-- A grid point whose column block is in the first half and whose row block is not: the fourth sum is read, the tile's sum is added, and it is stored back; the other three sums are not touched. On whole buffers — the three inputs and the four sums at given contents — the body runs to the end,
    leaves the inputs and the three other sums as they were, and the sum it adds to with a list of stores written
    into it (last first); the list is part of what is stated: there is such a list. -/
noncomputable def kernelRun1_YX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬cond1_1 i) (hc2 : ¬cond1_2 i) (hc3 : ¬cond1_3 i) (hc4 : cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    { L6 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ (∃ f, arg8.view.loc (c : Thread nD τ) ↦[arg8.view.set]{fullShare} arg8.view.writes (Elt F) f L6)) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 4000000 in
/-- A grid point neither of whose blocks is in the first half: the second sum is read, the tile's sum is added, and it is stored back; the other three sums are not touched. On whole buffers — the three inputs and the four sums at given contents — the body runs to the end,
    leaves the inputs and the three other sums as they were, and the sum it adds to with a list of stores written
    into it (last first); the list is part of what is stated: there is such a list. -/
noncomputable def kernelRun1_YY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬cond1_1 i) (hc2 : ¬cond1_2 i) (hc3 : ¬cond1_3 i) (hc4 : ¬cond1_4 i) (hc5 : cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare xo3 ∗ (∃ f, arg6.view.loc (c : Thread nD τ) ↦[arg6.view.set]{fullShare} arg6.view.writes (Elt F) f L4) ∗ owns (c : Thread nD τ) arg7 fullShare xo5 ∗ owns (c : Thread nD τ) arg8 fullShare xo6) -∗ K ⟨⟩))
          ⊢ wp frame (wpE (defs₀ (F := F)) Variants.none c none) E (cc1__stage2_kernel i arg2 harg2 arg3 harg3 arg4 harg4 arg5 harg5 arg6 harg6 arg7 harg7 arg8 harg8) K } := by
  refine ⟨?_, fun E K => ?run⟩
  case run =>
    simp only [cc1__stage2_kernel_eq_skeleton]; unfold cc1__stage2_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5; obtain rfl := harg8.eq_unread hf6
    sl_exec (disch := first | exact hc1 | exact hc2 | exact hc3 | exact hc4 | exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact H6

end Cert.KernelIdeal.Hand

end
-- ==== Proof.KernelIdeal.Stage2.lean ====
/-
  The second region, continued: what each case of the body leaves in the sum it stores into (its stores cover the
  one-element buffer), the four sums' contents grid point by grid point — the first point's case, then at every later
  point the case of the quadrant its tile lies in applied to what the point before left, the three sums it does not
  touch carried over unchanged —, the pipeline's proof data built on them, what each sum's buffer holds when the body
  is entered (what the point before left, however many points left it alone in between), and the body's obligation at
  every grid point: where a sum is left alone and not written back its buffer is handed back as it was found.
-/
import proofs.«149507_j24644522344587_1_alg».proof.Proof.KernelIdeal.Stage2Runs

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves in the sums it stores into -/

theorem cover1_Z_3 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (y : S1x1.Idx) :
    ∃ pc ∈ (kernelRun1_Z c i arg2 harg2 arg3 harg3 arg4 harg4 arg5 harg5 arg6 harg6 arg7 harg7 arg8 harg8 hc1 hc2 hc3 hc4 hc5 x0 x1 x2).1, y ∈ pc.1.set :=
  View.cover_of_tiledL (kernelRun1_Z c i arg2 harg2 arg3 harg3 arg4 harg4 arg5 harg5 arg6 harg6 arg7 harg7 arg8 harg8 hc1 hc2 hc3 hc4 hc5 x0 x1 x2).1 S1x1.size (by sl_kernel_rfl) y
/-- The first sum after the first point: the stores into it read back. -/
def out1_Z_3 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) : Vec F S1x1 .f32 :=
  VO1_3.read (Elt F) (VO1_3.writes (Elt F) VO1_3.junk (kernelRun1_Z c i arg2 harg2 arg3 harg3 arg4 harg4 arg5 harg5 arg6 harg6 arg7 harg7 arg8 harg8 hc1 hc2 hc3 hc4 hc5 x0 x1 x2).1)

theorem cover1_Z_4 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (y : S1x1.Idx) :
    ∃ pc ∈ (kernelRun1_Z c i arg2 harg2 arg3 harg3 arg4 harg4 arg5 harg5 arg6 harg6 arg7 harg7 arg8 harg8 hc1 hc2 hc3 hc4 hc5 x0 x1 x2).2.1, y ∈ pc.1.set :=
  View.cover_of_tiledL (kernelRun1_Z c i arg2 harg2 arg3 harg3 arg4 harg4 arg5 harg5 arg6 harg6 arg7 harg7 arg8 harg8 hc1 hc2 hc3 hc4 hc5 x0 x1 x2).2.1 S1x1.size (by sl_kernel_rfl) y
/-- The second sum after the first point: the stores into it read back. -/
def out1_Z_4 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) : Vec F S1x1 .f32 :=
  VO1_4.read (Elt F) (VO1_4.writes (Elt F) VO1_4.junk (kernelRun1_Z c i arg2 harg2 arg3 harg3 arg4 harg4 arg5 harg5 arg6 harg6 arg7 harg7 arg8 harg8 hc1 hc2 hc3 hc4 hc5 x0 x1 x2).2.1)

theorem cover1_Z_5 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (y : S1x1.Idx) :
    ∃ pc ∈ (kernelRun1_Z c i arg2 harg2 arg3 harg3 arg4 harg4 arg5 harg5 arg6 harg6 arg7 harg7 arg8 harg8 hc1 hc2 hc3 hc4 hc5 x0 x1 x2).2.2.1, y ∈ pc.1.set :=
  View.cover_of_tiledL (kernelRun1_Z c i arg2 harg2 arg3 harg3 arg4 harg4 arg5 harg5 arg6 harg6 arg7 harg7 arg8 harg8 hc1 hc2 hc3 hc4 hc5 x0 x1 x2).2.2.1 S1x1.size (by sl_kernel_rfl) y
/-- The third sum after the first point: the stores into it read back. -/
def out1_Z_5 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) : Vec F S1x1 .f32 :=
  VO1_5.read (Elt F) (VO1_5.writes (Elt F) VO1_5.junk (kernelRun1_Z c i arg2 harg2 arg3 harg3 arg4 harg4 arg5 harg5 arg6 harg6 arg7 harg7 arg8 harg8 hc1 hc2 hc3 hc4 hc5 x0 x1 x2).2.2.1)

theorem cover1_Z_6 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (y : S1x1.Idx) :
    ∃ pc ∈ (kernelRun1_Z c i arg2 harg2 arg3 harg3 arg4 harg4 arg5 harg5 arg6 harg6 arg7 harg7 arg8 harg8 hc1 hc2 hc3 hc4 hc5 x0 x1 x2).2.2.2.1, y ∈ pc.1.set :=
  View.cover_of_tiledL (kernelRun1_Z c i arg2 harg2 arg3 harg3 arg4 harg4 arg5 harg5 arg6 harg6 arg7 harg7 arg8 harg8 hc1 hc2 hc3 hc4 hc5 x0 x1 x2).2.2.2.1 S1x1.size (by sl_kernel_rfl) y
/-- The fourth sum after the first point: the stores into it read back. -/
def out1_Z_6 (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) : Vec F S1x1 .f32 :=
  VO1_6.read (Elt F) (VO1_6.writes (Elt F) VO1_6.junk (kernelRun1_Z c i arg2 harg2 arg3 harg3 arg4 harg4 arg5 harg5 arg6 harg6 arg7 harg7 arg8 harg8 hc1 hc2 hc3 hc4 hc5 x0 x1 x2).2.2.2.1)

theorem cover1_XX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) (y : S1x1.Idx) :
    ∃ pc ∈ (kernelRun1_XX c i arg2 harg2 arg3 harg3 arg4 harg4 arg5 harg5 arg6 harg6 arg7 harg7 arg8 harg8 hc1 hc2 hc3 hc4 hc5 x0 x1 x2 xo3 xo4 xo5 xo6).1, y ∈ pc.1.set :=
  View.cover_of_tiledL (kernelRun1_XX c i arg2 harg2 arg3 harg3 arg4 harg4 arg5 harg5 arg6 harg6 arg7 harg7 arg8 harg8 hc1 hc2 hc3 hc4 hc5 x0 x1 x2 xo3 xo4 xo5 xo6).1 S1x1.size (by sl_kernel_rfl) y
/-- The first sum after a point of this case, from what the four sums held before. -/
def out1_XX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) : Vec F S1x1 .f32 :=
  VO1_3.read (Elt F) (VO1_3.writes (Elt F) VO1_3.junk (kernelRun1_XX c i arg2 harg2 arg3 harg3 arg4 harg4 arg5 harg5 arg6 harg6 arg7 harg7 arg8 harg8 hc1 hc2 hc3 hc4 hc5 x0 x1 x2 xo3 xo4 xo5 xo6).1)

theorem cover1_XY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) (y : S1x1.Idx) :
    ∃ pc ∈ (kernelRun1_XY c i arg2 harg2 arg3 harg3 arg4 harg4 arg5 harg5 arg6 harg6 arg7 harg7 arg8 harg8 hc1 hc2 hc3 hc4 hc5 x0 x1 x2 xo3 xo4 xo5 xo6).1, y ∈ pc.1.set :=
  View.cover_of_tiledL (kernelRun1_XY c i arg2 harg2 arg3 harg3 arg4 harg4 arg5 harg5 arg6 harg6 arg7 harg7 arg8 harg8 hc1 hc2 hc3 hc4 hc5 x0 x1 x2 xo3 xo4 xo5 xo6).1 S1x1.size (by sl_kernel_rfl) y
/-- The third sum after a point of this case, from what the four sums held before. -/
def out1_XY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) : Vec F S1x1 .f32 :=
  VO1_5.read (Elt F) (VO1_5.writes (Elt F) VO1_5.junk (kernelRun1_XY c i arg2 harg2 arg3 harg3 arg4 harg4 arg5 harg5 arg6 harg6 arg7 harg7 arg8 harg8 hc1 hc2 hc3 hc4 hc5 x0 x1 x2 xo3 xo4 xo5 xo6).1)

theorem cover1_YX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) (y : S1x1.Idx) :
    ∃ pc ∈ (kernelRun1_YX c i arg2 harg2 arg3 harg3 arg4 harg4 arg5 harg5 arg6 harg6 arg7 harg7 arg8 harg8 hc1 hc2 hc3 hc4 hc5 x0 x1 x2 xo3 xo4 xo5 xo6).1, y ∈ pc.1.set :=
  View.cover_of_tiledL (kernelRun1_YX c i arg2 harg2 arg3 harg3 arg4 harg4 arg5 harg5 arg6 harg6 arg7 harg7 arg8 harg8 hc1 hc2 hc3 hc4 hc5 x0 x1 x2 xo3 xo4 xo5 xo6).1 S1x1.size (by sl_kernel_rfl) y
/-- The fourth sum after a point of this case, from what the four sums held before. -/
def out1_YX (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) : Vec F S1x1 .f32 :=
  VO1_6.read (Elt F) (VO1_6.writes (Elt F) VO1_6.junk (kernelRun1_YX c i arg2 harg2 arg3 harg3 arg4 harg4 arg5 harg5 arg6 harg6 arg7 harg7 arg8 harg8 hc1 hc2 hc3 hc4 hc5 x0 x1 x2 xo3 xo4 xo5 xo6).1)

theorem cover1_YY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : ¬cond1_4 i) (hc5 : cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) (y : S1x1.Idx) :
    ∃ pc ∈ (kernelRun1_YY c i arg2 harg2 arg3 harg3 arg4 harg4 arg5 harg5 arg6 harg6 arg7 harg7 arg8 harg8 hc1 hc2 hc3 hc4 hc5 x0 x1 x2 xo3 xo4 xo5 xo6).1, y ∈ pc.1.set :=
  View.cover_of_tiledL (kernelRun1_YY c i arg2 harg2 arg3 harg3 arg4 harg4 arg5 harg5 arg6 harg6 arg7 harg7 arg8 harg8 hc1 hc2 hc3 hc4 hc5 x0 x1 x2 xo3 xo4 xo5 xo6).1 S1x1.size (by sl_kernel_rfl) y
/-- The second sum after a point of this case, from what the four sums held before. -/
def out1_YY (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : ¬cond1_4 i) (hc5 : cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) : Vec F S1x1 .f32 :=
  VO1_4.read (Elt F) (VO1_4.writes (Elt F) VO1_4.junk (kernelRun1_YY c i arg2 harg2 arg3 harg3 arg4 harg4 arg5 harg5 arg6 harg6 arg7 harg7 arg8 harg8 hc1 hc2 hc3 hc4 hc5 x0 x1 x2 xo3 xo4 xo5 xo6).1)

/-! ## The conditions at a grid point, from its position -/

theorem z_i {n : ℕ} (h : n = 0) : n / 8 < 4 := by omega
theorem z_j {n : ℕ} (h : n = 0) : n % 8 < 4 := by omega
theorem c1_of (t : Fin cfg1.N) (h : t.val = 0) : cond1_1 (grid1.coords t) := (hcond1_1 t).mpr h
theorem n1_of (t : Fin cfg1.N) (h : t.val ≠ 0) : ¬cond1_1 (grid1.coords t) := fun hc => h ((hcond1_1 t).mp hc)
theorem n1_of_j (t : Fin cfg1.N) (hj : ¬t.val % 8 < 4) : ¬cond1_1 (grid1.coords t) := fun hc => hj (z_j ((hcond1_1 t).mp hc))
theorem n1_of_i (t : Fin cfg1.N) (hi : ¬t.val / 8 < 4) : ¬cond1_1 (grid1.coords t) := fun hc => hi (z_i ((hcond1_1 t).mp hc))
theorem c2_of (t : Fin cfg1.N) (hi : t.val / 8 < 4) (hj : t.val % 8 < 4) : cond1_2 (grid1.coords t) := (hcond1_2 t).mpr ⟨hi, hj⟩
theorem n2_of (t : Fin cfg1.N) (h : ¬(t.val / 8 < 4 ∧ t.val % 8 < 4)) : ¬cond1_2 (grid1.coords t) := fun hc => h ((hcond1_2 t).mp hc)
theorem c3_of (t : Fin cfg1.N) (hi : t.val / 8 < 4) (hj : ¬t.val % 8 < 4) : cond1_3 (grid1.coords t) := (hcond1_3 t).mpr ⟨hi, hj⟩
theorem n3_of (t : Fin cfg1.N) (h : ¬(t.val / 8 < 4 ∧ ¬t.val % 8 < 4)) : ¬cond1_3 (grid1.coords t) := fun hc => h ((hcond1_3 t).mp hc)
theorem c4_of (t : Fin cfg1.N) (hi : ¬t.val / 8 < 4) (hj : t.val % 8 < 4) : cond1_4 (grid1.coords t) := (hcond1_4 t).mpr ⟨hi, hj⟩
theorem n4_of (t : Fin cfg1.N) (h : ¬(¬t.val / 8 < 4 ∧ t.val % 8 < 4)) : ¬cond1_4 (grid1.coords t) := fun hc => h ((hcond1_4 t).mp hc)
theorem c5_of (t : Fin cfg1.N) (hi : ¬t.val / 8 < 4) (hj : ¬t.val % 8 < 4) : cond1_5 (grid1.coords t) := (hcond1_5 t).mpr ⟨hi, hj⟩
theorem n5_of (t : Fin cfg1.N) (h : ¬(¬t.val / 8 < 4 ∧ ¬t.val % 8 < 4)) : ¬cond1_5 (grid1.coords t) := fun hc => h ((hcond1_5 t).mp hc)

/-! ## The four sums, grid point by grid point -/

/-- What the four sums (first, second, third, fourth) hold after the body at position n: the first point's case at
    n = 0; from then on the case of the quadrant the tile lies in, applied to what position n − 1 left, the three sums
    the case does not touch being what position n − 1 left (no buffer is written back in between). -/
def outsAt1 (c : Dev nD) : (n : ℕ) → n < cfg1.N → Vec F S1x1 .f32 × Vec F S1x1 .f32 × Vec F S1x1 .f32 × Vec F S1x1 .f32
  | 0, hn =>
    (out1_Z_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (c1_of ⟨0, hn⟩ (rfl : (⟨0, hn⟩ : Fin cfg1.N).val = 0)) (c2_of ⟨0, hn⟩ (z_i (rfl : (⟨0, hn⟩ : Fin cfg1.N).val = 0)) (z_j (rfl : (⟨0, hn⟩ : Fin cfg1.N).val = 0))) (n3_of ⟨0, hn⟩ (fun h => h.2 (z_j (rfl : (⟨0, hn⟩ : Fin cfg1.N).val = 0)))) (n4_of ⟨0, hn⟩ (fun h => h.1 (z_i (rfl : (⟨0, hn⟩ : Fin cfg1.N).val = 0)))) (n5_of ⟨0, hn⟩ (fun h => h.1 (z_i (rfl : (⟨0, hn⟩ : Fin cfg1.N).val = 0)))) (iblk1 V c 0 ⟨0, hn⟩) (iblk1 V c 1 ⟨0, hn⟩) (iblk1 V c 2 ⟨0, hn⟩),
     out1_Z_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (c1_of ⟨0, hn⟩ (rfl : (⟨0, hn⟩ : Fin cfg1.N).val = 0)) (c2_of ⟨0, hn⟩ (z_i (rfl : (⟨0, hn⟩ : Fin cfg1.N).val = 0)) (z_j (rfl : (⟨0, hn⟩ : Fin cfg1.N).val = 0))) (n3_of ⟨0, hn⟩ (fun h => h.2 (z_j (rfl : (⟨0, hn⟩ : Fin cfg1.N).val = 0)))) (n4_of ⟨0, hn⟩ (fun h => h.1 (z_i (rfl : (⟨0, hn⟩ : Fin cfg1.N).val = 0)))) (n5_of ⟨0, hn⟩ (fun h => h.1 (z_i (rfl : (⟨0, hn⟩ : Fin cfg1.N).val = 0)))) (iblk1 V c 0 ⟨0, hn⟩) (iblk1 V c 1 ⟨0, hn⟩) (iblk1 V c 2 ⟨0, hn⟩),
     out1_Z_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (c1_of ⟨0, hn⟩ (rfl : (⟨0, hn⟩ : Fin cfg1.N).val = 0)) (c2_of ⟨0, hn⟩ (z_i (rfl : (⟨0, hn⟩ : Fin cfg1.N).val = 0)) (z_j (rfl : (⟨0, hn⟩ : Fin cfg1.N).val = 0))) (n3_of ⟨0, hn⟩ (fun h => h.2 (z_j (rfl : (⟨0, hn⟩ : Fin cfg1.N).val = 0)))) (n4_of ⟨0, hn⟩ (fun h => h.1 (z_i (rfl : (⟨0, hn⟩ : Fin cfg1.N).val = 0)))) (n5_of ⟨0, hn⟩ (fun h => h.1 (z_i (rfl : (⟨0, hn⟩ : Fin cfg1.N).val = 0)))) (iblk1 V c 0 ⟨0, hn⟩) (iblk1 V c 1 ⟨0, hn⟩) (iblk1 V c 2 ⟨0, hn⟩),
     out1_Z_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (c1_of ⟨0, hn⟩ (rfl : (⟨0, hn⟩ : Fin cfg1.N).val = 0)) (c2_of ⟨0, hn⟩ (z_i (rfl : (⟨0, hn⟩ : Fin cfg1.N).val = 0)) (z_j (rfl : (⟨0, hn⟩ : Fin cfg1.N).val = 0))) (n3_of ⟨0, hn⟩ (fun h => h.2 (z_j (rfl : (⟨0, hn⟩ : Fin cfg1.N).val = 0)))) (n4_of ⟨0, hn⟩ (fun h => h.1 (z_i (rfl : (⟨0, hn⟩ : Fin cfg1.N).val = 0)))) (n5_of ⟨0, hn⟩ (fun h => h.1 (z_i (rfl : (⟨0, hn⟩ : Fin cfg1.N).val = 0)))) (iblk1 V c 0 ⟨0, hn⟩) (iblk1 V c 1 ⟨0, hn⟩) (iblk1 V c 2 ⟨0, hn⟩))
  | n + 1, hn =>
    if hi : (n + 1) / 8 < 4 then
      if hj : (n + 1) % 8 < 4 then
        (out1_XX c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (n1_of ⟨n + 1, hn⟩ (Nat.succ_ne_zero n)) (c2_of ⟨n + 1, hn⟩ hi hj) (n3_of ⟨n + 1, hn⟩ (fun h => h.2 hj)) (n4_of ⟨n + 1, hn⟩ (fun h => h.1 hi)) (n5_of ⟨n + 1, hn⟩ (fun h => h.1 hi)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2,
         (outsAt1 c n (Nat.lt_of_succ_lt hn)).2.1,
         (outsAt1 c n (Nat.lt_of_succ_lt hn)).2.2.1,
         (outsAt1 c n (Nat.lt_of_succ_lt hn)).2.2.2)
      else
        ((outsAt1 c n (Nat.lt_of_succ_lt hn)).1,
         (outsAt1 c n (Nat.lt_of_succ_lt hn)).2.1,
         out1_XY c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (n1_of_j ⟨n + 1, hn⟩ hj) (n2_of ⟨n + 1, hn⟩ (fun h => hj h.2)) (c3_of ⟨n + 1, hn⟩ hi hj) (n4_of ⟨n + 1, hn⟩ (fun h => h.1 hi)) (n5_of ⟨n + 1, hn⟩ (fun h => h.1 hi)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2,
         (outsAt1 c n (Nat.lt_of_succ_lt hn)).2.2.2)
    else
      if hj : (n + 1) % 8 < 4 then
        ((outsAt1 c n (Nat.lt_of_succ_lt hn)).1,
         (outsAt1 c n (Nat.lt_of_succ_lt hn)).2.1,
         (outsAt1 c n (Nat.lt_of_succ_lt hn)).2.2.1,
         out1_YX c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (n1_of_i ⟨n + 1, hn⟩ hi) (n2_of ⟨n + 1, hn⟩ (fun h => hi h.1)) (n3_of ⟨n + 1, hn⟩ (fun h => hi h.1)) (c4_of ⟨n + 1, hn⟩ hi hj) (n5_of ⟨n + 1, hn⟩ (fun h => h.2 hj)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2)
      else
        ((outsAt1 c n (Nat.lt_of_succ_lt hn)).1,
         out1_YY c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (n1_of_i ⟨n + 1, hn⟩ hi) (n2_of ⟨n + 1, hn⟩ (fun h => hi h.1)) (n3_of ⟨n + 1, hn⟩ (fun h => hi h.1)) (n4_of ⟨n + 1, hn⟩ (fun h => hj h.2)) (c5_of ⟨n + 1, hn⟩ hi hj) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2,
         (outsAt1 c n (Nat.lt_of_succ_lt hn)).2.2.1,
         (outsAt1 c n (Nat.lt_of_succ_lt hn)).2.2.2)

/-- At the first point. -/
theorem outsAt1_Z (c : Dev nD) (t : Fin cfg1.N) (h0 : t.val = 0) :
    outsAt1 V c t.val t.isLt =
      (out1_Z_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t),
       out1_Z_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t),
       out1_Z_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t),
       out1_Z_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t)) := by
  obtain ⟨n, hn⟩ := t
  cases n with
  | zero => exact rfl
  | succ n => exact absurd h0 (Nat.succ_ne_zero n)

/-- At a later point whose tile lies in the first quadrant (both blocks in the first half). -/
theorem outsAt1_XX (c : Dev nD) (t : Fin cfg1.N) (hi : t.val / 8 < 4) (hj : t.val % 8 < 4) (h0 : t.val ≠ 0) :
    outsAt1 V c t.val t.isLt =
      (out1_XX c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (n1_of t h0) (c2_of t hi hj) (n3_of t (fun h => h.2 hj)) (n4_of t (fun h => h.1 hi)) (n5_of t (fun h => h.1 hi)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
       (outsAt1 V c (t.val - 1) (Nat.lt_of_le_of_lt (Nat.sub_le _ _) t.isLt)).2.1,
       (outsAt1 V c (t.val - 1) (Nat.lt_of_le_of_lt (Nat.sub_le _ _) t.isLt)).2.2.1,
       (outsAt1 V c (t.val - 1) (Nat.lt_of_le_of_lt (Nat.sub_le _ _) t.isLt)).2.2.2) := by
  obtain ⟨n, hn⟩ := t
  cases n with
  | zero => exact absurd rfl h0
  | succ n => exact (dif_pos hi).trans ((dif_pos hj).trans rfl)

/-- At a point whose row block is in the first half and whose column block is not. -/
theorem outsAt1_XY (c : Dev nD) (t : Fin cfg1.N) (hi : t.val / 8 < 4) (hj : ¬t.val % 8 < 4) :
    outsAt1 V c t.val t.isLt =
      ((outsAt1 V c (t.val - 1) (Nat.lt_of_le_of_lt (Nat.sub_le _ _) t.isLt)).1,
       (outsAt1 V c (t.val - 1) (Nat.lt_of_le_of_lt (Nat.sub_le _ _) t.isLt)).2.1,
       out1_XY c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (n1_of_j t hj) (n2_of t (fun h => hj h.2)) (c3_of t hi hj) (n4_of t (fun h => h.1 hi)) (n5_of t (fun h => h.1 hi)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
       (outsAt1 V c (t.val - 1) (Nat.lt_of_le_of_lt (Nat.sub_le _ _) t.isLt)).2.2.2) := by
  obtain ⟨n, hn⟩ := t
  cases n with
  | zero => exact absurd (z_j rfl) hj
  | succ n => exact (dif_pos hi).trans ((dif_neg hj).trans rfl)

/-- At a point whose column block is in the first half and whose row block is not. -/
theorem outsAt1_YX (c : Dev nD) (t : Fin cfg1.N) (hi : ¬t.val / 8 < 4) (hj : t.val % 8 < 4) :
    outsAt1 V c t.val t.isLt =
      ((outsAt1 V c (t.val - 1) (Nat.lt_of_le_of_lt (Nat.sub_le _ _) t.isLt)).1,
       (outsAt1 V c (t.val - 1) (Nat.lt_of_le_of_lt (Nat.sub_le _ _) t.isLt)).2.1,
       (outsAt1 V c (t.val - 1) (Nat.lt_of_le_of_lt (Nat.sub_le _ _) t.isLt)).2.2.1,
       out1_YX c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (n1_of_i t hi) (n2_of t (fun h => hi h.1)) (n3_of t (fun h => hi h.1)) (c4_of t hi hj) (n5_of t (fun h => h.2 hj)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (z_i rfl) hi
  | succ n => exact (dif_neg hi).trans ((dif_pos hj).trans rfl)

/-- At a point neither of whose blocks is in the first half. -/
theorem outsAt1_YY (c : Dev nD) (t : Fin cfg1.N) (hi : ¬t.val / 8 < 4) (hj : ¬t.val % 8 < 4) :
    outsAt1 V c t.val t.isLt =
      ((outsAt1 V c (t.val - 1) (Nat.lt_of_le_of_lt (Nat.sub_le _ _) t.isLt)).1,
       out1_YY c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (n1_of_i t hi) (n2_of t (fun h => hi h.1)) (n3_of t (fun h => hi h.1)) (n4_of t (fun h => hj h.2)) (c5_of t hi hj) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
       (outsAt1 V c (t.val - 1) (Nat.lt_of_le_of_lt (Nat.sub_le _ _) t.isLt)).2.2.1,
       (outsAt1 V c (t.val - 1) (Nat.lt_of_le_of_lt (Nat.sub_le _ _) t.isLt)).2.2.2) := by
  obtain ⟨n, hn⟩ := t
  cases n with
  | zero => exact absurd (z_i rfl) hi
  | succ n => exact (dif_neg hi).trans ((dif_neg hj).trans rfl)

/-! ## The pipeline's proof data -/

/-- The arrays as the region finds them; after the body at point t each input's buffer at its block and the four
    sums at their running contents; the class invariant; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2.1
    | ⟨6, _⟩ => (outsAt1 V c t.val t.isLt).2.2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2.1 := by dsimp only [dat1]
theorem after1_6 (c : Dev nD) (t : Fin cfg1.N) : (dat1 V c).after 6 t = (outsAt1 V c t.val t.isLt).2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## What a sum's buffer holds when the body is entered

After the first point a sum's buffer always holds something the body stored: the first point stores into all four,
and no buffer is written back before the last point. -/

/-- A buffer stored into at the first point and written back at the last point only holds stored contents at every
    later position. -/
theorem fresh1_out (w : Fin cfg1.W) (hfl : ∀ t : Fin cfg1.N, (cfg1.win w).flush t = true ↔ t.val % 64 = 63)
    (hi0 : ∀ h : 0 < cfg1.N, cfg1.idle w (cfg1.grid.coords ⟨0, h⟩) = false) :
    ∀ n, n < 63 → cfg1.fresh w (n + 1) = false := by
  have hN : cfg1.N = 64 := N_1
  intro n
  induction n with
  | zero =>
    intro _
    rw [cfg1.fresh_succ w 0 (by omega), hi0, Bool.false_and, Bool.or_false]
    exact Bool.eq_false_iff.mpr fun h => by have this : 0 % 64 = 63 := (hfl _).mp h; omega
  | succ n ih =>
    intro hn
    rw [cfg1.fresh_succ w (n + 1) (by omega), ih (by omega), Bool.and_false, Bool.or_false]
    exact Bool.eq_false_iff.mpr fun h => by have this : (n + 1) % 64 = 63 := (hfl _).mp h; omega

theorem live0_1_3 (h : 0 < cfg1.N) : cfg1.idle 3 (cfg1.grid.coords ⟨0, h⟩) = false :=
  Bool.eq_false_iff.mpr fun hh => ((hidle1_3 ⟨0, h⟩).mp hh).1 rfl

theorem live0_1_4 (h : 0 < cfg1.N) : cfg1.idle 4 (cfg1.grid.coords ⟨0, h⟩) = false :=
  Bool.eq_false_iff.mpr fun hh => ((hidle1_4 ⟨0, h⟩).mp hh).1 rfl

theorem live0_1_5 (h : 0 < cfg1.N) : cfg1.idle 5 (cfg1.grid.coords ⟨0, h⟩) = false :=
  Bool.eq_false_iff.mpr fun hh => ((hidle1_5 ⟨0, h⟩).mp hh).1 rfl

theorem live0_1_6 (h : 0 < cfg1.N) : cfg1.idle 6 (cfg1.grid.coords ⟨0, h⟩) = false :=
  Bool.eq_false_iff.mpr fun hh => ((hidle1_6 ⟨0, h⟩).mp hh).1 rfl

/-- A point that is not of the first sum's case leaves the first sum as the point before left it. -/
theorem keep1_3 (c : Dev nD) (t : Fin cfg1.N) (h : ¬(t.val / 8 < 4 ∧ t.val % 8 < 4)) :
    (outsAt1 V c t.val t.isLt).1 = (outsAt1 V c (t.val - 1) (Nat.lt_of_le_of_lt (Nat.sub_le _ _) t.isLt)).1 := by
  by_cases hi : t.val / 8 < 4
  · have hj : ¬t.val % 8 < 4 := fun hj => h ⟨hi, hj⟩
    exact congrArg (fun p => p.1) (outsAt1_XY V c t hi hj)
  · by_cases hj : t.val % 8 < 4
    · exact congrArg (fun p => p.1) (outsAt1_YX V c t hi hj)
    · exact congrArg (fun p => p.1) (outsAt1_YY V c t hi hj)
/-- Likewise the second sum, at a later point not of its case, -/
theorem keep1_4 (c : Dev nD) (t : Fin cfg1.N) (h0 : t.val ≠ 0) (h : ¬(¬t.val / 8 < 4 ∧ ¬t.val % 8 < 4)) :
    (outsAt1 V c t.val t.isLt).2.1 = (outsAt1 V c (t.val - 1) (Nat.lt_of_le_of_lt (Nat.sub_le _ _) t.isLt)).2.1 := by
  by_cases hi : t.val / 8 < 4
  · by_cases hj : t.val % 8 < 4
    · exact congrArg (fun p => p.2.1) (outsAt1_XX V c t hi hj h0)
    · exact congrArg (fun p => p.2.1) (outsAt1_XY V c t hi hj)
  · by_cases hj : t.val % 8 < 4
    · exact congrArg (fun p => p.2.1) (outsAt1_YX V c t hi hj)
    · exact absurd ⟨hi, hj⟩ h
/-- the third, -/
theorem keep1_5 (c : Dev nD) (t : Fin cfg1.N) (h0 : t.val ≠ 0) (h : ¬(t.val / 8 < 4 ∧ ¬t.val % 8 < 4)) :
    (outsAt1 V c t.val t.isLt).2.2.1 = (outsAt1 V c (t.val - 1) (Nat.lt_of_le_of_lt (Nat.sub_le _ _) t.isLt)).2.2.1 := by
  by_cases hi : t.val / 8 < 4
  · by_cases hj : t.val % 8 < 4
    · exact congrArg (fun p => p.2.2.1) (outsAt1_XX V c t hi hj h0)
    · exact absurd ⟨hi, hj⟩ h
  · by_cases hj : t.val % 8 < 4
    · exact congrArg (fun p => p.2.2.1) (outsAt1_YX V c t hi hj)
    · exact congrArg (fun p => p.2.2.1) (outsAt1_YY V c t hi hj)
/-- and the fourth. -/
theorem keep1_6 (c : Dev nD) (t : Fin cfg1.N) (h0 : t.val ≠ 0) (h : ¬(¬t.val / 8 < 4 ∧ t.val % 8 < 4)) :
    (outsAt1 V c t.val t.isLt).2.2.2 = (outsAt1 V c (t.val - 1) (Nat.lt_of_le_of_lt (Nat.sub_le _ _) t.isLt)).2.2.2 := by
  by_cases hi : t.val / 8 < 4
  · by_cases hj : t.val % 8 < 4
    · exact congrArg (fun p => p.2.2.2) (outsAt1_XX V c t hi hj h0)
    · exact congrArg (fun p => p.2.2.2) (outsAt1_XY V c t hi hj)
  · by_cases hj : t.val % 8 < 4
    · exact absurd ⟨hi, hj⟩ h
    · exact congrArg (fun p => p.2.2.2) (outsAt1_YY V c t hi hj)

/-- Where the first sum's buffer is left alone, what is stated of it after the point is what is stated after the
    point before. -/
theorem carry1_3 (c : Dev nD) (t : Fin cfg1.N) (h0 : t.val ≠ 0) (hi : cfg1.idle 3 (cfg1.grid.coords t) = true) (_ : cfg1.fresh 3 t.val = false) :
    (dat1 V c).after 3 t = (dat1 V c).after 3 ⟨t.val - 1, Nat.lt_of_le_of_lt (Nat.sub_le _ _) t.isLt⟩ := by
  rw [after1_3, after1_3]
  exact keep1_3 V c t ((hidle1_3 t).mp hi).2
/-- At every later point the first sum's buffer holds what the point before left of it. -/
theorem before1_3 (c : Dev nD) (t : Fin cfg1.N) (h0 : t.val ≠ 0) (d) :
    (dat1 V c).before 3 t d = (outsAt1 V c (t.val - 1) (Nat.lt_of_le_of_lt (Nat.sub_le _ _) t.isLt)).1 := by
  have hN : t.val < 64 := lt_of_lt_of_eq t.isLt (show cfg1.N = 64 from N_1)
  have hfr : cfg1.fresh 3 t.val = false := by
    obtain ⟨k, hk⟩ := Nat.exists_eq_succ_of_ne_zero h0
    rw [hk]; exact fresh1_out 3 flush1_3 live0_1_3 k (by omega)
  rw [Dat.before_out_traj (dat1 V c) 3 rfl (fun _ _ => rfl) (carry1_3 V c) t.val t rfl d, hfr, if_neg Bool.false_ne_true]
  dsimp only [dat1]

/-- Where the second sum's buffer is left alone, what is stated of it after the point is what is stated after the
    point before. -/
theorem carry1_4 (c : Dev nD) (t : Fin cfg1.N) (h0 : t.val ≠ 0) (hi : cfg1.idle 4 (cfg1.grid.coords t) = true) (_ : cfg1.fresh 4 t.val = false) :
    (dat1 V c).after 4 t = (dat1 V c).after 4 ⟨t.val - 1, Nat.lt_of_le_of_lt (Nat.sub_le _ _) t.isLt⟩ := by
  rw [after1_4, after1_4]
  exact keep1_4 V c t h0 ((hidle1_4 t).mp hi).2
/-- At every later point the second sum's buffer holds what the point before left of it. -/
theorem before1_4 (c : Dev nD) (t : Fin cfg1.N) (h0 : t.val ≠ 0) (d) :
    (dat1 V c).before 4 t d = (outsAt1 V c (t.val - 1) (Nat.lt_of_le_of_lt (Nat.sub_le _ _) t.isLt)).2.1 := by
  have hN : t.val < 64 := lt_of_lt_of_eq t.isLt (show cfg1.N = 64 from N_1)
  have hfr : cfg1.fresh 4 t.val = false := by
    obtain ⟨k, hk⟩ := Nat.exists_eq_succ_of_ne_zero h0
    rw [hk]; exact fresh1_out 4 flush1_4 live0_1_4 k (by omega)
  rw [Dat.before_out_traj (dat1 V c) 4 rfl (fun _ _ => rfl) (carry1_4 V c) t.val t rfl d, hfr, if_neg Bool.false_ne_true]
  dsimp only [dat1]

/-- Where the third sum's buffer is left alone, what is stated of it after the point is what is stated after the
    point before. -/
theorem carry1_5 (c : Dev nD) (t : Fin cfg1.N) (h0 : t.val ≠ 0) (hi : cfg1.idle 5 (cfg1.grid.coords t) = true) (_ : cfg1.fresh 5 t.val = false) :
    (dat1 V c).after 5 t = (dat1 V c).after 5 ⟨t.val - 1, Nat.lt_of_le_of_lt (Nat.sub_le _ _) t.isLt⟩ := by
  rw [after1_5, after1_5]
  exact keep1_5 V c t h0 ((hidle1_5 t).mp hi).2
/-- At every later point the third sum's buffer holds what the point before left of it. -/
theorem before1_5 (c : Dev nD) (t : Fin cfg1.N) (h0 : t.val ≠ 0) (d) :
    (dat1 V c).before 5 t d = (outsAt1 V c (t.val - 1) (Nat.lt_of_le_of_lt (Nat.sub_le _ _) t.isLt)).2.2.1 := by
  have hN : t.val < 64 := lt_of_lt_of_eq t.isLt (show cfg1.N = 64 from N_1)
  have hfr : cfg1.fresh 5 t.val = false := by
    obtain ⟨k, hk⟩ := Nat.exists_eq_succ_of_ne_zero h0
    rw [hk]; exact fresh1_out 5 flush1_5 live0_1_5 k (by omega)
  rw [Dat.before_out_traj (dat1 V c) 5 rfl (fun _ _ => rfl) (carry1_5 V c) t.val t rfl d, hfr, if_neg Bool.false_ne_true]
  dsimp only [dat1]

/-- Where the fourth sum's buffer is left alone, what is stated of it after the point is what is stated after the
    point before. -/
theorem carry1_6 (c : Dev nD) (t : Fin cfg1.N) (h0 : t.val ≠ 0) (hi : cfg1.idle 6 (cfg1.grid.coords t) = true) (_ : cfg1.fresh 6 t.val = false) :
    (dat1 V c).after 6 t = (dat1 V c).after 6 ⟨t.val - 1, Nat.lt_of_le_of_lt (Nat.sub_le _ _) t.isLt⟩ := by
  rw [after1_6, after1_6]
  exact keep1_6 V c t h0 ((hidle1_6 t).mp hi).2
/-- At every later point the fourth sum's buffer holds what the point before left of it. -/
theorem before1_6 (c : Dev nD) (t : Fin cfg1.N) (h0 : t.val ≠ 0) (d) :
    (dat1 V c).before 6 t d = (outsAt1 V c (t.val - 1) (Nat.lt_of_le_of_lt (Nat.sub_le _ _) t.isLt)).2.2.2 := by
  have hN : t.val < 64 := lt_of_lt_of_eq t.isLt (show cfg1.N = 64 from N_1)
  have hfr : cfg1.fresh 6 t.val = false := by
    obtain ⟨k, hk⟩ := Nat.exists_eq_succ_of_ne_zero h0
    rw [hk]; exact fresh1_out 6 flush1_6 live0_1_6 k (by omega)
  rw [Dat.before_out_traj (dat1 V c) 6 rfl (fun _ _ => rfl) (carry1_6 V c) t.val t rfl d, hfr, if_neg Bool.false_ne_true]
  dsimp only [dat1]

/-! ## The body's obligation -/

/-- What the obligation asks of a window's buffer after the body, where the body stores into it, -/
theorem leavesExact_live1 {c : Dev nD} (dat : Dat τ (Elt F) Unit ℕ (Pipeline.UD sig nD τ) ℕ cfg1 c) (w : Fin cfg1.W) (t : Fin cfg1.N)
    (hi : cfg1.idle w (cfg1.grid.coords t) = false) :
    dat.leavesExact w t = owns (c : Thread nD τ) ((cfg1.win w).stage (cfg1.slots t w)) fullShare (dat.after w t) := by
  unfold Dat.leavesExact; rw [hi]
/-- and where the buffer is written back after the body. -/
theorem leavesExact_flush1 {c : Dev nD} (dat : Dat τ (Elt F) Unit ℕ (Pipeline.UD sig nD τ) ℕ cfg1 c) (w : Fin cfg1.W) (t : Fin cfg1.N)
    (hf : (cfg1.win w).flush t = true) :
    dat.leavesExact w t = owns (c : Thread nD τ) ((cfg1.win w).stage (cfg1.slots t w)) fullShare (dat.after w t) := by
  unfold Dat.leavesExact; rw [hf]; cases cfg1.idle w (cfg1.grid.coords t) <;> rfl

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns: each input's buffer at its block; each sum's buffer at its stated contents where the body
    stores into it or the buffer is written back, and as it was found elsewhere. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ (dat1 V c).leavesExact 3 t ∗ (dat1 V c).leavesExact 4 t ∗ (dat1 V c).leavesExact 5 t ∗ (dat1 V c).leavesExact 6 t)

set_option maxHeartbeats 8000000 in
/-- The body at any point. The inputs' buffers hold their blocks. At the first point all four sums are reset, whatever
    they held. At a later point every sum's buffer holds what the point before left of it; the position says which
    quadrant the tile lies in, hence which case's run applies; the sum of that quadrant is handed back at its new
    contents, and each of the other three as it was found — which, at the last point, where every buffer is written
    back, is also its stated contents, an untouched sum being carried over. The invariant and what the core owes pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  have hN : t.val < 64 := lt_of_lt_of_eq t.isLt (show cfg1.N = 64 from N_1)
  by_cases h0 : t.val = 0
  · -- the first point: all four sums are stored into
    have hi3 : cfg1.idle 3 (cfg1.grid.coords t) = false := Bool.eq_false_iff.mpr fun h => ((hidle1_3 t).mp h).1 h0
    have hi4 : cfg1.idle 4 (cfg1.grid.coords t) = false := Bool.eq_false_iff.mpr fun h => ((hidle1_4 t).mp h).1 h0
    have hi5 : cfg1.idle 5 (cfg1.grid.coords t) = false := Bool.eq_false_iff.mpr fun h => ((hidle1_5 t).mp h).1 h0
    have hi6 : cfg1.idle 6 (cfg1.grid.coords t) = false := Bool.eq_false_iff.mpr fun h => ((hidle1_6 t).mp h).1 h0
    rw [leavesExact_live1 (dat1 V c) 3 t hi3, leavesExact_live1 (dat1 V c) 4 t hi4, leavesExact_live1 (dat1 V c) 5 t hi5, leavesExact_live1 (dat1 V c) 6 t hi6,
      after1_3, after1_4, after1_5, after1_6, outsAt1_Z V c t h0]
    dsimp only
    unfold out1_Z_3 out1_Z_4 out1_Z_5 out1_Z_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_Z c (grid1.coords t) _ _ _ _ _ _ _ _ _ _ _ _ _ _ (c1_of t h0) (c2_of t (z_i h0) (z_j h0)) (n3_of t (fun h => h.2 (z_j h0))) (n4_of t (fun h => h.1 (z_i h0))) (n5_of t (fun h => h.1 (z_i h0))) (iblk1 V c 0 t) (iblk1 V c 1 t) (iblk1 V c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_Z_3 c _ _ _ _ _ _ _ _ _ _ _ _ _ _ _ _ _ _ _ _ _ _ _)
    isplitl [H4]
    · unfold owns; iexists _; isplitr
      swap; · iexact H4
      ipureintro; exact View.read_writes_of_cover _ _ _ _ _ (cover1_Z_4 c _ _ _ _ _ _ _ _ _ _ _ _ _ _ _ _ _ _ _ _ _ _ _)
    isplitl [H5]
    · unfold owns; iexists _; isplitr
      swap; · iexact H5
      ipureintro; exact View.read_writes_of_cover _ _ _ _ _ (cover1_Z_5 c _ _ _ _ _ _ _ _ _ _ _ _ _ _ _ _ _ _ _ _ _ _ _)
    unfold owns; iexists _; isplitr
    swap; · iexact H6
    ipureintro; exact View.read_writes_of_cover _ _ _ _ _ (cover1_Z_6 c _ _ _ _ _ _ _ _ _ _ _ _ _ _ _ _ _ _ _ _ _ _ _)
  · by_cases hi : t.val / 8 < 4
    · by_cases hj : t.val % 8 < 4
      · -- a later point of the first quadrant
        have hl3 : cfg1.idle 3 (cfg1.grid.coords t) = false := Bool.eq_false_iff.mpr fun h => ((hidle1_3 t).mp h).2 ⟨hi, hj⟩
        have hi4 : cfg1.idle 4 (cfg1.grid.coords t) = true := (hidle1_4 t).mpr ⟨h0, fun h => h.1 hi⟩
        have hf4 : (cfg1.win 4).flush t = false := Bool.eq_false_iff.mpr fun h => by have := (flush1_4 t).mp h; omega
        have hi5 : cfg1.idle 5 (cfg1.grid.coords t) = true := (hidle1_5 t).mpr ⟨h0, fun h => h.2 hj⟩
        have hf5 : (cfg1.win 5).flush t = false := Bool.eq_false_iff.mpr fun h => by have := (flush1_5 t).mp h; omega
        have hi6 : cfg1.idle 6 (cfg1.grid.coords t) = true := (hidle1_6 t).mpr ⟨h0, fun h => h.1 hi⟩
        have hf6 : (cfg1.win 6).flush t = false := Bool.eq_false_iff.mpr fun h => by have := (flush1_6 t).mp h; omega
        rw [leavesExact_live1 (dat1 V c) 3 t hl3, Dat.leavesExact_idle (dat1 V c) 4 t hi4 hf4, Dat.leavesExact_idle (dat1 V c) 5 t hi5 hf5, Dat.leavesExact_idle (dat1 V c) 6 t hi6 hf6]
        simp only [before1_3 V c t h0, before1_4 V c t h0, before1_5 V c t h0, before1_6 V c t h0]
        rw [after1_3, outsAt1_XX V c t hi hj h0]
        dsimp only
        unfold out1_XX
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun1_XX c (grid1.coords t) _ _ _ _ _ _ _ _ _ _ _ _ _ _ (n1_of t h0) (c2_of t hi hj) (n3_of t (fun h => h.2 hj)) (n4_of t (fun h => h.1 hi)) (n5_of t (fun h => h.1 hi)) (iblk1 V c 0 t) (iblk1 V c 1 t) (iblk1 V c 2 t) _ _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, ⟨%e3, H3⟩, H4, H5, H6⟩
        isplitl [HΦ]; · iexact HΦ
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_XX c _ _ _ _ _ _ _ _ _ _ _ _ _ _ _ _ _ _ _ _ _ _ _ _ _ _ _)
        isplitl [H4]; · iexists d4; iexact H4
        isplitl [H5]; · iexists d5; iexact H5
        iexists d6; iexact H6
      · -- row block in the first half, column block in the second
        have hl5 : cfg1.idle 5 (cfg1.grid.coords t) = false := Bool.eq_false_iff.mpr fun h => ((hidle1_5 t).mp h).2 ⟨hi, hj⟩
        have hi3 : cfg1.idle 3 (cfg1.grid.coords t) = true := (hidle1_3 t).mpr ⟨h0, fun h => hj h.2⟩
        have hf3 : (cfg1.win 3).flush t = false := Bool.eq_false_iff.mpr fun h => by have := (flush1_3 t).mp h; omega
        have hi4 : cfg1.idle 4 (cfg1.grid.coords t) = true := (hidle1_4 t).mpr ⟨h0, fun h => h.1 hi⟩
        have hf4 : (cfg1.win 4).flush t = false := Bool.eq_false_iff.mpr fun h => by have := (flush1_4 t).mp h; omega
        have hi6 : cfg1.idle 6 (cfg1.grid.coords t) = true := (hidle1_6 t).mpr ⟨h0, fun h => h.1 hi⟩
        have hf6 : (cfg1.win 6).flush t = false := Bool.eq_false_iff.mpr fun h => by have := (flush1_6 t).mp h; omega
        rw [Dat.leavesExact_idle (dat1 V c) 3 t hi3 hf3, Dat.leavesExact_idle (dat1 V c) 4 t hi4 hf4, leavesExact_live1 (dat1 V c) 5 t hl5, Dat.leavesExact_idle (dat1 V c) 6 t hi6 hf6]
        simp only [before1_3 V c t h0, before1_4 V c t h0, before1_5 V c t h0, before1_6 V c t h0]
        rw [after1_5, outsAt1_XY V c t hi hj]
        dsimp only
        unfold out1_XY
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun1_XY c (grid1.coords t) _ _ _ _ _ _ _ _ _ _ _ _ _ _ (n1_of_j t hj) (n2_of t (fun h => hj h.2)) (c3_of t hi hj) (n4_of t (fun h => h.1 hi)) (n5_of t (fun h => h.1 hi)) (iblk1 V c 0 t) (iblk1 V c 1 t) (iblk1 V c 2 t) _ _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexists d3; iexact H3
        isplitl [H4]; · iexists d4; iexact H4
        isplitl [H5]
        · unfold owns; iexists _; isplitr
          swap; · iexact H5
          ipureintro; exact View.read_writes_of_cover _ _ _ _ _ (cover1_XY c _ _ _ _ _ _ _ _ _ _ _ _ _ _ _ _ _ _ _ _ _ _ _ _ _ _ _)
        iexists d6; iexact H6
    · by_cases hj : t.val % 8 < 4
      · -- row block in the second half, column block in the first
        have hl6 : cfg1.idle 6 (cfg1.grid.coords t) = false := Bool.eq_false_iff.mpr fun h => ((hidle1_6 t).mp h).2 ⟨hi, hj⟩
        have hi3 : cfg1.idle 3 (cfg1.grid.coords t) = true := (hidle1_3 t).mpr ⟨h0, fun h => hi h.1⟩
        have hf3 : (cfg1.win 3).flush t = false := Bool.eq_false_iff.mpr fun h => by have := (flush1_3 t).mp h; omega
        have hi4 : cfg1.idle 4 (cfg1.grid.coords t) = true := (hidle1_4 t).mpr ⟨h0, fun h => h.2 hj⟩
        have hf4 : (cfg1.win 4).flush t = false := Bool.eq_false_iff.mpr fun h => by have := (flush1_4 t).mp h; omega
        have hi5 : cfg1.idle 5 (cfg1.grid.coords t) = true := (hidle1_5 t).mpr ⟨h0, fun h => hi h.1⟩
        have hf5 : (cfg1.win 5).flush t = false := Bool.eq_false_iff.mpr fun h => by have := (flush1_5 t).mp h; omega
        rw [Dat.leavesExact_idle (dat1 V c) 3 t hi3 hf3, Dat.leavesExact_idle (dat1 V c) 4 t hi4 hf4, Dat.leavesExact_idle (dat1 V c) 5 t hi5 hf5, leavesExact_live1 (dat1 V c) 6 t hl6]
        simp only [before1_3 V c t h0, before1_4 V c t h0, before1_5 V c t h0, before1_6 V c t h0]
        rw [after1_6, outsAt1_YX V c t hi hj]
        dsimp only
        unfold out1_YX
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun1_YX c (grid1.coords t) _ _ _ _ _ _ _ _ _ _ _ _ _ _ (n1_of_i t hi) (n2_of t (fun h => hi h.1)) (n3_of t (fun h => hi h.1)) (c4_of t hi hj) (n5_of t (fun h => h.2 hj)) (iblk1 V c 0 t) (iblk1 V c 1 t) (iblk1 V c 2 t) _ _ _ _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, H5, ⟨%e6, H6⟩⟩
        isplitl [HΦ]; · iexact HΦ
        isplitl [Ho]; · iexact Ho
        isplitl [H0]; · iexact H0
        isplitl [H1]; · iexact H1
        isplitl [H2]; · iexact H2
        isplitl [H3]; · iexists d3; iexact H3
        isplitl [H4]; · iexists d4; iexact H4
        isplitl [H5]; · iexists d5; iexact H5
        unfold owns; iexists _; isplitr
        swap; · iexact H6
        ipureintro; exact View.read_writes_of_cover _ _ _ _ _ (cover1_YX c _ _ _ _ _ _ _ _ _ _ _ _ _ _ _ _ _ _ _ _ _ _ _ _ _ _ _)
      · by_cases hl : t.val = 63
        · -- the last point: every sum's buffer is written back after the body
          have hl4 : cfg1.idle 4 (cfg1.grid.coords t) = false := Bool.eq_false_iff.mpr fun h => ((hidle1_4 t).mp h).2 ⟨hi, hj⟩
          have hf3 : (cfg1.win 3).flush t = true := (flush1_3 t).mpr (by omega)
          have hf5 : (cfg1.win 5).flush t = true := (flush1_5 t).mpr (by omega)
          have hf6 : (cfg1.win 6).flush t = true := (flush1_6 t).mpr (by omega)
          rw [leavesExact_flush1 (dat1 V c) 3 t hf3, leavesExact_live1 (dat1 V c) 4 t hl4, leavesExact_flush1 (dat1 V c) 5 t hf5, leavesExact_flush1 (dat1 V c) 6 t hf6]
          simp only [before1_3 V c t h0, before1_4 V c t h0, before1_5 V c t h0, before1_6 V c t h0]
          rw [after1_3, after1_4, after1_5, after1_6, outsAt1_YY V c t hi hj]
          dsimp only
          unfold out1_YY
          iintro ⟨HΦ, Ho, ⟨%d0, H0⟩, ⟨%d1, H1⟩, ⟨%d2, H2⟩, ⟨%d3, H3⟩, ⟨%d4, H4⟩, ⟨%d5, H5⟩, ⟨%d6, H6⟩⟩
          iapply ((kernelRun1_YY c (grid1.coords t) _ _ _ _ _ _ _ _ _ _ _ _ _ _ (n1_of_i t hi) (n2_of t (fun h => hi h.1)) (n3_of t (fun h => hi h.1)) (n4_of t (fun h => hj h.2)) (c5_of t hi hj) (iblk1 V c 0 t) (iblk1 V c 1 t) (iblk1 V c 2 t) _ _ _ _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          iintro ⟨H0, H1, H2, H3, ⟨%e4, H4⟩, H5, H6⟩
          isplitl [HΦ]; · iexact HΦ
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover1_YY c _ _ _ _ _ _ _ _ _ _ _ _ _ _ _ _ _ _ _ _ _ _ _ _ _ _ _)
          isplitl [H5]; · iexact H5
          iexact H6
        · -- both blocks in the second half, before the last point
          have hl4 : cfg1.idle 4 (cfg1.grid.coords t) = false := Bool.eq_false_iff.mpr fun h => ((hidle1_4 t).mp h).2 ⟨hi, hj⟩
          have hi3 : cfg1.idle 3 (cfg1.grid.coords t) = true := (hidle1_3 t).mpr ⟨h0, fun h => hi h.1⟩
          have hf3 : (cfg1.win 3).flush t = false := Bool.eq_false_iff.mpr fun h => by have := (flush1_3 t).mp h; omega
          have hi5 : cfg1.idle 5 (cfg1.grid.coords t) = true := (hidle1_5 t).mpr ⟨h0, fun h => hi h.1⟩
          have hf5 : (cfg1.win 5).flush t = false := Bool.eq_false_iff.mpr fun h => by have := (flush1_5 t).mp h; omega
          have hi6 : cfg1.idle 6 (cfg1.grid.coords t) = true := (hidle1_6 t).mpr ⟨h0, fun h => hj h.2⟩
          have hf6 : (cfg1.win 6).flush t = false := Bool.eq_false_iff.mpr fun h => by have := (flush1_6 t).mp h; omega
          rw [Dat.leavesExact_idle (dat1 V c) 3 t hi3 hf3, leavesExact_live1 (dat1 V c) 4 t hl4, Dat.leavesExact_idle (dat1 V c) 5 t hi5 hf5, Dat.leavesExact_idle (dat1 V c) 6 t hi6 hf6]
          simp only [before1_3 V c t h0, before1_4 V c t h0, before1_5 V c t h0, before1_6 V c t h0]
          rw [after1_4, outsAt1_YY V c t hi hj]
          dsimp only
          unfold out1_YY
          iintro ⟨HΦ, Ho, ⟨%d0, H0⟩, ⟨%d1, H1⟩, ⟨%d2, H2⟩, ⟨%d3, H3⟩, ⟨%d4, H4⟩, ⟨%d5, H5⟩, ⟨%d6, H6⟩⟩
          iapply ((kernelRun1_YY c (grid1.coords t) _ _ _ _ _ _ _ _ _ _ _ _ _ _ (n1_of_i t hi) (n2_of t (fun h => hi h.1)) (n3_of t (fun h => hi h.1)) (n4_of t (fun h => hj h.2)) (c5_of t hi hj) (iblk1 V c 0 t) (iblk1 V c 1 t) (iblk1 V c 2 t) _ _ _ _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          iintro ⟨H0, H1, H2, H3, ⟨%e4, H4⟩, H5, H6⟩
          isplitl [HΦ]; · iexact HΦ
          isplitl [Ho]; · iexact Ho
          isplitl [H0]; · iexact H0
          isplitl [H1]; · iexact H1
          isplitl [H2]; · iexact H2
          isplitl [H3]; · iexists d3; iexact H3
          isplitl [H4]
          · unfold owns; iexists _; isplitr
            swap; · iexact H4
            ipureintro; exact View.read_writes_of_cover _ _ _ _ _ (cover1_YY c _ _ _ _ _ _ _ _ _ _ _ _ _ _ _ _ _ _ _ _ _ _ _ _ _ _ _)
          isplitl [H5]; · iexists d5; iexact H5
          iexists d6; iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole program as a run of five segments — a stretch of host operations, the first region, a second stretch, the
  second region, a last stretch — and what every unscoped buffer of a core holds when it ends: the launch memory
  folded through the host operations of each stretch, with each region's windows' arrays replaced by what its
  pipeline leaves (the inputs as they were, each accumulator's write-back). Every weakly fair execution terminates,
  nothing faults, and the final memory agrees with that fold on every unscoped buffer; in particular the two
  argument arrays, which no host operation writes and no region stages for output, end as launched.
  Stated for any float instance.
-/
import proofs.«149507_j24644522344587_1_alg».proof.Proof.KernelIdeal.Stage1
import proofs.«149507_j24644522344587_1_alg».proof.Proof.KernelIdeal.Stage2
import proofs.«149507_j24644522344587_1_alg».proof.Proof.Gen.KernelIdeal.Regions

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the first region: its windows' arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- After the second stretch (the second region's entry). -/
abbrev W3 : Dev nD → Valuation τ sig (Elt F) := fun c => StableHlo.after hostOps1 (W2 m c)
abbrev VV3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (VV3 m) c).arrAt w cfg1.N
theorem W4_arr (c : Dev nD) (w : Fin cfg1.W) :
    W4 m c (Proc.devRef .tc (Pipeline.arrRef spec1 w)) = (dat1 (VV3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VV4 : (c : Dev nD) → (b : Ref sig .tc) → Buf (Elt F) ((c : Thread nD τ).loc b) := fun c b => W4 m c b
theorem hF1 (c : Dev nD) (w : Fin cfg1.W) : (dat1 (VV3 m) c).arrAt w cfg1.N = VV4 m c (Pipeline.arrRef spec1 w) :=
  (W4_arr m c w).symm
theorem hrest1 (c : Dev nD) : ∀ b, b ∉ Finset.univ.image (Pipeline.arrRef spec1) → VV4 m c b = VV3 m c b :=
  fun b hb => W4_of_ne m c b fun w e => hb (Finset.mem_image.mpr ⟨w, Finset.mem_univ _, e⟩)
/-- After the last stretch: the end. -/
abbrev W5 : Dev nD → Valuation τ sig (Elt F) := fun c => StableHlo.after hostOps2 (W4 m c)

/-! ### The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (VV1 m) c
  | ⟨1, _⟩ => fun c => dat1 (VV3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the final contents, the register somewhere. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the contents before it, left with its
    windows' arrays at what the pipeline leaves and every other buffer untouched. Its arrays are split out of the
    unscoped buffers on entry and put back on exit; the generator register goes into the class invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    windows' arrays at what the pipeline leaves and every other buffer untouched. Its arrays are split out of the
    unscoped buffers on entry and put back on exit; the generator register goes into the class invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (VV3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- THE RUN: from any memory with zero counters every weakly fair execution of the program terminates, nothing
    faulting, and in the final memory every unscoped buffer of every core holds the fold W5. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run m ρ)

end Cert.KernelIdeal.Hand

end
-- ==== Proof.KernelIdeal.Value1.lean ====
/-
  The first region read as values. What each case of the body leaves in an accumulator is one covering store whose
  payload is "accumulator ⊕ tile value": the sum accumulator gets its previous contents plus the sum over the tile
  of the clipped squared distances, the maximum accumulator the larger of its previous contents and the tile's
  maximum; at the first grid point the previous contents are the reset values (zero, minus infinity) the body has
  just stored. So the accumulators follow a plain recursion over the grid points, and since the two result arrays
  are written back once, after the last point, through a block that is the whole one-element array, each result
  array ends holding the recursion's last value.
-/
import proofs.«149507_j24644522344587_1_alg».proof.Proof.KernelIdeal.Stage1
import Idealize.ShloMosaic.Lib.Pipeline.Value

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl

/-- The tile's row blocks and squared-norm blocks, as the body loads them from the whole arrays. -/
abbrev ldA (i : grid0.Coords) (x0 : Vec F S8192x256 .bf16) : Vec F S1024x256 .bf16 :=
  View.ld x0 (Rect.unit (s := S8192x256) (k0_off1 i) S1024x256.size (k0_off1_inb i))
abbrev ldB (i : grid0.Coords) (x0 : Vec F S8192x256 .bf16) : Vec F S1024x256 .bf16 :=
  View.ld x0 (Rect.unit (s := S8192x256) (k0_off2 i) S1024x256.size (k0_off2_inb i))
abbrev ldC (i : grid0.Coords) (x1 : Vec F S8192 .f32) : Vec F S1024 .f32 :=
  View.ld x1 (Rect.unit (s := S8192) (k0_off3 i) S1024.size (k0_off3_inb i))
abbrev ldD (i : grid0.Coords) (x1 : Vec F S8192 .f32) : Vec F S1024 .f32 :=
  View.ld x1 (Rect.unit (s := S8192) (k0_off4 i) S1024.size (k0_off4_inb i))

/-! ## The cases' stores as payloads -/

theorem out0_B_2_eq (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) : out0_B_2 c i arg2 harg2 arg3 harg3 arg4 harg4 arg5 harg5 hc0 x0 x1 xo2 xo3 = k0_pay1 (k0_pay4 (ldA i x0) (ldB i x0) (ldC i x1) (ldD i x1)) xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_run_names
  rw [View.canon_unit_zero hz2]
  simp only [View.readAt_eq_ld, harg2.read_unread, harg3.read_unread, harg4.read_unread, View.ld_unit_zero (S := S1x1) hz2]

theorem out0_B_3_eq (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : ¬cond0 i)
    (x0 : Vec F S8192x256 .bf16) (x1 : Vec F S8192 .f32) (xo2 : Vec F S1x1 .f32) (xo3 : Vec F S1x1 .f32) : out0_B_3 c i arg2 harg2 arg3 harg3 arg4 harg4 arg5 harg5 hc0 x0 x1 xo2 xo3 = k0_pay2 (k0_pay5 (ldA i x0) (ldB i x0) (ldC i x1) (ldD i x1)) xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_run_names
  rw [View.canon_unit_zero hz2]
  simp only [View.readAt_eq_ld, harg2.read_unread, harg3.read_unread, harg5.read_unread, View.ld_unit_zero (S := S1x1) hz2]

theorem out0_A_2_eq (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) : out0_A_2 c i arg2 harg2 arg3 harg3 arg4 harg4 arg5 harg5 hc0 x0 x1 = k0_pay1 (k0_pay4 (ldA i x0) (ldB i x0) (ldC i x1) (ldD i x1)) k0_pay6 := by
  unfold out0_A_2
  rw [View.read_writes_eq_canon _ _ _ (cover0_A_2 c i arg2 harg2 arg3 harg3 arg4 harg4 arg5 harg5 hc0 x0 x1)]
  unfold kernelRun0_A
  dsimp only
  sl_unfold_run_names
  rw [View.canon_cons_unit_zero (S := S1x1) hz2, View.readCov_unit_zero (S := S1x1) _ hz2]
  simp only [View.readAt_eq_ld, harg2.read_unread, harg3.read_unread, View.ld_unit_zero (S := S1x1) hz2]

theorem out0_A_3_eq (c : Dev nD) (i : grid0.Coords) (arg2 : Memref sig .tc .vmem S8192x256 .bf16) (harg2 : arg2.IsWhole) (arg3 : Memref sig .tc .vmem S8192 .f32) (harg3 : arg3.IsWhole) (arg4 : Memref sig .tc .vmem S1x1 .f32) (harg4 : arg4.IsWhole) (arg5 : Memref sig .tc .vmem S1x1 .f32) (harg5 : arg5.IsWhole) (hc0 : cond0 i)
    (x0 : Vec F S8192x256 .bf16) (x1 : Vec F S8192 .f32) : out0_A_3 c i arg2 harg2 arg3 harg3 arg4 harg4 arg5 harg5 hc0 x0 x1 = k0_pay2 (k0_pay5 (ldA i x0) (ldB i x0) (ldC i x1) (ldD i x1)) k0_pay7 := by
  unfold out0_A_3
  rw [View.read_writes_eq_canon _ _ _ (cover0_A_3 c i arg2 harg2 arg3 harg3 arg4 harg4 arg5 harg5 hc0 x0 x1)]
  unfold kernelRun0_A
  dsimp only
  sl_unfold_run_names
  rw [View.canon_cons_unit_zero (S := S1x1) hz2, View.readCov_unit_zero (S := S1x1) _ hz2]
  simp only [View.readAt_eq_ld, harg2.read_unread, harg3.read_unread, View.ld_unit_zero (S := S1x1) hz2]

variable (V : (c : Dev nD) → (b : Ref sig .tc) → Buf (Elt F) ((c : Thread nD τ).loc b))

/-! ## The accumulators as a recursion over the grid points -/

/-- The tile's sum of clipped squared distances at grid point t, from the blocks the pipeline stages. -/
def tileSumAt (c : Dev nD) (t : Fin cfg0.N) : FVec F S1x1 .f32 := k0_pay4 (ldA (grid0.coords t) (iblk0 V c 0 t)) (ldB (grid0.coords t) (iblk0 V c 0 t)) (ldC (grid0.coords t) (iblk0 V c 1 t)) (ldD (grid0.coords t) (iblk0 V c 1 t))
/-- The tile's maximum at grid point t. -/
def tileMaxAt (c : Dev nD) (t : Fin cfg0.N) : FVec F S1x1 .f32 := k0_pay5 (ldA (grid0.coords t) (iblk0 V c 0 t)) (ldB (grid0.coords t) (iblk0 V c 0 t)) (ldC (grid0.coords t) (iblk0 V c 1 t)) (ldD (grid0.coords t) (iblk0 V c 1 t))

/-- (sum accumulator, maximum accumulator) after position n. -/
def chain0 (c : Dev nD) : (n : ℕ) → n < cfg0.N → Vec F S1x1 .f32 × Vec F S1x1 .f32
  | 0, h => (k0_pay1 (tileSumAt V c ⟨0, h⟩) k0_pay6, k0_pay2 (tileMaxAt V c ⟨0, h⟩) k0_pay7)
  | n + 1, h => (k0_pay1 (tileSumAt V c ⟨n + 1, h⟩) (chain0 c n (Nat.lt_of_succ_lt h)).1,
                 k0_pay2 (tileMaxAt V c ⟨n + 1, h⟩) (chain0 c n (Nat.lt_of_succ_lt h)).2)

theorem outsAt0_eq (c : Dev nD) : ∀ (n : ℕ) (h : n < cfg0.N), outsAt0 V c n h = chain0 V c n h
  | 0, h => by
    rw [outsAt0_A V c ⟨0, h⟩ rfl, out0_A_2_eq, out0_A_3_eq]
    rfl
  | n + 1, h => by
    have hB : ¬(⟨n + 1, h⟩ : Fin cfg0.N).val = 0 := Nat.succ_ne_zero n
    rw [outsAt0_B V c ⟨n + 1, h⟩ hB, out0_B_2_eq, out0_B_3_eq]
    show (k0_pay1 _ (outsAt0 V c n _).1, k0_pay2 _ (outsAt0 V c n _).2) = _
    rw [outsAt0_eq c n]
    rfl

/-! ## The result arrays -/

/-- The last grid point. -/
abbrev tLast0 : Fin cfg0.N := ⟨63, by rw [show cfg0.N = 64 from N_0]; decide⟩

/-- The sum and the maximum after the last grid point, as contents of the two result arrays. -/
abbrev resSum (c : Dev nD) : Buf (Elt F) ((c : Thread nD τ).loc main_v4_0) := (chain0 V c 63 tLast0.isLt).1
abbrev resMax (c : Dev nD) : Buf (Elt F) ((c : Thread nD τ).loc main_v4_1) := (chain0 V c 63 tLast0.isLt).2

theorem flushed0_2_eq (c : Dev nD) (t : Fin cfg0.N) (hf : (cfg0.win 2).flush t = true) :
    (dat0 V c).flushed 2 t = ((cfg0.win 2).blk t).view.read (Elt F) (resSum V c) := by
  have hN : cfg0.N = 64 := N_0
  have h63 : t.val = 63 := by have := (flush0_2 t).mp hf; have := t.isLt; omega
  obtain rfl : t = tLast0 := Fin.ext h63
  show (cfg0.win 2).cut (grid0.coords tLast0) ((dat0 V c).after 2 tLast0) = _
  rw [after0_2, outsAt0_eq]
  have hz' : (fun a => win0_2.index tLast0 a * main_v4_0.ty.shape.size a) = fun _ => 0 := funext fun a => by fin_cases a <;> decide +kernel
  exact (Memref.read_access_unit_zero (Elt F) main_v4_0 hz' (fun a => by rw [congrFun hz' a]; simp) (resSum V c)).symm

theorem flushed0_3_eq (c : Dev nD) (t : Fin cfg0.N) (hf : (cfg0.win 3).flush t = true) :
    (dat0 V c).flushed 3 t = ((cfg0.win 3).blk t).view.read (Elt F) (resMax V c) := by
  have hN : cfg0.N = 64 := N_0
  have h63 : t.val = 63 := by have := (flush0_3 t).mp hf; have := t.isLt; omega
  obtain rfl : t = tLast0 := Fin.ext h63
  show (cfg0.win 3).cut (grid0.coords tLast0) ((dat0 V c).after 3 tLast0) = _
  rw [after0_3, outsAt0_eq]
  have hz' : (fun a => win0_3.index tLast0 a * main_v4_1.ty.shape.size a) = fun _ => 0 := funext fun a => by fin_cases a <;> decide +kernel
  exact (Memref.read_access_unit_zero (Elt F) main_v4_1 hz' (fun a => by rw [congrFun hz' a]; simp) (resMax V c)).symm

/-- The sum's result array ends holding the recursion's last value: the last point's block is the whole array. -/
theorem final0_2 (c : Dev nD) : (dat0 V c).arrAt 2 cfg0.N = resSum V c :=
  (dat0 V c).arrAt_eq_of_cover 2 (resSum V c) (flushed0_2_eq V c) fun i =>
    ⟨tLast0, (flush0_2 tLast0).mpr rfl, by
      show i ∈ ((View.whole main_v4_0).slice (win0_2.rect tLast0)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast0 0 * win0_2.size 0 ≤ (i 0 : Nat) ∧ (i 0 : Nat) < win0_2.index tLast0 0 * win0_2.size 0 + win0_2.xsize (grid0.coords tLast0) 0
                  rw [show win0_2.index tLast0 0 * win0_2.size 0 = 0 from by decide +kernel, show win0_2.xsize (grid0.coords tLast0) 0 = 1 from by decide +kernel]; omega
      | ⟨1, _⟩ => show win0_2.index tLast0 1 * win0_2.size 1 ≤ (i 1 : Nat) ∧ (i 1 : Nat) < win0_2.index tLast0 1 * win0_2.size 1 + win0_2.xsize (grid0.coords tLast0) 1
                  rw [show win0_2.index tLast0 1 * win0_2.size 1 = 0 from by decide +kernel, show win0_2.xsize (grid0.coords tLast0) 1 = 1 from by decide +kernel]; omega⟩

/-- So does the maximum's. -/
theorem final0_3 (c : Dev nD) : (dat0 V c).arrAt 3 cfg0.N = resMax V c :=
  (dat0 V c).arrAt_eq_of_cover 3 (resMax V c) (flushed0_3_eq V c) fun i =>
    ⟨tLast0, (flush0_3 tLast0).mpr rfl, by
      show i ∈ ((View.whole main_v4_1).slice (win0_3.rect tLast0)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast0 0 * win0_3.size 0 ≤ (i 0 : Nat) ∧ (i 0 : Nat) < win0_3.index tLast0 0 * win0_3.size 0 + win0_3.xsize (grid0.coords tLast0) 0
                  rw [show win0_3.index tLast0 0 * win0_3.size 0 = 0 from by decide +kernel, show win0_3.xsize (grid0.coords tLast0) 0 = 1 from by decide +kernel]; omega
      | ⟨1, _⟩ => show win0_3.index tLast0 1 * win0_3.size 1 ≤ (i 1 : Nat) ∧ (i 1 : Nat) < win0_3.index tLast0 1 * win0_3.size 1 + win0_3.xsize (grid0.coords tLast0) 1
                  rw [show win0_3.index tLast0 1 * win0_3.size 1 = 0 from by decide +kernel, show win0_3.xsize (grid0.coords tLast0) 1 = 1 from by decide +kernel]; omega⟩

end Cert.KernelIdeal.Hand

end
-- ==== Proof.KernelIdeal.Loads1.lean ====
/-
  What the second region's body loads from its three inputs, as functions of the whole arrays: from the array of rows
  the tile's 1024 row-block rows and 1024 column-block rows, from the squared norms the two matching stretches of
  1024 entries, and from the row of bandwidths its first five entries, one at a time.
-/
import proofs.«149507_j24644522344587_1_alg».proof.Proof.Gen.KernelIdeal
import Idealize.ShloMosaic.Lib.Pipeline.FrameBody

noncomputable section

namespace Cert.KernelIdeal.Hand

open Idealize.ShloMosaic Idealize.SL.Sem
open Cert.KernelIdeal Cert.KernelIdeal.Gen

variable {F : FTy → Type} [FloatOps F]

/-- The tile's row blocks and squared-norm blocks. -/
abbrev ld1A (i : grid1.Coords) (x0 : Vec F S8192x256 .bf16) : Vec F S1024x256 .bf16 :=
  View.ld x0 (Rect.unit (s := S8192x256) (k1_off1 i) S1024x256.size (k1_off1_inb i))
abbrev ld1B (i : grid1.Coords) (x0 : Vec F S8192x256 .bf16) : Vec F S1024x256 .bf16 :=
  View.ld x0 (Rect.unit (s := S8192x256) (k1_off2 i) S1024x256.size (k1_off2_inb i))
abbrev ld1C (i : grid1.Coords) (x1 : Vec F S8192 .f32) : Vec F S1024 .f32 :=
  View.ld x1 (Rect.unit (s := S8192) (k1_off3 i) S1024.size (k1_off3_inb i))
abbrev ld1D (i : grid1.Coords) (x1 : Vec F S8192 .f32) : Vec F S1024 .f32 :=
  View.ld x1 (Rect.unit (s := S8192) (k1_off4 i) S1024.size (k1_off4_inb i))

/-- The five bandwidths, each as a one-element block of the row that holds them. -/
abbrev ldBw0 (x2 : Vec F S1x128 .f32) : Vec F S1x1 .f32 := View.ld x2 (Rect.unit (s := S1x128) ![0, 0] S1x1.size inb_S1x128_S1x1_0_0)
abbrev ldBw1 (x2 : Vec F S1x128 .f32) : Vec F S1x1 .f32 := View.ld x2 (Rect.unit (s := S1x128) ![0, 1] S1x1.size inb_S1x128_S1x1_0_1)
abbrev ldBw2 (x2 : Vec F S1x128 .f32) : Vec F S1x1 .f32 := View.ld x2 (Rect.unit (s := S1x128) ![0, 2] S1x1.size inb_S1x128_S1x1_0_2)
abbrev ldBw3 (x2 : Vec F S1x128 .f32) : Vec F S1x1 .f32 := View.ld x2 (Rect.unit (s := S1x128) ![0, 3] S1x1.size inb_S1x128_S1x1_0_3)
abbrev ldBw4 (x2 : Vec F S1x128 .f32) : Vec F S1x1 .f32 := View.ld x2 (Rect.unit (s := S1x128) ![0, 4] S1x1.size inb_S1x128_S1x1_0_4)

end Cert.KernelIdeal.Hand

end
-- ==== Proof.KernelIdeal.Value2.lean ====
/-
  The second region read as values. What a case of the body leaves in the sum it stores into is one covering store
  whose payload is "previous contents + tile value", the tile value being the sum over the tile's 1024 × 1024 pairs of
  the five Gaussian kernels exp(−d / b_k) of the clipped squared distance d; at the first grid point all four sums
  are reset to zero first, and the first sum's previous contents are that zero. So the four sums follow a plain
  recursion over the grid points in which, at each later point, only the sum of the quadrant the tile lies in moves;
  and since the four result arrays are written back once, after the last point, through a block that is the whole
  one-element array, each result array ends holding its component of the recursion's last value.
-/
import proofs.«149507_j24644522344587_1_alg».proof.Proof.KernelIdeal.Stage2
import proofs.«149507_j24644522344587_1_alg».proof.Proof.KernelIdeal.Value1
import proofs.«149507_j24644522344587_1_alg».proof.Proof.KernelIdeal.Loads1
import Idealize.ShloMosaic.Lib.Pipeline.Value

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The tile's value -/

/-- The sum over the tile at grid coordinates i of the five kernels, from the whole input arrays. -/
abbrev tileK (i : grid1.Coords) (x0 : Vec F S8192x256 .bf16) (x1 : Vec F S8192 .f32) (x2 : Vec F S1x128 .f32) : FVec F S1x1 .f32 :=
  k1_pay6 (k1_pay4 (ld1A i x0) (ld1B i x0) (ld1C i x1) (ld1D i x1)) (k1_pay5 (ld1A i x0) (ld1B i x0) (ld1C i x1) (ld1D i x1) (ldBw0 x2) (ldBw1 x2)) (ldBw2 x2) (ldBw3 x2) (ldBw4 x2)

/-- The store into the first sum adds the tile's value to what it read, like the stores into the other three. -/
theorem k1_pay11_eq (v26 v43 : FVec F S1024x1024 .f32) (v44 v52 v60 v95 : Vec F S1x1 .f32) :
    k1_pay11 v26 v43 v44 v52 v60 v95 = k1_pay1 (k1_pay6 v26 v43 v44 v52 v60) v95 := rfl
theorem k1_pay2_eq (v71 : FVec F S1x1 .f32) (v95 : Vec F S1x1 .f32) : k1_pay2 v71 v95 = k1_pay1 v71 v95 := rfl
theorem k1_pay3_eq (v71 : FVec F S1x1 .f32) (v95 : Vec F S1x1 .f32) : k1_pay3 v71 v95 = k1_pay1 v71 v95 := rfl

/-! ## The cases' stores as payloads -/

theorem out1_XX_eq (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    out1_XX c i arg2 harg2 arg3 harg3 arg4 harg4 arg5 harg5 arg6 harg6 arg7 harg7 arg8 harg8 hc1 hc2 hc3 hc4 hc5 x0 x1 x2 xo3 xo4 xo5 xo6 = k1_pay11 (k1_pay4 (ld1A i x0) (ld1B i x0) (ld1C i x1) (ld1D i x1)) (k1_pay5 (ld1A i x0) (ld1B i x0) (ld1C i x1) (ld1D i x1) (ldBw0 x2) (ldBw1 x2)) (ldBw2 x2) (ldBw3 x2) (ldBw4 x2) xo3 := by
  unfold out1_XX
  rw [View.read_writes_eq_canon _ _ _ (cover1_XX c i arg2 harg2 arg3 harg3 arg4 harg4 arg5 harg5 arg6 harg6 arg7 harg7 arg8 harg8 hc1 hc2 hc3 hc4 hc5 x0 x1 x2 xo3 xo4 xo5 xo6)]
  unfold kernelRun1_XX
  dsimp only
  sl_unfold_run_names
  rw [View.canon_unit_zero hz2]
  simp only [View.readAt_eq_ld, harg2.read_unread, harg3.read_unread, harg4.read_unread, harg5.read_unread, harg6.read_unread, harg7.read_unread, harg8.read_unread, View.ld_unit_zero (S := S1x1) hz2]

theorem out1_XY_eq (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : cond1_3 i) (hc4 : ¬cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    out1_XY c i arg2 harg2 arg3 harg3 arg4 harg4 arg5 harg5 arg6 harg6 arg7 harg7 arg8 harg8 hc1 hc2 hc3 hc4 hc5 x0 x1 x2 xo3 xo4 xo5 xo6 = k1_pay1 (tileK i x0 x1 x2) xo5 := by
  unfold out1_XY
  rw [View.read_writes_eq_canon _ _ _ (cover1_XY c i arg2 harg2 arg3 harg3 arg4 harg4 arg5 harg5 arg6 harg6 arg7 harg7 arg8 harg8 hc1 hc2 hc3 hc4 hc5 x0 x1 x2 xo3 xo4 xo5 xo6)]
  unfold kernelRun1_XY
  dsimp only
  sl_unfold_run_names
  rw [View.canon_unit_zero hz2]
  simp only [View.readAt_eq_ld, harg2.read_unread, harg3.read_unread, harg4.read_unread, harg5.read_unread, harg6.read_unread, harg7.read_unread, harg8.read_unread, View.ld_unit_zero (S := S1x1) hz2]

theorem out1_YX_eq (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : cond1_4 i) (hc5 : ¬cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    out1_YX c i arg2 harg2 arg3 harg3 arg4 harg4 arg5 harg5 arg6 harg6 arg7 harg7 arg8 harg8 hc1 hc2 hc3 hc4 hc5 x0 x1 x2 xo3 xo4 xo5 xo6 = k1_pay2 (tileK i x0 x1 x2) xo6 := by
  unfold out1_YX
  rw [View.read_writes_eq_canon _ _ _ (cover1_YX c i arg2 harg2 arg3 harg3 arg4 harg4 arg5 harg5 arg6 harg6 arg7 harg7 arg8 harg8 hc1 hc2 hc3 hc4 hc5 x0 x1 x2 xo3 xo4 xo5 xo6)]
  unfold kernelRun1_YX
  dsimp only
  sl_unfold_run_names
  rw [View.canon_unit_zero hz2]
  simp only [View.readAt_eq_ld, harg2.read_unread, harg3.read_unread, harg4.read_unread, harg5.read_unread, harg6.read_unread, harg7.read_unread, harg8.read_unread, View.ld_unit_zero (S := S1x1) hz2]

theorem out1_YY_eq (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : ¬cond1_1 i) (hc2 : ¬cond1_2 i) (hc3 : ¬cond1_3 i) (hc4 : ¬cond1_4 i) (hc5 : cond1_5 i)
    (x0 : Vec F S8192x256 .bf16) (x1 : Vec F S8192 .f32) (x2 : Vec F S1x128 .f32) (xo3 : Vec F S1x1 .f32) (xo4 : Vec F S1x1 .f32) (xo5 : Vec F S1x1 .f32) (xo6 : Vec F S1x1 .f32) :
    out1_YY c i arg2 harg2 arg3 harg3 arg4 harg4 arg5 harg5 arg6 harg6 arg7 harg7 arg8 harg8 hc1 hc2 hc3 hc4 hc5 x0 x1 x2 xo3 xo4 xo5 xo6 = k1_pay3 (tileK i x0 x1 x2) xo4 := by
  unfold out1_YY
  rw [View.read_writes_eq_canon _ _ _ (cover1_YY c i arg2 harg2 arg3 harg3 arg4 harg4 arg5 harg5 arg6 harg6 arg7 harg7 arg8 harg8 hc1 hc2 hc3 hc4 hc5 x0 x1 x2 xo3 xo4 xo5 xo6)]
  unfold kernelRun1_YY
  dsimp only
  sl_unfold_run_names
  rw [View.canon_unit_zero hz2]
  simp only [View.readAt_eq_ld, harg2.read_unread, harg3.read_unread, harg4.read_unread, harg5.read_unread, harg6.read_unread, harg7.read_unread, harg8.read_unread, View.ld_unit_zero (S := S1x1) hz2]

theorem out1_Z_3_eq (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) :
    out1_Z_3 c i arg2 harg2 arg3 harg3 arg4 harg4 arg5 harg5 arg6 harg6 arg7 harg7 arg8 harg8 hc1 hc2 hc3 hc4 hc5 x0 x1 x2 = k1_pay11 (k1_pay4 (ld1A i x0) (ld1B i x0) (ld1C i x1) (ld1D i x1)) (k1_pay5 (ld1A i x0) (ld1B i x0) (ld1C i x1) (ld1D i x1) (ldBw0 x2) (ldBw1 x2)) (ldBw2 x2) (ldBw3 x2) (ldBw4 x2) k1_pay7 := by
  unfold out1_Z_3
  rw [View.read_writes_eq_canon _ _ _ (cover1_Z_3 c i arg2 harg2 arg3 harg3 arg4 harg4 arg5 harg5 arg6 harg6 arg7 harg7 arg8 harg8 hc1 hc2 hc3 hc4 hc5 x0 x1 x2)]
  unfold kernelRun1_Z
  dsimp only
  sl_unfold_run_names
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, View.ld_unit_zero (S := S1x1) hz2]

theorem out1_Z_4_eq (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) :
    out1_Z_4 c i arg2 harg2 arg3 harg3 arg4 harg4 arg5 harg5 arg6 harg6 arg7 harg7 arg8 harg8 hc1 hc2 hc3 hc4 hc5 x0 x1 x2 = k1_pay8 := by
  unfold out1_Z_4
  rw [View.read_writes_eq_canon _ _ _ (cover1_Z_4 c i arg2 harg2 arg3 harg3 arg4 harg4 arg5 harg5 arg6 harg6 arg7 harg7 arg8 harg8 hc1 hc2 hc3 hc4 hc5 x0 x1 x2)]
  unfold kernelRun1_Z
  dsimp only
  sl_unfold_run_names
  rw [View.canon_unit_zero hz2]

theorem out1_Z_5_eq (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) :
    out1_Z_5 c i arg2 harg2 arg3 harg3 arg4 harg4 arg5 harg5 arg6 harg6 arg7 harg7 arg8 harg8 hc1 hc2 hc3 hc4 hc5 x0 x1 x2 = k1_pay9 := by
  unfold out1_Z_5
  rw [View.read_writes_eq_canon _ _ _ (cover1_Z_5 c i arg2 harg2 arg3 harg3 arg4 harg4 arg5 harg5 arg6 harg6 arg7 harg7 arg8 harg8 hc1 hc2 hc3 hc4 hc5 x0 x1 x2)]
  unfold kernelRun1_Z
  dsimp only
  sl_unfold_run_names
  rw [View.canon_unit_zero hz2]

theorem out1_Z_6_eq (c : Dev nD) (i : grid1.Coords) (arg2 : Memref sig .tc .vmem S8192x256 .bf16) (harg2 : arg2.IsWhole) (arg3 : Memref sig .tc .vmem S8192 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc1 : cond1_1 i) (hc2 : cond1_2 i) (hc3 : ¬cond1_3 i) (hc4 : ¬cond1_4 i) (hc5 : ¬cond1_5 i)
    (x0 : Vec F S8192x256 .bf16) (x1 : Vec F S8192 .f32) (x2 : Vec F S1x128 .f32) :
    out1_Z_6 c i arg2 harg2 arg3 harg3 arg4 harg4 arg5 harg5 arg6 harg6 arg7 harg7 arg8 harg8 hc1 hc2 hc3 hc4 hc5 x0 x1 x2 = k1_pay10 := by
  unfold out1_Z_6
  rw [View.read_writes_eq_canon _ _ _ (cover1_Z_6 c i arg2 harg2 arg3 harg3 arg4 harg4 arg5 harg5 arg6 harg6 arg7 harg7 arg8 harg8 hc1 hc2 hc3 hc4 hc5 x0 x1 x2)]
  unfold kernelRun1_Z
  dsimp only
  sl_unfold_run_names
  rw [View.canon_unit_zero hz2]

variable (V : (c : Dev nD) → (b : Ref sig .tc) → Buf (Elt F) ((c : Thread nD τ).loc b))

/-! ## The four sums as a recursion over the grid points -/

/-- The tile's value at grid point t, from the blocks the pipeline stages. -/
def tileAt (c : Dev nD) (t : Fin cfg1.N) : FVec F S1x1 .f32 := tileK (grid1.coords t) (iblk1 V c 0 t) (iblk1 V c 1 t) (iblk1 V c 2 t)

/-- The first sum's store at grid point t, of previous contents x, -/
def xxAt (c : Dev nD) (t : Fin cfg1.N) (x : Vec F S1x1 .f32) : FVec F S1x1 .f32 :=
  k1_pay11 (k1_pay4 (ld1A (grid1.coords t) (iblk1 V c 0 t)) (ld1B (grid1.coords t) (iblk1 V c 0 t)) (ld1C (grid1.coords t) (iblk1 V c 1 t)) (ld1D (grid1.coords t) (iblk1 V c 1 t)))
    (k1_pay5 (ld1A (grid1.coords t) (iblk1 V c 0 t)) (ld1B (grid1.coords t) (iblk1 V c 0 t)) (ld1C (grid1.coords t) (iblk1 V c 1 t)) (ld1D (grid1.coords t) (iblk1 V c 1 t)) (ldBw0 (iblk1 V c 2 t)) (ldBw1 (iblk1 V c 2 t)))
    (ldBw2 (iblk1 V c 2 t)) (ldBw3 (iblk1 V c 2 t)) (ldBw4 (iblk1 V c 2 t)) x
/-- which adds the tile's value to x. -/
theorem xxAt_eq (c : Dev nD) (t : Fin cfg1.N) (x : Vec F S1x1 .f32) : xxAt V c t x = k1_pay1 (tileAt V c t) x := rfl

/-- (first, second, third, fourth sum) after position n: all reset and the first added to at n = 0; from then on the
    sum of the quadrant the tile lies in gets the tile's value added, the other three stay. -/
def chain1 (c : Dev nD) : (n : ℕ) → n < cfg1.N → Vec F S1x1 .f32 × Vec F S1x1 .f32 × Vec F S1x1 .f32 × Vec F S1x1 .f32
  | 0, h => (xxAt V c ⟨0, h⟩ k1_pay7, k1_pay8, k1_pay9, k1_pay10)
  | n + 1, h =>
    if (n + 1) / 8 < 4 then
      if (n + 1) % 8 < 4 then
        (xxAt V c ⟨n + 1, h⟩ (chain1 c n (Nat.lt_of_succ_lt h)).1, (chain1 c n (Nat.lt_of_succ_lt h)).2.1, (chain1 c n (Nat.lt_of_succ_lt h)).2.2.1, (chain1 c n (Nat.lt_of_succ_lt h)).2.2.2)
      else
        ((chain1 c n (Nat.lt_of_succ_lt h)).1, (chain1 c n (Nat.lt_of_succ_lt h)).2.1, k1_pay1 (tileAt V c ⟨n + 1, h⟩) (chain1 c n (Nat.lt_of_succ_lt h)).2.2.1, (chain1 c n (Nat.lt_of_succ_lt h)).2.2.2)
    else
      if (n + 1) % 8 < 4 then
        ((chain1 c n (Nat.lt_of_succ_lt h)).1, (chain1 c n (Nat.lt_of_succ_lt h)).2.1, (chain1 c n (Nat.lt_of_succ_lt h)).2.2.1, k1_pay2 (tileAt V c ⟨n + 1, h⟩) (chain1 c n (Nat.lt_of_succ_lt h)).2.2.2)
      else
        ((chain1 c n (Nat.lt_of_succ_lt h)).1, k1_pay3 (tileAt V c ⟨n + 1, h⟩) (chain1 c n (Nat.lt_of_succ_lt h)).2.1, (chain1 c n (Nat.lt_of_succ_lt h)).2.2.1, (chain1 c n (Nat.lt_of_succ_lt h)).2.2.2)

theorem outsAt1_eq (c : Dev nD) : ∀ (n : ℕ) (h : n < cfg1.N), outsAt1 V c n h = chain1 V c n h
  | 0, h => by
    rw [outsAt1_Z V c ⟨0, h⟩ rfl, out1_Z_3_eq, out1_Z_4_eq, out1_Z_5_eq, out1_Z_6_eq]
    rfl
  | n + 1, h => by
    have h0 : (⟨n + 1, h⟩ : Fin cfg1.N).val ≠ 0 := Nat.succ_ne_zero n
    by_cases hi : (n + 1) / 8 < 4
    · by_cases hj : (n + 1) % 8 < 4
      · rw [outsAt1_XX V c ⟨n + 1, h⟩ hi hj h0, out1_XX_eq]
        show (k1_pay11 _ _ _ _ _ (outsAt1 V c n _).1, (outsAt1 V c n _).2.1, (outsAt1 V c n _).2.2.1, (outsAt1 V c n _).2.2.2) = _
        rw [outsAt1_eq c n]
        exact ((if_pos hi).trans ((if_pos hj).trans rfl)).symm
      · rw [outsAt1_XY V c ⟨n + 1, h⟩ hi hj, out1_XY_eq]
        show ((outsAt1 V c n _).1, (outsAt1 V c n _).2.1, k1_pay1 _ (outsAt1 V c n _).2.2.1, (outsAt1 V c n _).2.2.2) = _
        rw [outsAt1_eq c n]
        exact ((if_pos hi).trans ((if_neg hj).trans rfl)).symm
    · by_cases hj : (n + 1) % 8 < 4
      · rw [outsAt1_YX V c ⟨n + 1, h⟩ hi hj, out1_YX_eq]
        show ((outsAt1 V c n _).1, (outsAt1 V c n _).2.1, (outsAt1 V c n _).2.2.1, k1_pay2 _ (outsAt1 V c n _).2.2.2) = _
        rw [outsAt1_eq c n]
        exact ((if_neg hi).trans ((if_pos hj).trans rfl)).symm
      · rw [outsAt1_YY V c ⟨n + 1, h⟩ hi hj, out1_YY_eq]
        show ((outsAt1 V c n _).1, k1_pay3 _ (outsAt1 V c n _).2.1, (outsAt1 V c n _).2.2.1, (outsAt1 V c n _).2.2.2) = _
        rw [outsAt1_eq c n]
        exact ((if_neg hi).trans ((if_neg hj).trans rfl)).symm

/-! ## The result arrays -/

/-- The last grid point. -/
abbrev tLast1 : Fin cfg1.N := ⟨63, by rw [show cfg1.N = 64 from N_1]; decide⟩

/-- The four sums after the last grid point, as contents of the four result arrays. -/
abbrev resXX (c : Dev nD) : Buf (Elt F) ((c : Thread nD τ).loc main_v29_0) := (chain1 V c 63 tLast1.isLt).1
abbrev resYY (c : Dev nD) : Buf (Elt F) ((c : Thread nD τ).loc main_v29_1) := (chain1 V c 63 tLast1.isLt).2.1
abbrev resXY (c : Dev nD) : Buf (Elt F) ((c : Thread nD τ).loc main_v29_2) := (chain1 V c 63 tLast1.isLt).2.2.1
abbrev resYX (c : Dev nD) : Buf (Elt F) ((c : Thread nD τ).loc main_v29_3) := (chain1 V c 63 tLast1.isLt).2.2.2

theorem flushed1_3_eq (c : Dev nD) (t : Fin cfg1.N) (hf : (cfg1.win 3).flush t = true) :
    (dat1 V c).flushed 3 t = ((cfg1.win 3).blk t).view.read (Elt F) (resXX V c) := by
  have hN : cfg1.N = 64 := N_1
  have h63 : t.val = 63 := by have := (flush1_3 t).mp hf; have := t.isLt; omega
  obtain rfl : t = tLast1 := Fin.ext h63
  show (cfg1.win 3).cut (grid1.coords tLast1) ((dat1 V c).after 3 tLast1) = _
  rw [after1_3, outsAt1_eq]
  have hz' : (fun a => win1_3.index tLast1 a * main_v29_0.ty.shape.size a) = fun _ => 0 := funext fun a => by fin_cases a <;> decide +kernel
  exact (Memref.read_access_unit_zero (Elt F) main_v29_0 hz' (fun a => by rw [congrFun hz' a]; simp) (resXX V c)).symm

theorem flushed1_4_eq (c : Dev nD) (t : Fin cfg1.N) (hf : (cfg1.win 4).flush t = true) :
    (dat1 V c).flushed 4 t = ((cfg1.win 4).blk t).view.read (Elt F) (resYY V c) := by
  have hN : cfg1.N = 64 := N_1
  have h63 : t.val = 63 := by have := (flush1_4 t).mp hf; have := t.isLt; omega
  obtain rfl : t = tLast1 := Fin.ext h63
  show (cfg1.win 4).cut (grid1.coords tLast1) ((dat1 V c).after 4 tLast1) = _
  rw [after1_4, outsAt1_eq]
  have hz' : (fun a => win1_4.index tLast1 a * main_v29_1.ty.shape.size a) = fun _ => 0 := funext fun a => by fin_cases a <;> decide +kernel
  exact (Memref.read_access_unit_zero (Elt F) main_v29_1 hz' (fun a => by rw [congrFun hz' a]; simp) (resYY V c)).symm

theorem flushed1_5_eq (c : Dev nD) (t : Fin cfg1.N) (hf : (cfg1.win 5).flush t = true) :
    (dat1 V c).flushed 5 t = ((cfg1.win 5).blk t).view.read (Elt F) (resXY V c) := by
  have hN : cfg1.N = 64 := N_1
  have h63 : t.val = 63 := by have := (flush1_5 t).mp hf; have := t.isLt; omega
  obtain rfl : t = tLast1 := Fin.ext h63
  show (cfg1.win 5).cut (grid1.coords tLast1) ((dat1 V c).after 5 tLast1) = _
  rw [after1_5, outsAt1_eq]
  have hz' : (fun a => win1_5.index tLast1 a * main_v29_2.ty.shape.size a) = fun _ => 0 := funext fun a => by fin_cases a <;> decide +kernel
  exact (Memref.read_access_unit_zero (Elt F) main_v29_2 hz' (fun a => by rw [congrFun hz' a]; simp) (resXY V c)).symm

theorem flushed1_6_eq (c : Dev nD) (t : Fin cfg1.N) (hf : (cfg1.win 6).flush t = true) :
    (dat1 V c).flushed 6 t = ((cfg1.win 6).blk t).view.read (Elt F) (resYX V c) := by
  have hN : cfg1.N = 64 := N_1
  have h63 : t.val = 63 := by have := (flush1_6 t).mp hf; have := t.isLt; omega
  obtain rfl : t = tLast1 := Fin.ext h63
  show (cfg1.win 6).cut (grid1.coords tLast1) ((dat1 V c).after 6 tLast1) = _
  rw [after1_6, outsAt1_eq]
  have hz' : (fun a => win1_6.index tLast1 a * main_v29_3.ty.shape.size a) = fun _ => 0 := funext fun a => by fin_cases a <;> decide +kernel
  exact (Memref.read_access_unit_zero (Elt F) main_v29_3 hz' (fun a => by rw [congrFun hz' a]; simp) (resYX V c)).symm

/-- The first sum's result array ends holding the recursion's last value: the last point's block is the whole array. -/
theorem final1_3 (c : Dev nD) : (dat1 V c).arrAt 3 cfg1.N = resXX V c :=
  (dat1 V c).arrAt_eq_of_cover 3 (resXX V c) (flushed1_3_eq V c) fun i =>
    ⟨tLast1, (flush1_3 tLast1).mpr rfl, by
      show i ∈ ((View.whole main_v29_0).slice (win1_3.rect tLast1)).set
      rw [View.set_slice_whole, Rect.mem_set_unit]
      intro a
      have h0 : (i 0 : Nat) < 1 := (i 0).isLt
      have h1 : (i 1 : Nat) < 1 := (i 1).isLt
      match a with
      | ⟨0, _⟩ => show win1_3.index tLast1 0 * win1_3.size 0 ≤ (i 0 : Nat) ∧ (i 0 : Nat) < win1_3.index tLast1 0 * win1_3.size 0 + win1_3.xsize (grid1.coords tLast1) 0
                  rw [show win1_3.index tLast1 0 * win1_3.size 0 = 0 from by decide +kernel, show win1_3.xsize (grid1.coords tLast1) 0 = 1 from by decide +kernel]; omega
      | ⟨1, _⟩ => show win1_3.index tLast1 1 * win1_3.size 1 ≤ (i 1 : Nat) ∧ (i 1 : Nat) < win1_3.index tLast1 1 * win1_3.size 1 + win1_3.xsize (grid1.coords tLast1) 1
                  rw [show win1_3.index tLast1 1 * win1_3.size 1 = 0 from by decide +kernel, show win1_3.xsize (grid1.coords tLast1) 1 = 1 from by decide +kernel]; omega⟩

/-- The second sum's result array ends holding the recursion's last value: the last point's block is the whole array. -/
theorem final1_4 (c : Dev nD) : (dat1 V c).arrAt 4 cfg1.N = resYY V c :=
  (dat1 V c).arrAt_eq_of_cover 4 (resYY V c) (flushed1_4_eq V c) fun i =>
    ⟨tLast1, (flush1_4 tLast1).mpr rfl, by
      show i ∈ ((View.whole main_v29_1).slice (win1_4.rect tLast1)).set
      rw [View.set_slice_whole, Rect.mem_set_unit]
      intro a
      have h0 : (i 0 : Nat) < 1 := (i 0).isLt
      have h1 : (i 1 : Nat) < 1 := (i 1).isLt
      match a with
      | ⟨0, _⟩ => show win1_4.index tLast1 0 * win1_4.size 0 ≤ (i 0 : Nat) ∧ (i 0 : Nat) < win1_4.index tLast1 0 * win1_4.size 0 + win1_4.xsize (grid1.coords tLast1) 0
                  rw [show win1_4.index tLast1 0 * win1_4.size 0 = 0 from by decide +kernel, show win1_4.xsize (grid1.coords tLast1) 0 = 1 from by decide +kernel]; omega
      | ⟨1, _⟩ => show win1_4.index tLast1 1 * win1_4.size 1 ≤ (i 1 : Nat) ∧ (i 1 : Nat) < win1_4.index tLast1 1 * win1_4.size 1 + win1_4.xsize (grid1.coords tLast1) 1
                  rw [show win1_4.index tLast1 1 * win1_4.size 1 = 0 from by decide +kernel, show win1_4.xsize (grid1.coords tLast1) 1 = 1 from by decide +kernel]; omega⟩

/-- The third sum's result array ends holding the recursion's last value: the last point's block is the whole array. -/
theorem final1_5 (c : Dev nD) : (dat1 V c).arrAt 5 cfg1.N = resXY V c :=
  (dat1 V c).arrAt_eq_of_cover 5 (resXY V c) (flushed1_5_eq V c) fun i =>
    ⟨tLast1, (flush1_5 tLast1).mpr rfl, by
      show i ∈ ((View.whole main_v29_2).slice (win1_5.rect tLast1)).set
      rw [View.set_slice_whole, Rect.mem_set_unit]
      intro a
      have h0 : (i 0 : Nat) < 1 := (i 0).isLt
      have h1 : (i 1 : Nat) < 1 := (i 1).isLt
      match a with
      | ⟨0, _⟩ => show win1_5.index tLast1 0 * win1_5.size 0 ≤ (i 0 : Nat) ∧ (i 0 : Nat) < win1_5.index tLast1 0 * win1_5.size 0 + win1_5.xsize (grid1.coords tLast1) 0
                  rw [show win1_5.index tLast1 0 * win1_5.size 0 = 0 from by decide +kernel, show win1_5.xsize (grid1.coords tLast1) 0 = 1 from by decide +kernel]; omega
      | ⟨1, _⟩ => show win1_5.index tLast1 1 * win1_5.size 1 ≤ (i 1 : Nat) ∧ (i 1 : Nat) < win1_5.index tLast1 1 * win1_5.size 1 + win1_5.xsize (grid1.coords tLast1) 1
                  rw [show win1_5.index tLast1 1 * win1_5.size 1 = 0 from by decide +kernel, show win1_5.xsize (grid1.coords tLast1) 1 = 1 from by decide +kernel]; omega⟩

/-- The fourth sum's result array ends holding the recursion's last value: the last point's block is the whole array. -/
theorem final1_6 (c : Dev nD) : (dat1 V c).arrAt 6 cfg1.N = resYX V c :=
  (dat1 V c).arrAt_eq_of_cover 6 (resYX V c) (flushed1_6_eq V c) fun i =>
    ⟨tLast1, (flush1_6 tLast1).mpr rfl, by
      show i ∈ ((View.whole main_v29_3).slice (win1_6.rect tLast1)).set
      rw [View.set_slice_whole, Rect.mem_set_unit]
      intro a
      have h0 : (i 0 : Nat) < 1 := (i 0).isLt
      have h1 : (i 1 : Nat) < 1 := (i 1).isLt
      match a with
      | ⟨0, _⟩ => show win1_6.index tLast1 0 * win1_6.size 0 ≤ (i 0 : Nat) ∧ (i 0 : Nat) < win1_6.index tLast1 0 * win1_6.size 0 + win1_6.xsize (grid1.coords tLast1) 0
                  rw [show win1_6.index tLast1 0 * win1_6.size 0 = 0 from by decide +kernel, show win1_6.xsize (grid1.coords tLast1) 0 = 1 from by decide +kernel]; omega
      | ⟨1, _⟩ => show win1_6.index tLast1 1 * win1_6.size 1 ≤ (i 1 : Nat) ∧ (i 1 : Nat) < win1_6.index tLast1 1 * win1_6.size 1 + win1_6.xsize (grid1.coords tLast1) 1
                  rw [show win1_6.index tLast1 1 * win1_6.size 1 = 0 from by decide +kernel, show win1_6.xsize (grid1.coords tLast1) 1 = 1 from by decide +kernel]; omega⟩

end Cert.KernelIdeal.Hand

end
-- ==== Proof.KernelIdeal.HostEnds.lean ====
/-
  The first and the last stretch of host operations as values, from an arbitrary contents W of a core's buffers.
  The first stretch stacks the two argument arrays into one array of 8192 rows, takes each row's sum of squares, and
  re-types the stacked array for the matrix unit. The last stretch turns the four accumulated quadrant sums into
  means (each divided by 4096²), combines them into the loss (xx + yy − xy − yx, associated to the left), and passes
  on the maximum the first region found.
-/
import proofs.«149507_j24644522344587_1_alg».proof.Proof.Gen.KernelIdeal.Launch
import Idealize.ShloMosaic.Lib.StableHlo.Run
import Idealize.ShloMosaic.Lib.Tactic

noncomputable section

namespace Cert.KernelIdeal.HostEnds

open Idealize.ShloMosaic Idealize.ShloMosaic.TcCoe Idealize.SL.Sem
open Cert.KernelIdeal Cert.KernelIdeal.Gen

variable {F : FTy → Type} [FloatOps F]
variable (W : Valuation τ sig (Elt F))

/-- The two argument arrays stacked. -/
def total (a0 a1 : FVec F S4096x256 .f32) : FVec F S8192x256 .f32 :=
  concatenate S8192x256 0 [⟨S4096x256, a0⟩, ⟨S4096x256, a1⟩] concatenates_S4096x256_S4096x256_S8192x256_d0
/-- Each stacked row's sum of squares. -/
def sqNorms (a0 a1 : FVec F S4096x256 .f32) : FVec F S8192 .f32 :=
  Host.reduceAdd (mulf (total a0 a1) (total a0 a1)) (constant S_ .f32 0x00000000#32) reducesTo_S8192x256_S8192_d1 h_S_

theorem first_v3 : (StableHlo.after hostOps0 W (Proc.devRef .tc main_v3) : FVec F S8192x256 .bf16)
    = truncf .bf16 (total (W (Proc.devRef .tc main_arg0)) (W (Proc.devRef .tc main_arg1))) bitsLt_bf16_f32 := by
  after_results; rfl
theorem first_v2 : (StableHlo.after hostOps0 W (Proc.devRef .tc main_v2) : FVec F S8192 .f32)
    = sqNorms (W (Proc.devRef .tc main_arg0)) (W (Proc.devRef .tc main_arg1)) := by
  after_results; rfl

/-- A [1,1] array's one entry as a scalar array. -/
abbrev scal (x : FVec F S1x1 .f32) : FVec F S_ .f32 := shapeCast S_ x shapeCasts_S1x1_S_
/-- A quadrant's mean from its accumulated sum. -/
abbrev meanOf (x : FVec F S1x1 .f32) : FVec F S_ .f32 := Host.divf (scal x) (constant S_ .f32 0x4B800000#32)

theorem last_v31 : (StableHlo.after hostOps2 W (Proc.devRef .tc main_v31) : FVec F S_ .f32) = meanOf (W (Proc.devRef .tc main_v29_0)) := by
  after_results; rfl
theorem last_v33 : (StableHlo.after hostOps2 W (Proc.devRef .tc main_v33) : FVec F S_ .f32) = meanOf (W (Proc.devRef .tc main_v29_1)) := by
  after_results; rfl
theorem last_v35 : (StableHlo.after hostOps2 W (Proc.devRef .tc main_v35) : FVec F S_ .f32) = meanOf (W (Proc.devRef .tc main_v29_2)) := by
  after_results; rfl
theorem last_v37 : (StableHlo.after hostOps2 W (Proc.devRef .tc main_v37) : FVec F S_ .f32) = meanOf (W (Proc.devRef .tc main_v29_3)) := by
  after_results; rfl
theorem last_v40 : (StableHlo.after hostOps2 W (Proc.devRef .tc main_v40) : FVec F S_ .f32)
    = subf (subf (addf (meanOf (W (Proc.devRef .tc main_v29_0))) (meanOf (W (Proc.devRef .tc main_v29_1)))) (meanOf (W (Proc.devRef .tc main_v29_2)))) (meanOf (W (Proc.devRef .tc main_v29_3))) := by
  after_results_simp; rfl
theorem last_v41 : (StableHlo.after hostOps2 W (Proc.devRef .tc main_v41) : FVec F S_ .f32) = scal (W (Proc.devRef .tc main_v4_1)) := by
  after_results; rfl

end Cert.KernelIdeal.HostEnds

end
-- ==== Proof.KernelIdeal.Bounds.lean ====
/-
  What the named buffers hold at each boundary of the run, and the six results as host terms of the regions'
  result arrays. The stacked array and its squared norms are written by the first stretch and never again, so both
  regions stage the same two arrays; the first region's two result arrays hold its accumulators' last values; the
  second region's four result arrays hold its four accumulators' last values; the last stretch divides and
  combines them. Stated for any float instance.
-/
import proofs.«149507_j24644522344587_1_alg».proof.Proof.KernelIdeal.Run
import proofs.«149507_j24644522344587_1_alg».proof.Proof.KernelIdeal.Value1
import proofs.«149507_j24644522344587_1_alg».proof.Proof.KernelIdeal.Value2
import proofs.«149507_j24644522344587_1_alg».proof.Proof.KernelIdeal.HostEnds

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- Core c's two argument arrays. -/
abbrev argA (c : Dev nD) : FVec F S4096x256 .f32 := m ((c : Thread nD τ).loc main_arg0)
abbrev argB (c : Dev nD) : FVec F S4096x256 .f32 := m ((c : Thread nD τ).loc main_arg1)

/-! ## After the first stretch -/

theorem VV1_v3 (c : Dev nD) : (VV1 m c main_v3 : FVec F S8192x256 .bf16)
    = truncf .bf16 (HostEnds.total (argA m c) (argB m c)) bitsLt_bf16_f32 := HostEnds.first_v3 (W0 m c)
theorem VV1_v2 (c : Dev nD) : (VV1 m c main_v2 : FVec F S8192 .f32) = HostEnds.sqNorms (argA m c) (argB m c) :=
  HostEnds.first_v2 (W0 m c)

/-! ## After the first region -/

theorem VV2_v4_0 (c : Dev nD) : VV2 m c main_v4_0 = resSum (VV1 m) c := (W2_arr m c 2).trans (final0_2 (VV1 m) c)
theorem VV2_v4_1 (c : Dev nD) : VV2 m c main_v4_1 = resMax (VV1 m) c := (W2_arr m c 3).trans (final0_3 (VV1 m) c)
theorem VV2_v3 (c : Dev nD) : VV2 m c main_v3 = VV1 m c main_v3 :=
  (W2_arr m c 0).trans (((dat0 (VV1 m) c).arrAt_in 0 rfl _).trans (A_eq0 (VV1 m) c 0))
theorem VV2_v2 (c : Dev nD) : VV2 m c main_v2 = VV1 m c main_v2 :=
  (W2_arr m c 1).trans (((dat0 (VV1 m) c).arrAt_in 1 rfl _).trans (A_eq0 (VV1 m) c 1))

/-! ## After the second stretch -/

theorem VV3_v3 (c : Dev nD) : VV3 m c main_v3 = VV1 m c main_v3 :=
  (StableHlo.after_of_writes_sub hostOps1 _ hostOps1_writes (by decide)).trans (VV2_v3 m c)
theorem VV3_v2 (c : Dev nD) : VV3 m c main_v2 = VV1 m c main_v2 :=
  (StableHlo.after_of_writes_sub hostOps1 _ hostOps1_writes (by decide)).trans (VV2_v2 m c)
theorem VV3_v4_1 (c : Dev nD) : VV3 m c main_v4_1 = resMax (VV1 m) c :=
  (StableHlo.after_of_writes_sub hostOps1 _ hostOps1_writes (by decide)).trans (VV2_v4_1 m c)

/-! ## After the second region -/

theorem VV4_v29_0 (c : Dev nD) : VV4 m c main_v29_0 = resXX (VV3 m) c := (W4_arr m c 3).trans (final1_3 (VV3 m) c)
theorem VV4_v29_1 (c : Dev nD) : VV4 m c main_v29_1 = resYY (VV3 m) c := (W4_arr m c 4).trans (final1_4 (VV3 m) c)
theorem VV4_v29_2 (c : Dev nD) : VV4 m c main_v29_2 = resXY (VV3 m) c := (W4_arr m c 5).trans (final1_5 (VV3 m) c)
theorem VV4_v29_3 (c : Dev nD) : VV4 m c main_v29_3 = resYX (VV3 m) c := (W4_arr m c 6).trans (final1_6 (VV3 m) c)
theorem VV4_v4_1 (c : Dev nD) : VV4 m c main_v4_1 = resMax (VV1 m) c :=
  (W4_of_ne m c main_v4_1 (by decide)).trans (VV3_v4_1 m c)

/-! ## The six results -/

theorem W5_v31 (c : Dev nD) : (W5 m c (Proc.devRef .tc main_v31) : FVec F S_ .f32) = HostEnds.meanOf (resXX (VV3 m) c) :=
  (HostEnds.last_v31 (W4 m c)).trans (congrArg HostEnds.meanOf (VV4_v29_0 m c))
theorem W5_v33 (c : Dev nD) : (W5 m c (Proc.devRef .tc main_v33) : FVec F S_ .f32) = HostEnds.meanOf (resYY (VV3 m) c) :=
  (HostEnds.last_v33 (W4 m c)).trans (congrArg HostEnds.meanOf (VV4_v29_1 m c))
theorem W5_v35 (c : Dev nD) : (W5 m c (Proc.devRef .tc main_v35) : FVec F S_ .f32) = HostEnds.meanOf (resXY (VV3 m) c) :=
  (HostEnds.last_v35 (W4 m c)).trans (congrArg HostEnds.meanOf (VV4_v29_2 m c))
theorem W5_v37 (c : Dev nD) : (W5 m c (Proc.devRef .tc main_v37) : FVec F S_ .f32) = HostEnds.meanOf (resYX (VV3 m) c) :=
  (HostEnds.last_v37 (W4 m c)).trans (congrArg HostEnds.meanOf (VV4_v29_3 m c))
theorem W5_v40 (c : Dev nD) : (W5 m c (Proc.devRef .tc main_v40) : FVec F S_ .f32)
    = subf (subf (addf (HostEnds.meanOf (resXX (VV3 m) c)) (HostEnds.meanOf (resYY (VV3 m) c))) (HostEnds.meanOf (resXY (VV3 m) c))) (HostEnds.meanOf (resYX (VV3 m) c)) := by
  refine (HostEnds.last_v40 (W4 m c)).trans ?_
  rw [show (W4 m c (Proc.devRef .tc main_v29_0)) = resXX (VV3 m) c from VV4_v29_0 m c,
    show (W4 m c (Proc.devRef .tc main_v29_1)) = resYY (VV3 m) c from VV4_v29_1 m c,
    show (W4 m c (Proc.devRef .tc main_v29_2)) = resXY (VV3 m) c from VV4_v29_2 m c,
    show (W4 m c (Proc.devRef .tc main_v29_3)) = resYX (VV3 m) c from VV4_v29_3 m c]
theorem W5_v41 (c : Dev nD) : (W5 m c (Proc.devRef .tc main_v41) : FVec F S_ .f32) = HostEnds.scal (resMax (VV1 m) c) :=
  (HostEnds.last_v41 (W4 m c)).trans (congrArg HostEnds.scal (VV4_v4_1 m c))

end Cert.KernelIdeal.Hand

end
-- ==== Proof.KernelIdeal.Blocks0.lean ====
/-
  The first region's blocks as plain index arithmetic. Each input window's block at any grid point is the whole
  array (its block index never moves and the block has the array's extents), and of it the body loads the tile's
  1024 rows and 1024 columns: rows 1024·i + p and 1024·j + q of the row array, entries 1024·i + p and 1024·j + q of
  the squared norms, where (i, j) = (t / 8, t % 8) is grid point t.
-/
import proofs.«149507_j24644522344587_1_alg».proof.Proof.KernelIdeal.Value1
import Idealize.ShloMosaic.Lib.ValueIdx

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.ValueIdx

variable (V : (c : Dev nD) → (b : Ref sig .tc) → Buf (Elt F) ((c : Thread nD τ).loc b))

/-- Both input windows sit at block index zero at every grid point. -/
theorem idx0_0 : ∀ t : Fin cfg0.N, win0_0.index t 0 = 0 ∧ win0_0.index t 1 = 0 :=
  (by decide +kernel : ∀ t : Fin grid0.N, win0_0.index t 0 = 0 ∧ win0_0.index t 1 = 0)
theorem idx0_1 : ∀ t : Fin cfg0.N, win0_1.index t 0 = 0 :=
  (by decide +kernel : ∀ t : Fin grid0.N, win0_1.index t 0 = 0)

/-- The row array's block is the whole array. -/
theorem iblk0_0_eq (c : Dev nD) (t : Fin cfg0.N) : (iblk0 V c 0 t : Vec F S8192x256 .bf16) = V c main_v3 := by
  unfold iblk0
  have hz' : (fun a => win0_0.index t a * main_v3.ty.shape.size a) = fun _ => 0 := funext fun a => by
    fin_cases a
    · show win0_0.index t 0 * _ = 0; rw [(idx0_0 t).1]; rfl
    · show win0_0.index t 1 * _ = 0; rw [(idx0_0 t).2]; rfl
  exact Memref.read_access_unit_zero (Elt F) main_v3 hz' (fun a => by rw [congrFun hz' a]; simp) (V c main_v3)

/-- The squared norms' block is the whole vector. -/
theorem iblk0_1_eq (c : Dev nD) (t : Fin cfg0.N) : (iblk0 V c 1 t : Vec F S8192 .f32) = V c main_v2 := by
  unfold iblk0
  have hz' : (fun a => win0_1.index t a * main_v2.ty.shape.size a) = fun _ => 0 := funext fun a => by
    fin_cases a
    show win0_1.index t 0 * _ = 0; rw [idx0_1 t]; rfl
  exact Memref.read_access_unit_zero (Elt F) main_v2 hz' (fun a => by rw [congrFun hz' a]; simp) (V c main_v2)

/-- The body's four load offsets at grid point t. -/
theorem off1_eq : ∀ t : Fin cfg0.N, k0_off1 (grid0.coords t) = ![1024 * (t.val / 8), 0] :=
  (by decide +kernel : ∀ t : Fin grid0.N, k0_off1 (grid0.coords t) = ![1024 * (t.val / 8), 0])
theorem off2_eq : ∀ t : Fin cfg0.N, k0_off2 (grid0.coords t) = ![1024 * (t.val % 8), 0] :=
  (by decide +kernel : ∀ t : Fin grid0.N, k0_off2 (grid0.coords t) = ![1024 * (t.val % 8), 0])
theorem off3_eq : ∀ t : Fin cfg0.N, k0_off3 (grid0.coords t) = ![1024 * (t.val / 8)] :=
  (by decide +kernel : ∀ t : Fin grid0.N, k0_off3 (grid0.coords t) = ![1024 * (t.val / 8)])
theorem off4_eq : ∀ t : Fin cfg0.N, k0_off4 (grid0.coords t) = ![1024 * (t.val % 8)] :=
  (by decide +kernel : ∀ t : Fin grid0.N, k0_off4 (grid0.coords t) = ![1024 * (t.val % 8)])

/-- Row 1024·(t / 8) + p, as an index of the 8192 rows. -/
def rowI (t : Fin cfg0.N) (p : Fin 1024) : Fin 8192 := ⟨1024 * (t.val / 8) + p.val, by
  have := t.isLt; have hN : cfg0.N = 64 := N_0; have := p.isLt; omega⟩
/-- Row 1024·(t % 8) + q. -/
def rowJ (t : Fin cfg0.N) (q : Fin 1024) : Fin 8192 := ⟨1024 * (t.val % 8) + q.val, by
  have := q.isLt; omega⟩

theorem ldA_apply (t : Fin cfg0.N) (X : Vec F S8192x256 .bf16) (p : Fin 1024) (k : Fin 256) :
    ldA (grid0.coords t) X (ix2 p k) = X (ix2 (rowI t p) k) := by
  show X ((Rect.unit (s := S8192x256) (k0_off1 (grid0.coords t)) S1024x256.size (k0_off1_inb (grid0.coords t))).emb (ix2 p k)) = _
  refine congrArg X (funext fun a => Fin.ext ?_)
  match a with
  | ⟨0, _⟩ => show k0_off1 (grid0.coords t) 0 + 1 * p.val = 1024 * (t.val / 8) + p.val; rw [off1_eq t]; simp
  | ⟨1, _⟩ => show k0_off1 (grid0.coords t) 1 + 1 * k.val = k.val; rw [off1_eq t]; simp
theorem ldB_apply (t : Fin cfg0.N) (X : Vec F S8192x256 .bf16) (q : Fin 1024) (k : Fin 256) :
    ldB (grid0.coords t) X (ix2 q k) = X (ix2 (rowJ t q) k) := by
  show X ((Rect.unit (s := S8192x256) (k0_off2 (grid0.coords t)) S1024x256.size (k0_off2_inb (grid0.coords t))).emb (ix2 q k)) = _
  refine congrArg X (funext fun a => Fin.ext ?_)
  match a with
  | ⟨0, _⟩ => show k0_off2 (grid0.coords t) 0 + 1 * q.val = 1024 * (t.val % 8) + q.val; rw [off2_eq t]; simp
  | ⟨1, _⟩ => show k0_off2 (grid0.coords t) 1 + 1 * k.val = k.val; rw [off2_eq t]; simp
theorem ldC_apply (t : Fin cfg0.N) (X : Vec F S8192 .f32) (p : Fin 1024) :
    ldC (grid0.coords t) X (ix1 p) = X (ix1 (rowI t p)) := by
  show X ((Rect.unit (s := S8192) (k0_off3 (grid0.coords t)) S1024.size (k0_off3_inb (grid0.coords t))).emb (ix1 p)) = _
  refine congrArg X (funext fun a => Fin.ext ?_)
  match a with
  | ⟨0, _⟩ => show k0_off3 (grid0.coords t) 0 + 1 * p.val = 1024 * (t.val / 8) + p.val; rw [off3_eq t]; simp
theorem ldD_apply (t : Fin cfg0.N) (X : Vec F S8192 .f32) (q : Fin 1024) :
    ldD (grid0.coords t) X (ix1 q) = X (ix1 (rowJ t q)) := by
  show X ((Rect.unit (s := S8192) (k0_off4 (grid0.coords t)) S1024.size (k0_off4_inb (grid0.coords t))).emb (ix1 q)) = _
  refine congrArg X (funext fun a => Fin.ext ?_)
  match a with
  | ⟨0, _⟩ => show k0_off4 (grid0.coords t) 0 + 1 * q.val = 1024 * (t.val % 8) + q.val; rw [off4_eq t]; simp

end Cert.KernelIdeal.Hand

end
-- ==== Proof.Spec.lean ====
/-
  The six results as functions of two arrays: T, the 8192 x 256 array of joined rows (the first 4096 rows one
  sample, the last 4096 the other), and Q, the 8192 squared row norms. Every float is an extended real and every
  operation exact; a float literal stays the word that denotes it.

    gram r c   = sum over k of T[r,k] * T[c,k]
    dist r c   = max (Q[r] + Q[c] - 2 * gram r c) 0                    the clamped squared distance
    distSum    = 0 + sum over r, c of dist r c
    distMax    = the largest dist r c, joined with the literal -inf the maximum starts from
    bwBase     = (distSum / 67100672) / 4
    bw k       = bwBase * 2^k + 1e-9   (k = 0..4; 2^k and 1e-9 as their f32 words)
    kern r c   = ((((0 + e 0) + e 1) + e 2) + e 3) + e 4,   e k = exp (-(dist r c) / bw k)
    quad a b   = (0 + sum over r, c < 4096 of kern (4096 a + r) (4096 b + c)) / 16777216
    xx, yy, xy, yx = quad 0 0, quad 1 1, quad 0 1, quad 1 0;   loss = ((xx + yy) - xy) - yx
-/
import Idealize.ShloMosaic.PureOps.Ideal
import Idealize.ShloMosaic.Lib.ValueIdx

noncomputable section

open scoped BigOperators

namespace Cert.MMD

open Idealize.ShloMosaic Idealize.ShloMosaic.ValueIdx

/-- The shape of the joined rows. -/
abbrev STot : Shape := ⟨2, ![8192, 256]⟩
/-- The shape of the squared row norms. -/
abbrev SSq : Shape := ⟨1, ![8192]⟩

/-- The inner product of rows `r` and `c`. -/
def gram (T : STot.Idx → EReal) (r c : Fin 8192) : EReal :=
  ∑ k : Fin 256, T (ix2 r k) * T (ix2 c k)

/-- The squared distance between rows `r` and `c`, as |r|² + |c|² − 2 r·c, clamped below at zero. -/
def dist (T : STot.Idx → EReal) (Q : SSq.Idx → EReal) (r c : Fin 8192) : EReal :=
  max ((Q (ix1 r) + Q (ix1 c)) - Ideal.ofBits .f32 0x40000000#32 * gram T r c) (Ideal.ofBits .f32 0x00000000#32)

/-- The sum of all the distances, from the literal zero. -/
def distSum (T : STot.Idx → EReal) (Q : SSq.Idx → EReal) : EReal :=
  Ideal.ofBits .f32 0x00000000#32 + ∑ r : Fin 8192, ∑ c : Fin 8192, dist T Q r c

/-- The largest distance, joined with the literal −∞ the maximum starts from. -/
def distMax (T : STot.Idx → EReal) (Q : SSq.Idx → EReal) : EReal :=
  (Finset.univ.sup fun r : Fin 8192 => Finset.univ.sup fun c : Fin 8192 => dist T Q r c)
    ⊔ Ideal.ofBits .f32 0xFF800000#32

/-- `distMax` by its universal property: it is below `z` exactly when the starting literal and every distance are. -/
theorem distMax_le_iff (T : STot.Idx → EReal) (Q : SSq.Idx → EReal) (z : EReal) :
    distMax T Q ≤ z ↔ Ideal.ofBits .f32 0xFF800000#32 ≤ z ∧ ∀ r c : Fin 8192, dist T Q r c ≤ z := by
  unfold distMax
  rw [sup_le_iff, Finset.sup_le_iff, and_comm]
  refine and_congr Iff.rfl ⟨fun h r c => ?_, fun h r _ => ?_⟩
  · exact (Finset.sup_le_iff.mp (h r (Finset.mem_univ r))) c (Finset.mem_univ c)
  · exact Finset.sup_le_iff.mpr fun c _ => h r c

/-- The middle bandwidth: the mean distance over the 8192² − 8192 ordered pairs, over 2². -/
def bwBase (T : STot.Idx → EReal) (Q : SSq.Idx → EReal) : EReal :=
  Ideal.div (Ideal.div (distSum T Q) (Ideal.ofBits .f32 0x4C7FF800#32)) (Ideal.ofBits .f32 0x40800000#32)

/-- The five powers of two 1, 2, 4, 8, 16 as their f32 words. -/
def scale (k : Fin 5) : EReal :=
  match k with
  | ⟨0, _⟩ => Ideal.ofBits .f32 0x3F800000#32
  | ⟨1, _⟩ => Ideal.ofBits .f32 0x40000000#32
  | ⟨2, _⟩ => Ideal.ofBits .f32 0x40800000#32
  | ⟨3, _⟩ => Ideal.ofBits .f32 0x41000000#32
  | ⟨4, _⟩ => Ideal.ofBits .f32 0x41800000#32

theorem scale_0 : scale 0 = Ideal.ofBits .f32 0x3F800000#32 := rfl
theorem scale_1 : scale 1 = Ideal.ofBits .f32 0x40000000#32 := rfl
theorem scale_2 : scale 2 = Ideal.ofBits .f32 0x40800000#32 := rfl
theorem scale_3 : scale 3 = Ideal.ofBits .f32 0x41000000#32 := rfl
theorem scale_4 : scale 4 = Ideal.ofBits .f32 0x41800000#32 := rfl

/-- The `k`-th bandwidth: the middle one times 2^k, plus the literal 1e-9. -/
def bw (T : STot.Idx → EReal) (Q : SSq.Idx → EReal) (k : Fin 5) : EReal :=
  bwBase T Q * scale k + Ideal.ofBits .f32 0x3089705F#32

/-- One Gaussian term: exp (−dist / bw k). -/
def expTerm (T : STot.Idx → EReal) (Q : SSq.Idx → EReal) (r c : Fin 8192) (k : Fin 5) : EReal :=
  Ideal.exp (Ideal.div (-(dist T Q r c)) (bw T Q k))

/-- The kernel value of the pair (r, c): the five Gaussian terms added in order onto the literal zero. -/
def kern (T : STot.Idx → EReal) (Q : SSq.Idx → EReal) (r c : Fin 8192) : EReal :=
  ((((Ideal.ofBits .f32 0x00000000#32 + expTerm T Q r c 0) + expTerm T Q r c 1) + expTerm T Q r c 2)
    + expTerm T Q r c 3) + expTerm T Q r c 4

/-- Row `r` of half `a` (0: the first sample, 1: the second) among the 8192 joined rows. -/
def row (a : Fin 2) (r : Fin 4096) : Fin 8192 :=
  ⟨a.val * 4096 + r.val, by have := a.isLt; have := r.isLt; omega⟩

theorem row_val (a : Fin 2) (r : Fin 4096) : (row a r).val = a.val * 4096 + r.val := rfl

/-- The mean of the kernel values over the block of half `a`'s rows against half `b`'s rows. -/
def quad (T : STot.Idx → EReal) (Q : SSq.Idx → EReal) (a b : Fin 2) : EReal :=
  Ideal.div (Ideal.ofBits .f32 0x00000000#32 + ∑ r : Fin 4096, ∑ c : Fin 4096, kern T Q (row a r) (row b c))
    (Ideal.ofBits .f32 0x4B800000#32)

def xx (T : STot.Idx → EReal) (Q : SSq.Idx → EReal) : EReal := quad T Q 0 0
def yy (T : STot.Idx → EReal) (Q : SSq.Idx → EReal) : EReal := quad T Q 1 1
def xy (T : STot.Idx → EReal) (Q : SSq.Idx → EReal) : EReal := quad T Q 0 1
def yx (T : STot.Idx → EReal) (Q : SSq.Idx → EReal) : EReal := quad T Q 1 0

/-- The discrepancy: ((xx + yy) − xy) − yx. -/
def loss (T : STot.Idx → EReal) (Q : SSq.Idx → EReal) : EReal :=
  ((xx T Q + yy T Q) - xy T Q) - yx T Q

end Cert.MMD

end
-- ==== Proof.LibDenseRows.lean ====
/-
  General lemmas for a kernel that pushes tokens (rows) through dense layers and a row normalisation, all read at the
  exact (extended) reals, where every float operation is the textbook one:

  * the keepdims column forms: an `[a]` vector viewed as a column `[a, 1]`, and a column `[a, 1]` broadcast along
    the rows of an `[a, b]` array;
  * the sum of an `[a, b]` array along its second axis, read at a row, is the sum over that row;
  * a matrix product of an `[M, K]` array with an `[N, K]` array contracting BOTH second axes (the weight stored
    output-major, as a linear layer keeps it), accumulated into zero, read at `(r, c)`, is `Σ_k lhs (r, k) · rhs (c, k)`;
  * one dense layer: that product plus a bias row `[1, N]` broadcast over the rows.

  Nothing here mentions a particular program: the extents are variables, only ranks and axis lists are literal.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDenseRows

open Idealize.ShloMosaic Idealize.ShloMosaic.ValueIdx

/-! ## The keepdims column forms -/

section Layout
variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum -/

/-- The sum of an `[a, b]` array along its second axis, at the exact reals, read at row `r`: the sum over that row
    (the accumulator word is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-! ## A product against an output-major weight -/

section Dense
variable {M K N : ℕ} {φ₁ φ₂ : FTy}

/-- The dimension numbers of `[M, K] · [N, K]ᵀ`: both second axes contracted, no batch axis. -/
abbrev dimsNT (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  ⟨[1], [1], [0], [0], [], [], wf⟩

variable (wf : DotDims.WF (⟨2, ![M, K]⟩ : Shape) ⟨2, ![N, K]⟩ ⟨2, ![M, N]⟩ [1] [1] [0] [0] [] [])

theorem dimsNT_lhs0 (j : (⟨2, ![M, N]⟩ : Shape).Idx) (q : (dimsNT wf).contr.Idx) :
    ((dimsNT wf).lhsIdx j q 0).val = (j 0).val := by
  unfold DotDims.lhsIdx
  rw [dif_neg (show ¬(0 : Fin (⟨2, ![M, K]⟩ : Shape).rank) ∈ (dimsNT wf).lhsBatch from List.not_mem_nil),
    dif_pos (show (0 : Fin (⟨2, ![M, K]⟩ : Shape).rank) ∈ (dimsNT wf).lhsNonContracting from List.mem_singleton.mpr rfl)]
  rfl
theorem dimsNT_lhs1 (j : (⟨2, ![M, N]⟩ : Shape).Idx) (q : (dimsNT wf).contr.Idx) :
    ((dimsNT wf).lhsIdx j q 1).val = (q ⟨0, Nat.one_pos⟩).val :=
  (dimsNT wf).lhsIdx_val_of_single rfl j q
theorem dimsNT_rhs0 (j : (⟨2, ![M, N]⟩ : Shape).Idx) (q : (dimsNT wf).contr.Idx) :
    ((dimsNT wf).rhsIdx j q 0).val = (j 1).val := by
  unfold DotDims.rhsIdx
  rw [dif_neg (show ¬(0 : Fin (⟨2, ![N, K]⟩ : Shape).rank) ∈ (dimsNT wf).rhsBatch from List.not_mem_nil),
    dif_pos (show (0 : Fin (⟨2, ![N, K]⟩ : Shape).rank) ∈ (dimsNT wf).rhsNonContracting from List.mem_singleton.mpr rfl)]
  rfl
theorem dimsNT_rhs1 (j : (⟨2, ![M, N]⟩ : Shape).Idx) (q : (dimsNT wf).contr.Idx) :
    ((dimsNT wf).rhsIdx j q 1).val = (q ⟨0, Nat.one_pos⟩).val :=
  (dimsNT wf).rhsIdx_val_of_single rfl j q

/-- THE PRODUCT READ AT `(r, c)`: accumulated into the zero splat it is `Σ_k lhs (r, k) · rhs (c, k)` — a sum over a
    `Fin K` in which no order of accumulation is left. -/
theorem matmulNT_zero_apply (prec : Option ContractPrecision) (lhs : FVec Ideal ⟨2, ![M, K]⟩ φ₁)
    (rhs : FVec Ideal ⟨2, ![N, K]⟩ φ₂) (r : Fin M) (c : Fin N) :
    FloatOps.matmul (dimsNT wf) prec lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 r c) ((contrEquiv1 (dimsNT wf) K rfl rfl).symm k) = ix2 r k :=
    funext fun a => Fin.ext (by
      match a with
      | ⟨0, _⟩ => exact dimsNT_lhs0 wf _ _
      | ⟨1, _⟩ => exact (dimsNT_lhs1 wf _ _).trans hk)
  have er : (dimsNT wf).rhsIdx (ix2 r c) ((contrEquiv1 (dimsNT wf) K rfl rfl).symm k) = ix2 c k :=
    funext fun a => Fin.ext (by
      match a with
      | ⟨0, _⟩ => exact dimsNT_rhs0 wf _ _
      | ⟨1, _⟩ => exact (dimsNT_rhs1 wf _ _).trans hk)
  rw [el, er]

/-- ONE DENSE LAYER on a tile of `M` tokens: the product into zero plus a bias row `[1, N]` broadcast over the rows,
    read at token `r` and output unit `c`, is `Σ_k lhs (r, k) · rhs (c, k) + bias (0, c)`. -/
theorem denseNT_apply (prec : Option ContractPrecision) (lhs : FVec Ideal ⟨2, ![M, K]⟩ φ₁)
    (rhs : FVec Ideal ⟨2, ![N, K]⟩ φ₂) (bias : FVec Ideal ⟨2, ![1, N]⟩ .f32)
    (hb : (⟨2, ![1, N]⟩ : Shape).Broadcasts ⟨2, ![M, N]⟩) (r : Fin M) (c : Fin N) :
    addf (matmul (dimsNT wf) prec lhs rhs (constant ⟨2, ![M, N]⟩ .f32 0x00000000#32)) (broadcastTo ⟨2, ![M, N]⟩ bias hb) (ix2 r c)
      = ∑ k : Fin K, lhs (ix2 r k) * rhs (ix2 c k) + bias (ix2 (0 : Fin 1) c) := by
  rw [addf_apply, broadcastTo_1b_ab_apply]
  exact congrArg (· + bias (ix2 (0 : Fin 1) c)) (matmulNT_zero_apply wf prec lhs rhs r c)

end Dense

end Cert.LibDenseRows

end
-- ==== Proof.LibAxisFolds.lean ====
/-
  Sums and maxima of a two-axis array of extended reals along one of its axes, read at an index, and the one entry
  of a one-by-one array. Every float operation is the exact one; the extents are variables, only the ranks and the
  axis lists are literal.

  * `colSum_apply`: the sum of an a-by-b array along its first axis, read at column c, is the sum over k < a of
    the entries (k, c); the accumulator word is the sum's neutral element and contributes nothing.
  * `rowMax_apply`: the maximum of an a-by-b array along its second axis, read at row r, is the fold of max, from
    the value the accumulator word denotes, over the entries (r, k), k < b.
  * `colMax_apply`: the maximum along the first axis, read at column c, is the same fold over the entries (k, c),
    k < a.
  * `extractAt_00`: the element extracted at position (0, 0) of a one-by-one array is its entry (0, 0).
-/
import Idealize.ShloMosaic.Lib.ValueIdx
import Idealize.ShloMosaic.PureOps.Ideal.Laws

noncomputable section

open scoped BigOperators

namespace Cert.LibAxisFolds

open Idealize.ShloMosaic Idealize.ShloMosaic.ValueIdx

/-- The sum of an `[a, b]` array along its first axis, read at column `c`: the sum over that column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

/-- The maximum of an `[a, b]` array along its second axis, read at row `r`: the maximum over that row, from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine Finset.fold_congr fun k _ => congrArg src ?_
  funext ax; apply Fin.ext
  match ax with
  | ⟨0, _⟩ => rfl
  | ⟨1, _⟩ => rfl

/-- The maximum of an `[a, b]` array along its first axis, read at column `c`. -/
theorem colMax_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine Finset.fold_congr fun k _ => congrArg src ?_
  funext ax; apply Fin.ext
  match ax with
  | ⟨0, _⟩ => rfl
  | ⟨1, _⟩ => rfl

/-- The one entry of a `[1, 1]` array, extracted at position (0, 0). -/
theorem extractAt_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibAxisFolds

end
-- ==== Proof.KernelIdeal.Payloads.lean ====
/-
  The two kernels' tile payloads read at an index, at the exact extended reals.

  For a tile of 1024 rows A against 1024 rows B (256 columns each) with their squared norms qa, qb:
    tileDist p q = max (qa[p] + qb[q] - 2 * sum over k of A[p,k] * B[q,k]) 0,
  the first kernel's tile sum and tile maximum are the sum and the maximum of tileDist over the tile, and the second
  kernel's tile sum is the sum over the tile of the five Gaussian terms exp ((0 - tileDist p q) / b), added in order
  onto the literal zero.
-/
import proofs.«149507_j24644522344587_1_alg».proof.Proof.Gen.KernelIdeal.Skeleton
import proofs.«149507_j24644522344587_1_alg».proof.Proof.Spec
import proofs.«149507_j24644522344587_1_alg».proof.Proof.LibDenseRows
import proofs.«149507_j24644522344587_1_alg».proof.Proof.LibAxisFolds
import Idealize.ShloMosaic.Lib.ValueLayout
import Idealize.ShloMosaic.PureOps.Ideal.Laws

noncomputable section

open scoped BigOperators

namespace Cert.KernelIdeal.PayloadValue

open Cert.KernelIdeal Cert.KernelIdeal.Gen Idealize.ShloMosaic Idealize.ShloMosaic.ValueIdx Cert.LibDenseRows Cert.LibAxisFolds

/-- The clamped squared distance between row `p` of tile A and row `q` of tile B. -/
def tileDist (A B : FVec Ideal S1024x256 .bf16) (qa qb : FVec Ideal S1024 .f32) (p q : Fin 1024) : EReal :=
  max ((qa (ix1 p) + qb (ix1 q)) - Ideal.ofBits .f32 0x40000000#32 * ∑ k : Fin 256, A (ix2 p k) * B (ix2 q k))
    (Ideal.ofBits .f32 0x00000000#32)

/-! ## The first kernel's tile: distances, their sum, their maximum -/

/-- The distance tile at (p, q). -/
theorem k0_pay3_apply (A B : FVec Ideal S1024x256 .bf16) (qa qb : FVec Ideal S1024 .f32) (p q : Fin 1024) :
    k0_pay3 (F := Ideal) A B qa qb (ix2 p q) = tileDist A B qa qb p q := by
  unfold k0_pay3
  simp only [shapeCast_self]
  rw [maximumf_apply, subf_apply, addf_apply, mulf_apply, broadcast_apply, broadcast_apply,
    broadcastTo_a1_ab_apply, shapeCast_a_a1_apply, broadcastTo_1b_ab_apply, shapeCast_a_1a_apply]
  have hm : matmul dot_S1024x256_S1024x256_S1024x1024_1_1_0_0_n_n none A B (constant S1024x1024 .f32 0x00000000#32) (ix2 p q)
      = ∑ k : Fin 256, A (ix2 p k) * B (ix2 q k) :=
    matmulNT_zero_apply dot_S1024x256_S1024x256_S1024x1024_1_1_0_0_n_n_wf none A B p q
  rw [hm]
  rfl

/-- The tile's sum: row sums, then the sum of the column of row sums. -/
theorem k0_pay4_apply (A B : FVec Ideal S1024x256 .bf16) (qa qb : FVec Ideal S1024 .f32) (j : S1x1.Idx) :
    k0_pay4 (F := Ideal) A B qa qb j = ∑ p : Fin 1024, ∑ q : Fin 1024, tileDist A B qa qb p q := by
  obtain ⟨u, v, rfl⟩ : ∃ (u : Fin 1) (v : Fin 1), j = ix2 u v := ⟨j 0, j 1, eq_ix2 j⟩
  unfold k0_pay4
  refine (shapeCast_a_1a_apply _ _ u v).trans ?_
  refine (colSum_apply _ _ _ _ _ v).trans ?_
  refine Finset.sum_congr rfl fun p _ => ?_
  refine (shapeCast_a_a1_apply _ _ p v).trans ?_
  refine (rowSum_apply _ _ _ _ _ p).trans ?_
  exact Finset.sum_congr rfl fun q _ => k0_pay3_apply A B qa qb p q

/-- The tile's maximum: row maxima, then the maximum of the column of row maxima, each from the literal −∞. -/
theorem k0_pay5_apply (A B : FVec Ideal S1024x256 .bf16) (qa qb : FVec Ideal S1024 .f32) (j : S1x1.Idx) :
    k0_pay5 (F := Ideal) A B qa qb j
      = (Finset.univ : Finset (Fin 1024)).fold max (Ideal.ofBits .f32 0xFF800000#32) (fun p =>
          (Finset.univ : Finset (Fin 1024)).fold max (Ideal.ofBits .f32 0xFF800000#32) (fun q => tileDist A B qa qb p q)) := by
  obtain ⟨u, v, rfl⟩ : ∃ (u : Fin 1) (v : Fin 1), j = ix2 u v := ⟨j 0, j 1, eq_ix2 j⟩
  unfold k0_pay5
  refine (shapeCast_a_1a_apply _ _ u v).trans ?_
  refine (colMax_apply _ _ _ _ _ v).trans ?_
  refine Finset.fold_congr fun p _ => ?_
  refine (shapeCast_a_a1_apply _ _ p v).trans ?_
  refine (rowMax_apply _ _ _ _ _ p).trans ?_
  exact Finset.fold_congr fun q _ => k0_pay3_apply A B qa qb p q

/-- The tile's maximum by its universal property: it is below `z` exactly when the literal −∞ and every distance of the
    tile are. -/
theorem k0_pay5_le_iff (A B : FVec Ideal S1024x256 .bf16) (qa qb : FVec Ideal S1024 .f32) (j : S1x1.Idx) (z : EReal) :
    k0_pay5 (F := Ideal) A B qa qb j ≤ z
      ↔ Ideal.ofBits .f32 0xFF800000#32 ≤ z ∧ ∀ p q : Fin 1024, tileDist A B qa qb p q ≤ z := by
  rw [k0_pay5_apply, Finset.fold_max_le]
  constructor
  · rintro ⟨h0, h⟩
    exact ⟨h0, fun p q => ((Finset.fold_max_le z).mp (h p (Finset.mem_univ p))).2 q (Finset.mem_univ q)⟩
  · rintro ⟨h0, h⟩
    exact ⟨h0, fun p _ => (Finset.fold_max_le z).mpr ⟨h0, fun q _ => h p q⟩⟩

/-! ## A tile's distances are the specification's, where the tile's rows are rows of the joined array -/

/-- If row `p` of A is row `r` of T, row `q` of B is row `c` of T, and the norms agree likewise, the tile's distance at
    (p, q) is the specification's distance between rows `r` and `c`. -/
theorem tileDist_eq_dist (A B : FVec Ideal S1024x256 .bf16) (qa qb : FVec Ideal S1024 .f32)
    (T : Cert.MMD.STot.Idx → EReal) (Q : Cert.MMD.SSq.Idx → EReal) (p q : Fin 1024) (r c : Fin 8192)
    (hA : ∀ k : Fin 256, A (ix2 p k) = T (ix2 r k)) (hB : ∀ k : Fin 256, B (ix2 q k) = T (ix2 c k))
    (ha : qa (ix1 p) = Q (ix1 r)) (hb : qb (ix1 q) = Q (ix1 c)) :
    tileDist A B qa qb p q = Cert.MMD.dist T Q r c := by
  unfold tileDist Cert.MMD.dist Cert.MMD.gram
  rw [ha, hb]
  simp only [hA, hB]

/-! ## The second kernel's tile -/

/-- The five Gaussian terms of the pair (p, q) with bandwidths b0 … b4, added in order onto the literal zero; the
    negation is written as the kernel writes it, a subtraction from the literal zero. -/
def tileKern (D : Fin 1024 → Fin 1024 → EReal) (b0 b1 b2 b3 b4 : EReal) (p q : Fin 1024) : EReal :=
  ((((Ideal.ofBits .f32 0x00000000#32 + Ideal.exp (Ideal.div (Ideal.ofBits .f32 0x00000000#32 - D p q) b0))
    + Ideal.exp (Ideal.div (Ideal.ofBits .f32 0x00000000#32 - D p q) b1))
    + Ideal.exp (Ideal.div (Ideal.ofBits .f32 0x00000000#32 - D p q) b2))
    + Ideal.exp (Ideal.div (Ideal.ofBits .f32 0x00000000#32 - D p q) b3))
    + Ideal.exp (Ideal.div (Ideal.ofBits .f32 0x00000000#32 - D p q) b4)

/-- The second kernel's distance tile at (p, q): the same distances. -/
theorem k1_pay4_apply (A B : FVec Ideal S1024x256 .bf16) (qa qb : FVec Ideal S1024 .f32) (p q : Fin 1024) :
    k1_pay4 (F := Ideal) A B qa qb (ix2 p q) = tileDist A B qa qb p q := by
  unfold k1_pay4
  simp only [shapeCast_self]
  rw [maximumf_apply, subf_apply, addf_apply, mulf_apply, broadcast_apply, broadcast_apply,
    broadcastTo_a1_ab_apply, shapeCast_a_a1_apply, broadcastTo_1b_ab_apply, shapeCast_a_1a_apply]
  have hm : matmul dot_S1024x256_S1024x256_S1024x1024_1_1_0_0_n_n none A B (constant S1024x1024 .f32 0x00000000#32) (ix2 p q)
      = ∑ k : Fin 256, A (ix2 p k) * B (ix2 q k) :=
    matmulNT_zero_apply dot_S1024x256_S1024x256_S1024x1024_1_1_0_0_n_n_wf none A B p q
  rw [hm]
  rfl

/-- The first two Gaussian terms on the literal zero, at (p, q). -/
theorem k1_pay5_apply (A B : FVec Ideal S1024x256 .bf16) (qa qb : FVec Ideal S1024 .f32) (v28 v36 : FVec Ideal S1x1 .f32)
    (p q : Fin 1024) :
    k1_pay5 (F := Ideal) A B qa qb v28 v36 (ix2 p q)
      = (Ideal.ofBits .f32 0x00000000#32 + Ideal.exp (Ideal.div (Ideal.ofBits .f32 0x00000000#32 - tileDist A B qa qb p q) (v28 (ix2 (0 : Fin 1) (0 : Fin 1)))))
        + Ideal.exp (Ideal.div (Ideal.ofBits .f32 0x00000000#32 - tileDist A B qa qb p q) (v36 (ix2 (0 : Fin 1) (0 : Fin 1)))) := by
  rw [← k1_pay4_apply, ← extractAt_00 v28 inpos_S1x1_p0_0, ← extractAt_00 v36 inpos_S1x1_p0_0]
  rfl

/-- The tile sum of the last three Gaussian terms added onto a given tile `v43`, for any distance tile `v26`. -/
theorem k1_pay6_sum (v26 v43 : FVec Ideal S1024x1024 .f32) (v44 v52 v60 : FVec Ideal S1x1 .f32) (j : S1x1.Idx) :
    k1_pay6 (F := Ideal) v26 v43 v44 v52 v60 j
      = ∑ p : Fin 1024, ∑ q : Fin 1024,
          (((v43 (ix2 p q) + Ideal.exp (Ideal.div (Ideal.ofBits .f32 0x00000000#32 - v26 (ix2 p q)) (v44 (ix2 (0 : Fin 1) (0 : Fin 1)))))
            + Ideal.exp (Ideal.div (Ideal.ofBits .f32 0x00000000#32 - v26 (ix2 p q)) (v52 (ix2 (0 : Fin 1) (0 : Fin 1)))))
            + Ideal.exp (Ideal.div (Ideal.ofBits .f32 0x00000000#32 - v26 (ix2 p q)) (v60 (ix2 (0 : Fin 1) (0 : Fin 1))))) := by
  obtain ⟨u, v, rfl⟩ : ∃ (u : Fin 1) (v : Fin 1), j = ix2 u v := ⟨j 0, j 1, eq_ix2 j⟩
  unfold k1_pay6
  refine (shapeCast_a_1a_apply _ _ u v).trans ?_
  refine (colSum_apply _ _ _ _ _ v).trans ?_
  refine Finset.sum_congr rfl fun p _ => ?_
  refine (shapeCast_a_a1_apply _ _ p v).trans ?_
  refine (rowSum_apply _ _ _ _ _ p).trans ?_
  refine Finset.sum_congr rfl fun q _ => ?_
  rw [← extractAt_00 v44 inpos_S1x1_p0_0, ← extractAt_00 v52 inpos_S1x1_p0_0, ← extractAt_00 v60 inpos_S1x1_p0_0]
  rfl

/-- The second kernel's tile sum: the sum over the tile of the five-term kernel value of each pair. -/
theorem k1_pay6_apply (A B : FVec Ideal S1024x256 .bf16) (qa qb : FVec Ideal S1024 .f32)
    (v28 v36 v44 v52 v60 : FVec Ideal S1x1 .f32) (j : S1x1.Idx) :
    k1_pay6 (F := Ideal) (k1_pay4 A B qa qb) (k1_pay5 A B qa qb v28 v36) v44 v52 v60 j
      = ∑ p : Fin 1024, ∑ q : Fin 1024,
          tileKern (tileDist A B qa qb) (v28 (ix2 (0 : Fin 1) (0 : Fin 1))) (v36 (ix2 (0 : Fin 1) (0 : Fin 1)))
            (v44 (ix2 (0 : Fin 1) (0 : Fin 1))) (v52 (ix2 (0 : Fin 1) (0 : Fin 1))) (v60 (ix2 (0 : Fin 1) (0 : Fin 1))) p q := by
  rw [k1_pay6_sum]
  refine Finset.sum_congr rfl fun p _ => Finset.sum_congr rfl fun q _ => ?_
  rw [k1_pay5_apply, k1_pay4_apply]
  rfl

/-- With the specification's bandwidths, and a distance that is the specification's, the tile's kernel value is the
    specification's: subtracting from the literal zero is negating. -/
theorem tileKern_eq_kern (T : Cert.MMD.STot.Idx → EReal) (Q : Cert.MMD.SSq.Idx → EReal) (r c : Fin 8192)
    (D : Fin 1024 → Fin 1024 → EReal) (p q : Fin 1024) (h : D p q = Cert.MMD.dist T Q r c) :
    tileKern D (Cert.MMD.bw T Q 0) (Cert.MMD.bw T Q 1) (Cert.MMD.bw T Q 2) (Cert.MMD.bw T Q 3) (Cert.MMD.bw T Q 4) p q
      = Cert.MMD.kern T Q r c := by
  unfold tileKern Cert.MMD.kern Cert.MMD.expTerm
  rw [h]
  have hz : ∀ x : EReal, Ideal.ofBits .f32 0x00000000#32 - x = -x := fun x => by rw [Ideal.ofBits_zero_f32, zero_sub]
  simp only [hz]

end Cert.KernelIdeal.PayloadValue

end
-- ==== Proof.Tiles.lean ====
/-
  Tiling an 8192 x 8192 array of extended reals by 64 tiles of 1024 x 1024, and accumulating tile values
  point after point: the accumulated sums and maxima are the sums and maxima over the whole array, and over
  each of its four 4096 x 4096 quadrants. Only the laws of a commutative additive monoid and of a linear order
  are used: no finiteness, no subtraction, no cancellation.
-/
import Mathlib.Algebra.BigOperators.Fin
import Mathlib.Data.Finset.Fold
import Mathlib.Data.EReal.Basic
import proofs.«149507_j24644522344587_1_alg».proof.Proof.Spec

noncomputable section

open scoped BigOperators

namespace Cert.MMD.Tiles

open Cert.MMD

/-! ### Blocks of rows and the grid of tiles -/

/-- Row (or column) `p` of block `i`: the blocks are the eight runs of 1024 consecutive indices. -/
def blk (i : Fin 8) (p : Fin 1024) : Fin 8192 :=
  ⟨1024 * i.val + p.val, by have := i.isLt; have := p.isLt; omega⟩

theorem blk_val (i : Fin 8) (p : Fin 1024) : (blk i p).val = 1024 * i.val + p.val := rfl

/-- The row block of tile `t`. -/
def ti (t : Fin 64) : Fin 8 := ⟨t.val / 8, by have := t.isLt; omega⟩
/-- The column block of tile `t`. -/
def tj (t : Fin 64) : Fin 8 := ⟨t.val % 8, by omega⟩

theorem ti_val (t : Fin 64) : (ti t).val = t.val / 8 := rfl
theorem tj_val (t : Fin 64) : (tj t).val = t.val % 8 := rfl

/-- Every index lies in exactly one block: (block, offset) ↦ index is a bijection. -/
def blkEquiv : Fin 8 × Fin 1024 ≃ Fin 8192 where
  toFun x := blk x.1 x.2
  invFun r := (⟨r.val / 1024, by have := r.isLt; omega⟩, ⟨r.val % 1024, by omega⟩)
  left_inv := by
    rintro ⟨i, p⟩
    have hi := i.isLt
    have hp := p.isLt
    apply Prod.ext
    · apply Fin.ext
      show (1024 * i.val + p.val) / 1024 = i.val
      omega
    · apply Fin.ext
      show (1024 * i.val + p.val) % 1024 = p.val
      omega
  right_inv := by
    intro r
    apply Fin.ext
    show 1024 * (r.val / 1024) + r.val % 1024 = r.val
    omega

/-- Every tile is one (row block, column block) pair: tile ↦ pair is a bijection. -/
def tileEquiv : Fin 64 ≃ Fin 8 × Fin 8 where
  toFun t := (ti t, tj t)
  invFun x := ⟨8 * x.1.val + x.2.val, by have := x.1.isLt; have := x.2.isLt; omega⟩
  left_inv := by
    intro t
    apply Fin.ext
    show 8 * (t.val / 8) + t.val % 8 = t.val
    omega
  right_inv := by
    rintro ⟨i, j⟩
    have hi := i.isLt
    have hj := j.isLt
    apply Prod.ext
    · apply Fin.ext
      show (8 * i.val + j.val) / 8 = i.val
      omega
    · apply Fin.ext
      show (8 * i.val + j.val) % 8 = j.val
      omega

theorem exists_blk (r : Fin 8192) : ∃ (i : Fin 8) (p : Fin 1024), r = blk i p :=
  ⟨(blkEquiv.symm r).1, (blkEquiv.symm r).2, (blkEquiv.apply_symm_apply r).symm⟩

theorem exists_tile (i j : Fin 8) : ∃ t : Fin 64, ti t = i ∧ tj t = j := by
  refine ⟨tileEquiv.symm (i, j), ?_, ?_⟩
  · exact congrArg Prod.fst (tileEquiv.apply_symm_apply (i, j))
  · exact congrArg Prod.snd (tileEquiv.apply_symm_apply (i, j))

/-- A sum over all indices, block by block. -/
theorem sum_blk (g : Fin 8192 → EReal) :
    ∑ r : Fin 8192, g r = ∑ i : Fin 8, ∑ p : Fin 1024, g (blk i p) := by
  rw [← Fintype.sum_prod_type' (f := fun i p => g (blk i p))]
  exact (Fintype.sum_equiv blkEquiv (fun x => g (blk x.1 x.2)) g (fun _ => rfl)).symm

/-- A sum over all (row block, column block) pairs, tile by tile. -/
theorem sum_tiles (h : Fin 8 → Fin 8 → EReal) :
    ∑ i : Fin 8, ∑ j : Fin 8, h i j = ∑ t : Fin 64, h (ti t) (tj t) := by
  rw [← Fintype.sum_prod_type' (f := h)]
  exact (Fintype.sum_equiv tileEquiv (fun t => h (ti t) (tj t)) (fun x => h x.1 x.2) (fun _ => rfl)).symm

/-! ### Sums -/

/-- The sum of the entries of tile (`i`, `j`). -/
def tileSum (f : Fin 8192 → Fin 8192 → EReal) (i j : Fin 8) : EReal :=
  ∑ p : Fin 1024, ∑ q : Fin 1024, f (blk i p) (blk j q)

/-- The sum over the whole array is the sum of the 64 tile sums. -/
theorem sum_all (f : Fin 8192 → Fin 8192 → EReal) :
    ∑ r : Fin 8192, ∑ c : Fin 8192, f r c = ∑ t : Fin 64, tileSum f (ti t) (tj t) := by
  rw [← sum_tiles (fun i j => tileSum f i j), sum_blk]
  refine Finset.sum_congr rfl fun i _ => ?_
  show ∑ p : Fin 1024, ∑ c : Fin 8192, f (blk i p) c
      = ∑ j : Fin 8, ∑ p : Fin 1024, ∑ q : Fin 1024, f (blk i p) (blk j q)
  calc ∑ p : Fin 1024, ∑ c : Fin 8192, f (blk i p) c
      = ∑ p : Fin 1024, ∑ j : Fin 8, ∑ q : Fin 1024, f (blk i p) (blk j q) :=
        Finset.sum_congr rfl fun p _ => sum_blk (fun c => f (blk i p) c)
    _ = ∑ j : Fin 8, ∑ p : Fin 1024, ∑ q : Fin 1024, f (blk i p) (blk j q) := Finset.sum_comm

/-! ### Running sums -/

/-- The running sum as a kernel accumulates it: reset to `z0` at the first point, then one tile value added
per point. -/
def runSum (z0 : EReal) (g : Fin 64 → EReal) : (n : ℕ) → n < 64 → EReal
  | 0, h => z0 + g ⟨0, h⟩
  | n + 1, h => runSum z0 g n (Nat.lt_of_succ_lt h) + g ⟨n + 1, h⟩

/-- After point `n` the running sum holds `z0` plus the values of the points up to `n`. -/
theorem runSum_eq (z0 : EReal) (g : Fin 64 → EReal) :
    ∀ (n : ℕ) (h : n < 64),
      runSum z0 g n h = z0 + ∑ k : Fin (n + 1), g ⟨k.val, lt_of_lt_of_le k.isLt (Nat.succ_le_of_lt h)⟩
  | 0, h => by
    rw [runSum, Fin.sum_univ_one]
    rfl
  | n + 1, h => by
    have hs := Fin.sum_univ_castSucc
      (fun k : Fin (n + 1 + 1) => g ⟨k.val, lt_of_lt_of_le k.isLt (Nat.succ_le_of_lt h)⟩)
    rw [runSum, runSum_eq z0 g n (Nat.lt_of_succ_lt h), hs, add_assoc]
    rfl

theorem runSum_last' (z0 : EReal) (g : Fin 64 → EReal) :
    runSum z0 g 63 (by norm_num) = z0 + ∑ t : Fin 64, g t := by
  rw [runSum_eq]

theorem runSum_last (g : Fin 64 → EReal) :
    runSum 0 g 63 (by norm_num) = ∑ t : Fin 64, g t := by
  rw [runSum_last', zero_add]

/-- The running sum when only the points satisfying `P` add their tile (the others leave the accumulator
alone); the accumulator is reset to `z0` at the first point. -/
def runSumIf (P : Fin 64 → Prop) [DecidablePred P] (z0 : EReal) (g : Fin 64 → EReal) :
    (n : ℕ) → n < 64 → EReal
  | 0, h => if P ⟨0, h⟩ then z0 + g ⟨0, h⟩ else z0
  | n + 1, h =>
    if P ⟨n + 1, h⟩ then runSumIf P z0 g n (Nat.lt_of_succ_lt h) + g ⟨n + 1, h⟩
    else runSumIf P z0 g n (Nat.lt_of_succ_lt h)

/-- Leaving the accumulator alone is adding zero. -/
theorem runSumIf_eq_runSum (P : Fin 64 → Prop) [DecidablePred P] (z0 : EReal) (g : Fin 64 → EReal) :
    ∀ (n : ℕ) (h : n < 64), runSumIf P z0 g n h = runSum z0 (fun t => if P t then g t else 0) n h
  | 0, h => by
    rw [runSumIf, runSum]
    by_cases hP : P ⟨0, h⟩
    · rw [if_pos hP, if_pos hP]
    · rw [if_neg hP, if_neg hP, add_zero]
  | n + 1, h => by
    rw [runSumIf, runSum, runSumIf_eq_runSum P z0 g n (Nat.lt_of_succ_lt h)]
    by_cases hP : P ⟨n + 1, h⟩
    · rw [if_pos hP, if_pos hP]
    · rw [if_neg hP, if_neg hP, add_zero]

theorem runSumIf_last' (P : Fin 64 → Prop) [DecidablePred P] (z0 : EReal) (g : Fin 64 → EReal) :
    runSumIf P z0 g 63 (by norm_num) = z0 + ∑ t : Fin 64, if P t then g t else 0 := by
  rw [runSumIf_eq_runSum, runSum_last']

theorem runSumIf_last (P : Fin 64 → Prop) [DecidablePred P] (g : Fin 64 → EReal) :
    runSumIf P 0 g 63 (by norm_num) = ∑ t : Fin 64, if P t then g t else 0 := by
  rw [runSumIf_last', zero_add]

/-! ### Maxima -/

/-- A tile's maximum as two nested folds of `max` from a bottom value `b`. -/
def tileMax (b : EReal) (f : Fin 8192 → Fin 8192 → EReal) (i j : Fin 8) : EReal :=
  (Finset.univ : Finset (Fin 1024)).fold max b
    (fun p => (Finset.univ : Finset (Fin 1024)).fold max b (fun q => f (blk i p) (blk j q)))

theorem tileMax_le_iff (b : EReal) (f : Fin 8192 → Fin 8192 → EReal) (i j : Fin 8) (z : EReal) :
    tileMax b f i j ≤ z ↔ b ≤ z ∧ ∀ p q : Fin 1024, f (blk i p) (blk j q) ≤ z := by
  unfold tileMax
  rw [Finset.fold_max_le]
  constructor
  · rintro ⟨hb, h⟩
    refine ⟨hb, fun p q => ?_⟩
    exact ((Finset.fold_max_le z).mp (h p (Finset.mem_univ p))).2 q (Finset.mem_univ q)
  · rintro ⟨hb, h⟩
    refine ⟨hb, fun p _ => ?_⟩
    exact (Finset.fold_max_le z).mpr ⟨hb, fun q _ => h p q⟩

/-- The running maximum: started from `b` at the first point, then joined with one tile value per point. -/
def runMax (b : EReal) (g : Fin 64 → EReal) : (n : ℕ) → n < 64 → EReal
  | 0, h => max b (g ⟨0, h⟩)
  | n + 1, h => max (runMax b g n (Nat.lt_of_succ_lt h)) (g ⟨n + 1, h⟩)

/-- After point `n` the running maximum is below `z` exactly when `b` and the values of the points up to
`n` are. -/
theorem runMax_le_iff' (b : EReal) (g : Fin 64 → EReal) (z : EReal) :
    ∀ (n : ℕ) (h : n < 64), runMax b g n h ≤ z ↔ b ≤ z ∧ ∀ t : Fin 64, t.val ≤ n → g t ≤ z
  | 0, h => by
    rw [runMax, max_le_iff]
    refine and_congr Iff.rfl ⟨fun hg t ht => ?_, fun hg => hg ⟨0, h⟩ (Nat.le_refl 0)⟩
    have : t = ⟨0, h⟩ := Fin.ext (Nat.le_zero.mp ht)
    rw [this]
    exact hg
  | n + 1, h => by
    rw [runMax, max_le_iff, runMax_le_iff' b g z n (Nat.lt_of_succ_lt h), and_assoc]
    refine and_congr Iff.rfl ⟨?_, fun hg => ⟨fun t ht => hg t (Nat.le_succ_of_le ht), hg ⟨n + 1, h⟩ (Nat.le_refl _)⟩⟩
    rintro ⟨hlo, hhi⟩ t ht
    rcases Nat.lt_or_ge t.val (n + 1) with hlt | hge
    · exact hlo t (Nat.le_of_lt_succ hlt)
    · have : t = ⟨n + 1, h⟩ := Fin.ext (Nat.le_antisymm ht hge)
      rw [this]
      exact hhi

theorem runMax_le_iff (b : EReal) (g : Fin 64 → EReal) (z : EReal) :
    runMax b g 63 (by norm_num) ≤ z ↔ b ≤ z ∧ ∀ t : Fin 64, g t ≤ z := by
  rw [runMax_le_iff']
  exact and_congr Iff.rfl ⟨fun hg t => hg t (Nat.le_of_lt_succ t.isLt), fun hg t _ => hg t⟩

/-- The running maximum of the tile maxima is the maximum of the whole array, joined with `b`. -/
theorem allMax_le_iff (b : EReal) (f : Fin 8192 → Fin 8192 → EReal) (z : EReal) :
    runMax b (fun t => tileMax b f (ti t) (tj t)) 63 (by norm_num) ≤ z ↔
      b ≤ z ∧ ∀ r c : Fin 8192, f r c ≤ z := by
  rw [runMax_le_iff]
  constructor
  · rintro ⟨hb, h⟩
    refine ⟨hb, fun r c => ?_⟩
    obtain ⟨i, p, rfl⟩ := exists_blk r
    obtain ⟨j, q, rfl⟩ := exists_blk c
    obtain ⟨t, rfl, rfl⟩ := exists_tile i j
    exact ((tileMax_le_iff b f (ti t) (tj t) z).mp (h t)).2 p q
  · rintro ⟨hb, h⟩
    exact ⟨hb, fun t => (tileMax_le_iff b f (ti t) (tj t) z).mpr ⟨hb, fun p q => h _ _⟩⟩

/-! ### The four quadrants -/

/-- Tile `t` lies in quadrant (`a`, `b`): `a = 0` exactly for the row blocks below 4, `b = 0` exactly
for the column blocks below 4. -/
def inQuad (a b : Fin 2) (t : Fin 64) : Prop :=
  ((ti t).val < 4 ↔ a.val = 0) ∧ ((tj t).val < 4 ↔ b.val = 0)

instance instDecidablePredInQuad (a b : Fin 2) : DecidablePred (inQuad a b) := fun t => by
  unfold inQuad
  infer_instance

/-- Block `i` of half `a`: the first half holds the blocks 0..3, the second the blocks 4..7. -/
def hblk (a : Fin 2) (i : Fin 4) : Fin 8 :=
  ⟨4 * a.val + i.val, by have := a.isLt; have := i.isLt; omega⟩

theorem hblk_val (a : Fin 2) (i : Fin 4) : (hblk a i).val = 4 * a.val + i.val := rfl

/-- Every block lies in exactly one half: (half, block within it) ↦ block is a bijection. -/
def hblkEquiv : Fin 2 × Fin 4 ≃ Fin 8 where
  toFun x := hblk x.1 x.2
  invFun i := (⟨i.val / 4, by have := i.isLt; omega⟩, ⟨i.val % 4, by omega⟩)
  left_inv := by
    rintro ⟨a, i⟩
    have ha := a.isLt
    have hi := i.isLt
    apply Prod.ext
    · apply Fin.ext
      show (4 * a.val + i.val) / 4 = a.val
      omega
    · apply Fin.ext
      show (4 * a.val + i.val) % 4 = i.val
      omega
  right_inv := by
    intro i
    apply Fin.ext
    show 4 * (i.val / 4) + i.val % 4 = i.val
    omega

/-- The rows of a half, block by block: (block within the half, offset) ↦ row is a bijection. -/
def hrowEquiv : Fin 4 × Fin 1024 ≃ Fin 4096 where
  toFun x := ⟨1024 * x.1.val + x.2.val, by have := x.1.isLt; have := x.2.isLt; omega⟩
  invFun r := (⟨r.val / 1024, by have := r.isLt; omega⟩, ⟨r.val % 1024, by omega⟩)
  left_inv := by
    rintro ⟨i, p⟩
    have hi := i.isLt
    have hp := p.isLt
    apply Prod.ext
    · apply Fin.ext
      show (1024 * i.val + p.val) / 1024 = i.val
      omega
    · apply Fin.ext
      show (1024 * i.val + p.val) % 1024 = p.val
      omega
  right_inv := by
    intro r
    apply Fin.ext
    show 1024 * (r.val / 1024) + r.val % 1024 = r.val
    omega

theorem row_hrowEquiv (a : Fin 2) (x : Fin 4 × Fin 1024) : row a (hrowEquiv x) = blk (hblk a x.1) x.2 := by
  apply Fin.ext
  show a.val * 4096 + (1024 * x.1.val + x.2.val) = 1024 * (4 * a.val + x.1.val) + x.2.val
  omega

/-- A sum over the rows of half `a`, block by block. -/
theorem sum_row (a : Fin 2) (g : Fin 8192 → EReal) :
    ∑ r : Fin 4096, g (row a r) = ∑ i : Fin 4, ∑ p : Fin 1024, g (blk (hblk a i) p) := by
  rw [← Fintype.sum_prod_type' (f := fun i p => g (blk (hblk a i) p))]
  exact (Fintype.sum_equiv hrowEquiv (fun x => g (blk (hblk a x.1) x.2)) (fun r => g (row a r))
    (fun x => congrArg g (row_hrowEquiv a x).symm)).symm

/-- A sum over the blocks that keeps only those of half `a` is the sum over the blocks of that half. -/
theorem sum_half (a : Fin 2) (h : Fin 8 → EReal) :
    (∑ i : Fin 8, if (i.val < 4 ↔ a.val = 0) then h i else 0) = ∑ i : Fin 4, h (hblk a i) := by
  have key : ∀ (a' : Fin 2) (i : Fin 4), ((hblk a' i).val < 4 ↔ a.val = 0) ↔ a' = a := by
    intro a' i
    have ha := a.isLt
    have ha' := a'.isLt
    have hi := i.isLt
    rw [hblk_val, Fin.ext_iff]
    omega
  calc (∑ i : Fin 8, if (i.val < 4 ↔ a.val = 0) then h i else 0)
      = ∑ x : Fin 2 × Fin 4, if ((hblk x.1 x.2).val < 4 ↔ a.val = 0) then h (hblk x.1 x.2) else 0 :=
        (Fintype.sum_equiv hblkEquiv
          (fun x => if ((hblk x.1 x.2).val < 4 ↔ a.val = 0) then h (hblk x.1 x.2) else 0)
          (fun i => if (i.val < 4 ↔ a.val = 0) then h i else 0) (fun _ => rfl)).symm
    _ = ∑ a' : Fin 2, ∑ i : Fin 4, if ((hblk a' i).val < 4 ↔ a.val = 0) then h (hblk a' i) else 0 :=
        Fintype.sum_prod_type' (f := fun a' i => if ((hblk a' i).val < 4 ↔ a.val = 0) then h (hblk a' i) else 0)
    _ = ∑ a' : Fin 2, if a' = a then ∑ i : Fin 4, h (hblk a' i) else 0 := by
        refine Finset.sum_congr rfl fun a' _ => ?_
        by_cases haa : a' = a
        · rw [if_pos haa]
          exact Finset.sum_congr rfl fun i _ => if_pos ((key a' i).mpr haa)
        · rw [if_neg haa]
          exact Finset.sum_eq_zero fun i _ => if_neg (fun hc => haa ((key a' i).mp hc))
    _ = ∑ i : Fin 4, h (hblk a i) := by
        rw [Finset.sum_ite_eq' Finset.univ a (fun a' => ∑ i : Fin 4, h (hblk a' i)), if_pos (Finset.mem_univ a)]

/-- The sum over the quadrant (`a`, `b`) is the sum of the tile sums of the tiles lying in it. -/
theorem sum_quad (f : Fin 8192 → Fin 8192 → EReal) (a b : Fin 2) :
    ∑ r : Fin 4096, ∑ c : Fin 4096, f (row a r) (row b c)
      = ∑ t : Fin 64, if inQuad a b t then tileSum f (ti t) (tj t) else 0 := by
  have hR : (∑ t : Fin 64, if inQuad a b t then tileSum f (ti t) (tj t) else 0)
      = ∑ i : Fin 8, ∑ j : Fin 8,
          if ((i.val < 4 ↔ a.val = 0) ∧ (j.val < 4 ↔ b.val = 0)) then tileSum f i j else 0 :=
    (sum_tiles (fun i j =>
      if ((i.val < 4 ↔ a.val = 0) ∧ (j.val < 4 ↔ b.val = 0)) then tileSum f i j else 0)).symm
  rw [hR]
  calc ∑ r : Fin 4096, ∑ c : Fin 4096, f (row a r) (row b c)
      = ∑ i : Fin 4, ∑ p : Fin 1024, ∑ c : Fin 4096, f (blk (hblk a i) p) (row b c) :=
        sum_row a (fun r' => ∑ c : Fin 4096, f r' (row b c))
    _ = ∑ i : Fin 4, ∑ p : Fin 1024, ∑ j : Fin 4, ∑ q : Fin 1024, f (blk (hblk a i) p) (blk (hblk b j) q) :=
        Finset.sum_congr rfl fun i _ => Finset.sum_congr rfl fun p _ =>
          sum_row b (fun c' => f (blk (hblk a i) p) c')
    _ = ∑ i : Fin 4, ∑ j : Fin 4, tileSum f (hblk a i) (hblk b j) :=
        Finset.sum_congr rfl fun i _ => Finset.sum_comm
    _ = ∑ i : Fin 4, ∑ j : Fin 8, if (j.val < 4 ↔ b.val = 0) then tileSum f (hblk a i) j else 0 :=
        Finset.sum_congr rfl fun i _ => (sum_half b (fun j => tileSum f (hblk a i) j)).symm
    _ = ∑ i : Fin 8, if (i.val < 4 ↔ a.val = 0)
          then (∑ j : Fin 8, if (j.val < 4 ↔ b.val = 0) then tileSum f i j else 0) else 0 :=
        (sum_half a (fun i => ∑ j : Fin 8, if (j.val < 4 ↔ b.val = 0) then tileSum f i j else 0)).symm
    _ = ∑ i : Fin 8, ∑ j : Fin 8,
          if ((i.val < 4 ↔ a.val = 0) ∧ (j.val < 4 ↔ b.val = 0)) then tileSum f i j else 0 := by
        refine Finset.sum_congr rfl fun i _ => ?_
        by_cases hA : (i.val < 4 ↔ a.val = 0)
        · rw [if_pos hA]
          refine Finset.sum_congr rfl fun j _ => ?_
          by_cases hB : (j.val < 4 ↔ b.val = 0)
          · rw [if_pos hB, if_pos ⟨hA, hB⟩]
          · rw [if_neg hB, if_neg (fun hc => hB hc.2)]
        · rw [if_neg hA]
          exact (Finset.sum_eq_zero fun j _ => if_neg (fun hc => hA hc.1)).symm

end Cert.MMD.Tiles

end
-- ==== Proof.KernelIdeal.Ideal1.lean ====
/-
  The first region's two results at the exact extended reals. At grid point t the body's tile is the tile
  (t / 8, t % 8) of the 8192 x 8192 array of clamped squared distances between the joined rows; the sum accumulator
  follows the running sum of the tile sums from the literal zero, the maximum accumulator the running maximum of the
  tile maxima from the literal minus infinity. After the last point they hold the sum of all the distances on the
  literal zero, and their maximum joined with the literal minus infinity: the specification's two numbers.
-/
import proofs.«149507_j24644522344587_1_alg».proof.Proof.KernelIdeal.Blocks0
import proofs.«149507_j24644522344587_1_alg».proof.Proof.KernelIdeal.Payloads
import proofs.«149507_j24644522344587_1_alg».proof.Proof.Tiles
import proofs.«149507_j24644522344587_1_alg».proof.Proof.Spec

noncomputable section

open scoped BigOperators

namespace Cert.KernelIdeal.Hand

open Idealize.ShloMosaic Idealize.ShloMosaic.TcCoe
open Idealize.ShloMosaic.Pipeline (Dat Cfg Window cellOf)
open Cert.KernelIdeal Cert.KernelIdeal.Gen Idealize.ShloMosaic.ValueIdx
open Cert.KernelIdeal.PayloadValue
open Cert.MMD (dist distSum distMax)
open Cert.MMD.Tiles (blk ti tj tileSum tileMax runSum runMax)

/-! ### The accumulators' payloads at an index -/

/-- The sum accumulator's new contents: its previous contents plus the tile's value. -/
theorem k0_pay1_apply (a : FVec Ideal S1x1 .f32) (b : Vec Ideal S1x1 .f32) (j : S1x1.Idx) :
    k0_pay1 (F := Ideal) a b j = b j + a j := by
  unfold k0_pay1
  simp only [shapeCast_self]
  rfl

/-- The maximum accumulator's new contents: the larger of its previous contents and the tile's value. -/
theorem k0_pay2_apply (a : FVec Ideal S1x1 .f32) (b : Vec Ideal S1x1 .f32) (j : S1x1.Idx) :
    k0_pay2 (F := Ideal) a b j = max (b j) (a j) := by
  unfold k0_pay2
  simp only [shapeCast_self]
  rfl

/-- The reset values: the literal zero and the literal minus infinity. -/
theorem k0_pay6_apply (j : S1x1.Idx) : k0_pay6 (F := Ideal) j = Ideal.ofBits .f32 0x00000000#32 := rfl
theorem k0_pay7_apply (j : S1x1.Idx) : k0_pay7 (F := Ideal) j = Ideal.ofBits .f32 0xFF800000#32 := rfl

/-! ### Grid points as tiles -/

/-- Grid point `t` as one of the 64 tiles. -/
def tileOf (t : Fin cfg0.N) : Fin 64 := ⟨t.val, lt_of_lt_of_eq t.isLt (show cfg0.N = 64 from N_0)⟩

theorem tileOf_val (t : Fin cfg0.N) : (tileOf t).val = t.val := rfl

theorem rowI_eq (t : Fin cfg0.N) (p : Fin 1024) : rowI t p = blk (ti (tileOf t)) p := Fin.ext rfl
theorem rowJ_eq (t : Fin cfg0.N) (q : Fin 1024) : rowJ t q = blk (tj (tileOf t)) q := Fin.ext rfl

variable (V : (c : Dev nD) → (b : Ref sig .tc) → Buf (Elt Ideal) ((c : Thread nD τ).loc b))
variable (c : Dev nD) (T : Cert.MMD.STot.Idx → EReal) (Q : Cert.MMD.SSq.Idx → EReal)

/-- At grid point `t` the tile's distances are the specification's distances between the tile's rows. -/
theorem tileDist_at (hT : (V c main_v3 : S8192x256.Idx → EReal) = T) (hQ : (V c main_v2 : S8192.Idx → EReal) = Q)
    (t : Fin cfg0.N) (p q : Fin 1024) :
    tileDist (ldA (grid0.coords t) (iblk0 V c 0 t)) (ldB (grid0.coords t) (iblk0 V c 0 t))
        (ldC (grid0.coords t) (iblk0 V c 1 t)) (ldD (grid0.coords t) (iblk0 V c 1 t)) p q
      = dist T Q (blk (ti (tileOf t)) p) (blk (tj (tileOf t)) q) := by
  refine tileDist_eq_dist _ _ _ _ T Q p q _ _ (fun k => ?_) (fun k => ?_) ?_ ?_
  · rw [ldA_apply, iblk0_0_eq, rowI_eq, hT]
  · rw [ldB_apply, iblk0_0_eq, rowJ_eq, hT]
  · rw [ldC_apply, iblk0_1_eq, rowI_eq, hQ]
  · rw [ldD_apply, iblk0_1_eq, rowJ_eq, hQ]

/-- The tile's sum at grid point `t` is the sum of the specification's distances over tile (t / 8, t % 8). -/
theorem tileSumAt_apply (hT : (V c main_v3 : S8192x256.Idx → EReal) = T) (hQ : (V c main_v2 : S8192.Idx → EReal) = Q)
    (t : Fin cfg0.N) (j : S1x1.Idx) :
    tileSumAt V c t j = tileSum (dist T Q) (ti (tileOf t)) (tj (tileOf t)) := by
  unfold tileSumAt tileSum
  rw [k0_pay4_apply]
  exact Finset.sum_congr rfl fun p _ => Finset.sum_congr rfl fun q _ => tileDist_at V c T Q hT hQ t p q

/-- The tile's maximum at grid point `t` is the maximum of the specification's distances over that tile, from the
literal minus infinity. -/
theorem tileMaxAt_apply (hT : (V c main_v3 : S8192x256.Idx → EReal) = T) (hQ : (V c main_v2 : S8192.Idx → EReal) = Q)
    (t : Fin cfg0.N) (j : S1x1.Idx) :
    tileMaxAt V c t j
      = tileMax (Ideal.ofBits .f32 0xFF800000#32) (dist T Q) (ti (tileOf t)) (tj (tileOf t)) := by
  unfold tileMaxAt tileMax
  rw [k0_pay5_apply]
  exact Finset.fold_congr fun p _ => Finset.fold_congr fun q _ => tileDist_at V c T Q hT hQ t p q

/-! ### The accumulators are the running sum and the running maximum -/

/-- After grid point `n` the sum accumulator holds the running sum of the tile sums from the literal zero, the
maximum accumulator the running maximum of the tile maxima from the literal minus infinity. -/
theorem chain0_apply (hT : (V c main_v3 : S8192x256.Idx → EReal) = T) (hQ : (V c main_v2 : S8192.Idx → EReal) = Q) :
    ∀ (n : ℕ) (h : n < cfg0.N) (j : S1x1.Idx),
      (chain0 V c n h).1 j
          = runSum (Ideal.ofBits .f32 0x00000000#32) (fun t' => tileSum (dist T Q) (ti t') (tj t')) n
              (lt_of_lt_of_eq h (show cfg0.N = 64 from N_0))
        ∧ (chain0 V c n h).2 j
          = runMax (Ideal.ofBits .f32 0xFF800000#32)
              (fun t' => tileMax (Ideal.ofBits .f32 0xFF800000#32) (dist T Q) (ti t') (tj t')) n
              (lt_of_lt_of_eq h (show cfg0.N = 64 from N_0))
  | 0, h, j => by
    constructor
    · show k0_pay1 (tileSumAt V c ⟨0, h⟩) (k0_pay6 (F := Ideal)) j = _
      rw [k0_pay1_apply, k0_pay6_apply, tileSumAt_apply V c T Q hT hQ]
      rfl
    · show k0_pay2 (tileMaxAt V c ⟨0, h⟩) (k0_pay7 (F := Ideal)) j = _
      rw [k0_pay2_apply, k0_pay7_apply, tileMaxAt_apply V c T Q hT hQ]
      rfl
  | n + 1, h, j => by
    have ih := chain0_apply hT hQ n (Nat.lt_of_succ_lt h) j
    constructor
    · show k0_pay1 (tileSumAt V c ⟨n + 1, h⟩) (chain0 V c n (Nat.lt_of_succ_lt h)).1 j = _
      rw [k0_pay1_apply, ih.1, tileSumAt_apply V c T Q hT hQ]
      rfl
    · show k0_pay2 (tileMaxAt V c ⟨n + 1, h⟩) (chain0 V c n (Nat.lt_of_succ_lt h)).2 j = _
      rw [k0_pay2_apply, ih.2, tileMaxAt_apply V c T Q hT hQ]
      rfl

/-! ### The two results -/

/-- The sum's result array holds the specification's sum of all the distances. -/
theorem resSum_eq (hT : (V c main_v3 : S8192x256.Idx → EReal) = T) (hQ : (V c main_v2 : S8192.Idx → EReal) = Q) :
    (resSum V c : S1x1.Idx → EReal) = fun _ => distSum T Q := by
  funext j
  show (chain0 V c 63 tLast0.isLt).1 j = _
  rw [(chain0_apply V c T Q hT hQ 63 tLast0.isLt j).1, Cert.MMD.Tiles.runSum_last', ← Cert.MMD.Tiles.sum_all]
  rfl

/-- The maximum's result array holds the specification's largest distance, joined with the literal minus infinity. -/
theorem resMax_eq (hT : (V c main_v3 : S8192x256.Idx → EReal) = T) (hQ : (V c main_v2 : S8192.Idx → EReal) = Q) :
    (resMax V c : S1x1.Idx → EReal) = fun _ => distMax T Q := by
  funext j
  show (chain0 V c 63 tLast0.isLt).2 j = _
  rw [(chain0_apply V c T Q hT hQ 63 tLast0.isLt j).2]
  refine eq_of_forall_ge_iff fun z => ?_
  rw [Cert.MMD.Tiles.allMax_le_iff, Cert.MMD.distMax_le_iff]

end Cert.KernelIdeal.Hand

end
-- ==== Proof.KernelIdeal.Blocks1.lean ====
/-
  The second region's blocks as plain index arithmetic. Each input window's block at any grid point is the whole
  array (its block index never moves and the block has the array's extents): the row array, the squared norms and
  the row of bandwidths. Of them the body loads the tile's 1024 rows and 1024 columns: rows 1024·i + p and
  1024·j + q of the row array, entries 1024·i + p and 1024·j + q of the squared norms, where (i, j) = (t / 8, t % 8)
  is grid point t; and the five bandwidths, entries (0, 0) … (0, 4) of the bandwidth row.
-/
import proofs.«149507_j24644522344587_1_alg».proof.Proof.KernelIdeal.Stage2Runs
import proofs.«149507_j24644522344587_1_alg».proof.Proof.KernelIdeal.Loads1
import Idealize.ShloMosaic.Lib.Pipeline.Value
import Idealize.ShloMosaic.Lib.ValueIdx

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.ValueIdx

variable (V : (c : Dev nD) → (b : Ref sig .tc) → Buf (Elt F) ((c : Thread nD τ).loc b))

/-- The three input windows sit at block index zero at every grid point. -/
theorem idx1_0 : ∀ t : Fin cfg1.N, win1_0.index t 0 = 0 ∧ win1_0.index t 1 = 0 :=
  (by decide +kernel : ∀ t : Fin grid1.N, win1_0.index t 0 = 0 ∧ win1_0.index t 1 = 0)
theorem idx1_1 : ∀ t : Fin cfg1.N, win1_1.index t 0 = 0 :=
  (by decide +kernel : ∀ t : Fin grid1.N, win1_1.index t 0 = 0)
theorem idx1_2 : ∀ t : Fin cfg1.N, win1_2.index t 0 = 0 ∧ win1_2.index t 1 = 0 :=
  (by decide +kernel : ∀ t : Fin grid1.N, win1_2.index t 0 = 0 ∧ win1_2.index t 1 = 0)

/-- The row array's block is the whole array. -/
theorem iblk1_0_eq (c : Dev nD) (t : Fin cfg1.N) : (iblk1 V c 0 t : Vec F S8192x256 .bf16) = V c main_v3 := by
  unfold iblk1
  have hz' : (fun a => win1_0.index t a * main_v3.ty.shape.size a) = fun _ => 0 := funext fun a => by
    fin_cases a
    · show win1_0.index t 0 * _ = 0; rw [(idx1_0 t).1]; rfl
    · show win1_0.index t 1 * _ = 0; rw [(idx1_0 t).2]; rfl
  exact Memref.read_access_unit_zero (Elt F) main_v3 hz' (fun a => by rw [congrFun hz' a]; simp) (V c main_v3)

/-- The squared norms' block is the whole vector. -/
theorem iblk1_1_eq (c : Dev nD) (t : Fin cfg1.N) : (iblk1 V c 1 t : Vec F S8192 .f32) = V c main_v2 := by
  unfold iblk1
  have hz' : (fun a => win1_1.index t a * main_v2.ty.shape.size a) = fun _ => 0 := funext fun a => by
    fin_cases a
    show win1_1.index t 0 * _ = 0; rw [idx1_1 t]; rfl
  exact Memref.read_access_unit_zero (Elt F) main_v2 hz' (fun a => by rw [congrFun hz' a]; simp) (V c main_v2)

/-- The bandwidth row's block is the whole row. -/
theorem iblk1_2_eq (c : Dev nD) (t : Fin cfg1.N) : (iblk1 V c 2 t : Vec F S1x128 .f32) = V c main_v28 := by
  unfold iblk1
  have hz' : (fun a => win1_2.index t a * main_v28.ty.shape.size a) = fun _ => 0 := funext fun a => by
    fin_cases a
    · show win1_2.index t 0 * _ = 0; rw [(idx1_2 t).1]; rfl
    · show win1_2.index t 1 * _ = 0; rw [(idx1_2 t).2]; rfl
  exact Memref.read_access_unit_zero (Elt F) main_v28 hz' (fun a => by rw [congrFun hz' a]; simp) (V c main_v28)

/-- The body's four load offsets at grid point t. -/
theorem off1_1_eq : ∀ t : Fin cfg1.N, k1_off1 (grid1.coords t) = ![1024 * (t.val / 8), 0] :=
  (by decide +kernel : ∀ t : Fin grid1.N, k1_off1 (grid1.coords t) = ![1024 * (t.val / 8), 0])
theorem off1_2_eq : ∀ t : Fin cfg1.N, k1_off2 (grid1.coords t) = ![1024 * (t.val % 8), 0] :=
  (by decide +kernel : ∀ t : Fin grid1.N, k1_off2 (grid1.coords t) = ![1024 * (t.val % 8), 0])
theorem off1_3_eq : ∀ t : Fin cfg1.N, k1_off3 (grid1.coords t) = ![1024 * (t.val / 8)] :=
  (by decide +kernel : ∀ t : Fin grid1.N, k1_off3 (grid1.coords t) = ![1024 * (t.val / 8)])
theorem off1_4_eq : ∀ t : Fin cfg1.N, k1_off4 (grid1.coords t) = ![1024 * (t.val % 8)] :=
  (by decide +kernel : ∀ t : Fin grid1.N, k1_off4 (grid1.coords t) = ![1024 * (t.val % 8)])

/-- Row 1024·(t / 8) + p, as an index of the 8192 rows. -/
def rowI1 (t : Fin cfg1.N) (p : Fin 1024) : Fin 8192 := ⟨1024 * (t.val / 8) + p.val, by
  have := t.isLt; have hN : cfg1.N = 64 := N_1; have := p.isLt; omega⟩
/-- Row 1024·(t % 8) + q. -/
def rowJ1 (t : Fin cfg1.N) (q : Fin 1024) : Fin 8192 := ⟨1024 * (t.val % 8) + q.val, by
  have := q.isLt; omega⟩

theorem rowI1_val (t : Fin cfg1.N) (p : Fin 1024) : (rowI1 t p).val = 1024 * (t.val / 8) + p.val := rfl
theorem rowJ1_val (t : Fin cfg1.N) (q : Fin 1024) : (rowJ1 t q).val = 1024 * (t.val % 8) + q.val := rfl

theorem ld1A_apply (t : Fin cfg1.N) (X : Vec F S8192x256 .bf16) (p : Fin 1024) (k : Fin 256) :
    ld1A (grid1.coords t) X (ix2 p k) = X (ix2 (rowI1 t p) k) := by
  show X ((Rect.unit (s := S8192x256) (k1_off1 (grid1.coords t)) S1024x256.size (k1_off1_inb (grid1.coords t))).emb (ix2 p k)) = _
  refine congrArg X (funext fun a => Fin.ext ?_)
  match a with
  | ⟨0, _⟩ => show k1_off1 (grid1.coords t) 0 + 1 * p.val = 1024 * (t.val / 8) + p.val; rw [off1_1_eq t]; simp
  | ⟨1, _⟩ => show k1_off1 (grid1.coords t) 1 + 1 * k.val = k.val; rw [off1_1_eq t]; simp
theorem ld1B_apply (t : Fin cfg1.N) (X : Vec F S8192x256 .bf16) (q : Fin 1024) (k : Fin 256) :
    ld1B (grid1.coords t) X (ix2 q k) = X (ix2 (rowJ1 t q) k) := by
  show X ((Rect.unit (s := S8192x256) (k1_off2 (grid1.coords t)) S1024x256.size (k1_off2_inb (grid1.coords t))).emb (ix2 q k)) = _
  refine congrArg X (funext fun a => Fin.ext ?_)
  match a with
  | ⟨0, _⟩ => show k1_off2 (grid1.coords t) 0 + 1 * q.val = 1024 * (t.val % 8) + q.val; rw [off1_2_eq t]; simp
  | ⟨1, _⟩ => show k1_off2 (grid1.coords t) 1 + 1 * k.val = k.val; rw [off1_2_eq t]; simp
theorem ld1C_apply (t : Fin cfg1.N) (X : Vec F S8192 .f32) (p : Fin 1024) :
    ld1C (grid1.coords t) X (ix1 p) = X (ix1 (rowI1 t p)) := by
  show X ((Rect.unit (s := S8192) (k1_off3 (grid1.coords t)) S1024.size (k1_off3_inb (grid1.coords t))).emb (ix1 p)) = _
  refine congrArg X (funext fun a => Fin.ext ?_)
  match a with
  | ⟨0, _⟩ => show k1_off3 (grid1.coords t) 0 + 1 * p.val = 1024 * (t.val / 8) + p.val; rw [off1_3_eq t]; simp
theorem ld1D_apply (t : Fin cfg1.N) (X : Vec F S8192 .f32) (q : Fin 1024) :
    ld1D (grid1.coords t) X (ix1 q) = X (ix1 (rowJ1 t q)) := by
  show X ((Rect.unit (s := S8192) (k1_off4 (grid1.coords t)) S1024.size (k1_off4_inb (grid1.coords t))).emb (ix1 q)) = _
  refine congrArg X (funext fun a => Fin.ext ?_)
  match a with
  | ⟨0, _⟩ => show k1_off4 (grid1.coords t) 0 + 1 * q.val = 1024 * (t.val % 8) + q.val; rw [off1_4_eq t]; simp

/-- The five one-element loads of the bandwidth row read entries (0, 0) … (0, 4). -/
theorem ldBw0_apply (x2 : Vec F S1x128 .f32) :
    ldBw0 x2 (ix2 (0 : Fin 1) (0 : Fin 1)) = x2 (ix2 (0 : Fin 1) (⟨0, by omega⟩ : Fin 128)) := by
  show x2 ((Rect.unit (s := S1x128) ![0, 0] S1x1.size inb_S1x128_S1x1_0_0).emb (ix2 (0 : Fin 1) (0 : Fin 1))) = _
  refine congrArg x2 (funext fun a => Fin.ext ?_)
  match a with
  | ⟨0, _⟩ => rfl
  | ⟨1, _⟩ => rfl
theorem ldBw1_apply (x2 : Vec F S1x128 .f32) :
    ldBw1 x2 (ix2 (0 : Fin 1) (0 : Fin 1)) = x2 (ix2 (0 : Fin 1) (⟨1, by omega⟩ : Fin 128)) := by
  show x2 ((Rect.unit (s := S1x128) ![0, 1] S1x1.size inb_S1x128_S1x1_0_1).emb (ix2 (0 : Fin 1) (0 : Fin 1))) = _
  refine congrArg x2 (funext fun a => Fin.ext ?_)
  match a with
  | ⟨0, _⟩ => rfl
  | ⟨1, _⟩ => rfl
theorem ldBw2_apply (x2 : Vec F S1x128 .f32) :
    ldBw2 x2 (ix2 (0 : Fin 1) (0 : Fin 1)) = x2 (ix2 (0 : Fin 1) (⟨2, by omega⟩ : Fin 128)) := by
  show x2 ((Rect.unit (s := S1x128) ![0, 2] S1x1.size inb_S1x128_S1x1_0_2).emb (ix2 (0 : Fin 1) (0 : Fin 1))) = _
  refine congrArg x2 (funext fun a => Fin.ext ?_)
  match a with
  | ⟨0, _⟩ => rfl
  | ⟨1, _⟩ => rfl
theorem ldBw3_apply (x2 : Vec F S1x128 .f32) :
    ldBw3 x2 (ix2 (0 : Fin 1) (0 : Fin 1)) = x2 (ix2 (0 : Fin 1) (⟨3, by omega⟩ : Fin 128)) := by
  show x2 ((Rect.unit (s := S1x128) ![0, 3] S1x1.size inb_S1x128_S1x1_0_3).emb (ix2 (0 : Fin 1) (0 : Fin 1))) = _
  refine congrArg x2 (funext fun a => Fin.ext ?_)
  match a with
  | ⟨0, _⟩ => rfl
  | ⟨1, _⟩ => rfl
theorem ldBw4_apply (x2 : Vec F S1x128 .f32) :
    ldBw4 x2 (ix2 (0 : Fin 1) (0 : Fin 1)) = x2 (ix2 (0 : Fin 1) (⟨4, by omega⟩ : Fin 128)) := by
  show x2 ((Rect.unit (s := S1x128) ![0, 4] S1x1.size inb_S1x128_S1x1_0_4).emb (ix2 (0 : Fin 1) (0 : Fin 1))) = _
  refine congrArg x2 (funext fun a => Fin.ext ?_)
  match a with
  | ⟨0, _⟩ => rfl
  | ⟨1, _⟩ => rfl

end Cert.KernelIdeal.Hand

end
-- ==== Proof.KernelIdeal.Ideal2.lean ====
/-
  The second region's four results at the exact extended reals. At grid point t the body's tile is the tile
  (t / 8, t % 8) of the 8192 x 8192 array of kernel values of the pairs of joined rows: the five Gaussian terms of the
  clamped squared distance, with the five bandwidths read from the bandwidth row. Each of the four accumulators is
  reset to the literal zero at the first point and then adds the tile sums of the tiles lying in its quadrant; after
  the last point it holds the literal zero plus the sum of the kernel values over its 4096 x 4096 quadrant.
-/
import proofs.«149507_j24644522344587_1_alg».proof.Proof.KernelIdeal.Blocks1
import proofs.«149507_j24644522344587_1_alg».proof.Proof.KernelIdeal.Payloads
import proofs.«149507_j24644522344587_1_alg».proof.Proof.Tiles
import proofs.«149507_j24644522344587_1_alg».proof.Proof.Spec
import proofs.«149507_j24644522344587_1_alg».proof.Proof.KernelIdeal.Value2

noncomputable section

open scoped BigOperators

namespace Cert.KernelIdeal.Hand

open Idealize.ShloMosaic Idealize.ShloMosaic.TcCoe
open Idealize.ShloMosaic.Pipeline (Dat Cfg Window cellOf)
open Cert.KernelIdeal Cert.KernelIdeal.Gen Idealize.ShloMosaic.ValueIdx
open Cert.KernelIdeal.PayloadValue
open Cert.MMD (dist kern bw)
open Cert.MMD.Tiles (blk ti tj tileSum runSumIf inQuad)

/-! ### The accumulators' payloads at an index -/

/-- An accumulator's new contents: its previous contents plus the tile's value. -/
theorem k1_pay1_apply (a : FVec Ideal S1x1 .f32) (b : Vec Ideal S1x1 .f32) (j : S1x1.Idx) :
    k1_pay1 (F := Ideal) a b j = b j + a j := by
  unfold k1_pay1
  simp only [shapeCast_self]
  rfl
theorem k1_pay2_apply (a : FVec Ideal S1x1 .f32) (b : Vec Ideal S1x1 .f32) (j : S1x1.Idx) :
    k1_pay2 (F := Ideal) a b j = b j + a j := by
  unfold k1_pay2
  simp only [shapeCast_self]
  rfl
theorem k1_pay3_apply (a : FVec Ideal S1x1 .f32) (b : Vec Ideal S1x1 .f32) (j : S1x1.Idx) :
    k1_pay3 (F := Ideal) a b j = b j + a j := by
  unfold k1_pay3
  simp only [shapeCast_self]
  rfl
theorem k1_pay11_apply (v26 v43 : FVec Ideal S1024x1024 .f32) (v44 v52 v60 : Vec Ideal S1x1 .f32) (b : Vec Ideal S1x1 .f32)
    (j : S1x1.Idx) :
    k1_pay11 (F := Ideal) v26 v43 v44 v52 v60 b j = b j + k1_pay6 (F := Ideal) v26 v43 v44 v52 v60 j := by
  unfold k1_pay11
  simp only [shapeCast_self]
  rfl

/-- The reset values: the literal zero. -/
theorem k1_pay7_apply (j : S1x1.Idx) : k1_pay7 (F := Ideal) j = Ideal.ofBits .f32 0x00000000#32 := rfl
theorem k1_pay8_apply (j : S1x1.Idx) : k1_pay8 (F := Ideal) j = Ideal.ofBits .f32 0x00000000#32 := rfl
theorem k1_pay9_apply (j : S1x1.Idx) : k1_pay9 (F := Ideal) j = Ideal.ofBits .f32 0x00000000#32 := rfl
theorem k1_pay10_apply (j : S1x1.Idx) : k1_pay10 (F := Ideal) j = Ideal.ofBits .f32 0x00000000#32 := rfl

/-! ### Grid points as tiles -/

/-- Grid point `t` of the second region as one of the 64 tiles. -/
def tileOf1 (t : Fin cfg1.N) : Fin 64 := ⟨t.val, lt_of_lt_of_eq t.isLt (show cfg1.N = 64 from N_1)⟩

theorem tileOf1_val (t : Fin cfg1.N) : (tileOf1 t).val = t.val := rfl

theorem rowI1_eq (t : Fin cfg1.N) (p : Fin 1024) : rowI1 t p = blk (ti (tileOf1 t)) p := Fin.ext rfl
theorem rowJ1_eq (t : Fin cfg1.N) (q : Fin 1024) : rowJ1 t q = blk (tj (tileOf1 t)) q := Fin.ext rfl

variable (V : (c : Dev nD) → (b : Ref sig .tc) → Buf (Elt Ideal) ((c : Thread nD τ).loc b))
variable (c : Dev nD) (T : Cert.MMD.STot.Idx → EReal) (Q : Cert.MMD.SSq.Idx → EReal)

/-- At grid point `t` the tile's distances are the specification's distances between the tile's rows. -/
theorem tileDist_at1 (hT : (V c main_v3 : S8192x256.Idx → EReal) = T) (hQ : (V c main_v2 : S8192.Idx → EReal) = Q)
    (t : Fin cfg1.N) (p q : Fin 1024) :
    tileDist (ld1A (grid1.coords t) (iblk1 V c 0 t)) (ld1B (grid1.coords t) (iblk1 V c 0 t))
        (ld1C (grid1.coords t) (iblk1 V c 1 t)) (ld1D (grid1.coords t) (iblk1 V c 1 t)) p q
      = dist T Q (blk (ti (tileOf1 t)) p) (blk (tj (tileOf1 t)) q) := by
  refine tileDist_eq_dist _ _ _ _ T Q p q _ _ (fun k => ?_) (fun k => ?_) ?_ ?_
  · rw [ld1A_apply, iblk1_0_eq, rowI1_eq, hT]
  · rw [ld1B_apply, iblk1_0_eq, rowJ1_eq, hT]
  · rw [ld1C_apply, iblk1_1_eq, rowI1_eq, hQ]
  · rw [ld1D_apply, iblk1_1_eq, rowJ1_eq, hQ]

/-- The five bandwidths the body loads at grid point `t` are the specification's. -/
theorem bw_at (hB : ∀ k : Fin 5, (V c main_v28 : S1x128.Idx → EReal) (ix2 (0 : Fin 1) (⟨k.val, by omega⟩ : Fin 128)) = bw T Q k)
    (t : Fin cfg1.N) :
    ldBw0 (iblk1 V c 2 t) (ix2 (0 : Fin 1) (0 : Fin 1)) = bw T Q 0
    ∧ ldBw1 (iblk1 V c 2 t) (ix2 (0 : Fin 1) (0 : Fin 1)) = bw T Q 1
    ∧ ldBw2 (iblk1 V c 2 t) (ix2 (0 : Fin 1) (0 : Fin 1)) = bw T Q 2
    ∧ ldBw3 (iblk1 V c 2 t) (ix2 (0 : Fin 1) (0 : Fin 1)) = bw T Q 3
    ∧ ldBw4 (iblk1 V c 2 t) (ix2 (0 : Fin 1) (0 : Fin 1)) = bw T Q 4 := by
  refine ⟨?_, ?_, ?_, ?_, ?_⟩
  · rw [ldBw0_apply, iblk1_2_eq]; exact hB 0
  · rw [ldBw1_apply, iblk1_2_eq]; exact hB 1
  · rw [ldBw2_apply, iblk1_2_eq]; exact hB 2
  · rw [ldBw3_apply, iblk1_2_eq]; exact hB 3
  · rw [ldBw4_apply, iblk1_2_eq]; exact hB 4

/-- The tile's value at grid point `t`: the sum of the specification's kernel values over tile (t / 8, t % 8). -/
theorem tileVal_at (hT : (V c main_v3 : S8192x256.Idx → EReal) = T) (hQ : (V c main_v2 : S8192.Idx → EReal) = Q)
    (hB : ∀ k : Fin 5, (V c main_v28 : S1x128.Idx → EReal) (ix2 (0 : Fin 1) (⟨k.val, by omega⟩ : Fin 128)) = bw T Q k)
    (t : Fin cfg1.N) (j : S1x1.Idx) :
    k1_pay6 (F := Ideal)
        (k1_pay4 (ld1A (grid1.coords t) (iblk1 V c 0 t)) (ld1B (grid1.coords t) (iblk1 V c 0 t))
          (ld1C (grid1.coords t) (iblk1 V c 1 t)) (ld1D (grid1.coords t) (iblk1 V c 1 t)))
        (k1_pay5 (ld1A (grid1.coords t) (iblk1 V c 0 t)) (ld1B (grid1.coords t) (iblk1 V c 0 t))
          (ld1C (grid1.coords t) (iblk1 V c 1 t)) (ld1D (grid1.coords t) (iblk1 V c 1 t))
          (ldBw0 (iblk1 V c 2 t)) (ldBw1 (iblk1 V c 2 t)))
        (ldBw2 (iblk1 V c 2 t)) (ldBw3 (iblk1 V c 2 t)) (ldBw4 (iblk1 V c 2 t)) j
      = tileSum (kern T Q) (ti (tileOf1 t)) (tj (tileOf1 t)) := by
  unfold tileSum
  rw [k1_pay6_apply]
  obtain ⟨h0, h1, h2, h3, h4⟩ := bw_at V c T Q hB t
  rw [h0, h1, h2, h3, h4]
  exact Finset.sum_congr rfl fun p _ => Finset.sum_congr rfl fun q _ =>
    tileKern_eq_kern T Q _ _ _ p q (tileDist_at1 V c T Q hT hQ t p q)

/-- The tile's value at grid point `t`, as the recursion names it. -/
theorem tileAt_apply (hT : (V c main_v3 : S8192x256.Idx → EReal) = T) (hQ : (V c main_v2 : S8192.Idx → EReal) = Q)
    (hB : ∀ k : Fin 5, (V c main_v28 : S1x128.Idx → EReal) (ix2 (0 : Fin 1) (⟨k.val, by omega⟩ : Fin 128)) = bw T Q k)
    (t : Fin cfg1.N) (j : S1x1.Idx) :
    tileAt V c t j = tileSum (kern T Q) (ti (tileOf1 t)) (tj (tileOf1 t)) := by
  unfold tileAt
  exact tileVal_at V c T Q hT hQ hB t j

/-- The first accumulator's new contents at grid point `t`: its previous contents plus the tile's value. -/
theorem xxAt_apply (hT : (V c main_v3 : S8192x256.Idx → EReal) = T) (hQ : (V c main_v2 : S8192.Idx → EReal) = Q)
    (hB : ∀ k : Fin 5, (V c main_v28 : S1x128.Idx → EReal) (ix2 (0 : Fin 1) (⟨k.val, by omega⟩ : Fin 128)) = bw T Q k)
    (t : Fin cfg1.N) (x : Vec Ideal S1x1 .f32) (j : S1x1.Idx) :
    xxAt V c t x j = x j + tileSum (kern T Q) (ti (tileOf1 t)) (tj (tileOf1 t)) := by
  rw [xxAt_eq, k1_pay1_apply, tileAt_apply V c T Q hT hQ hB]

/-! ### Which tiles lie in which quadrant -/

theorem inQuad00 (t : Fin 64) : inQuad 0 0 t ↔ (t.val / 8 < 4 ∧ t.val % 8 < 4) := by
  show ((t.val / 8 < 4 ↔ (0 : Fin 2).val = 0) ∧ (t.val % 8 < 4 ↔ (0 : Fin 2).val = 0)) ↔ _
  simp
theorem inQuad11 (t : Fin 64) : inQuad 1 1 t ↔ (¬ t.val / 8 < 4 ∧ ¬ t.val % 8 < 4) := by
  show ((t.val / 8 < 4 ↔ (1 : Fin 2).val = 0) ∧ (t.val % 8 < 4 ↔ (1 : Fin 2).val = 0)) ↔ _
  simp
theorem inQuad01 (t : Fin 64) : inQuad 0 1 t ↔ (t.val / 8 < 4 ∧ ¬ t.val % 8 < 4) := by
  show ((t.val / 8 < 4 ↔ (0 : Fin 2).val = 0) ∧ (t.val % 8 < 4 ↔ (1 : Fin 2).val = 0)) ↔ _
  simp
theorem inQuad10 (t : Fin 64) : inQuad 1 0 t ↔ (¬ t.val / 8 < 4 ∧ t.val % 8 < 4) := by
  show ((t.val / 8 < 4 ↔ (1 : Fin 2).val = 0) ∧ (t.val % 8 < 4 ↔ (0 : Fin 2).val = 0)) ↔ _
  simp

theorem runSumIf_succ_pos (P : Fin 64 → Prop) [DecidablePred P] (z0 : EReal) (g : Fin 64 → EReal) (n : ℕ) (h : n + 1 < 64)
    (hP : P ⟨n + 1, h⟩) : runSumIf P z0 g (n + 1) h = runSumIf P z0 g n (Nat.lt_of_succ_lt h) + g ⟨n + 1, h⟩ := by
  rw [runSumIf, if_pos hP]
theorem runSumIf_succ_neg (P : Fin 64 → Prop) [DecidablePred P] (z0 : EReal) (g : Fin 64 → EReal) (n : ℕ) (h : n + 1 < 64)
    (hP : ¬ P ⟨n + 1, h⟩) : runSumIf P z0 g (n + 1) h = runSumIf P z0 g n (Nat.lt_of_succ_lt h) := by
  rw [runSumIf, if_neg hP]

/-! ### The accumulators are the four running sums -/

/-- After grid point `n` each accumulator holds the running sum, from the literal zero, of the tile sums of the
tiles of its quadrant met so far. -/
theorem chain1_apply (hT : (V c main_v3 : S8192x256.Idx → EReal) = T) (hQ : (V c main_v2 : S8192.Idx → EReal) = Q)
    (hB : ∀ k : Fin 5, (V c main_v28 : S1x128.Idx → EReal) (ix2 (0 : Fin 1) (⟨k.val, by omega⟩ : Fin 128)) = bw T Q k) :
    ∀ (n : ℕ) (h : n < cfg1.N) (j : S1x1.Idx),
      (chain1 V c n h).1 j
          = runSumIf (inQuad 0 0) (Ideal.ofBits .f32 0x00000000#32) (fun t' => tileSum (kern T Q) (ti t') (tj t')) n
              (lt_of_lt_of_eq h (show cfg1.N = 64 from N_1))
        ∧ (chain1 V c n h).2.1 j
          = runSumIf (inQuad 1 1) (Ideal.ofBits .f32 0x00000000#32) (fun t' => tileSum (kern T Q) (ti t') (tj t')) n
              (lt_of_lt_of_eq h (show cfg1.N = 64 from N_1))
        ∧ (chain1 V c n h).2.2.1 j
          = runSumIf (inQuad 0 1) (Ideal.ofBits .f32 0x00000000#32) (fun t' => tileSum (kern T Q) (ti t') (tj t')) n
              (lt_of_lt_of_eq h (show cfg1.N = 64 from N_1))
        ∧ (chain1 V c n h).2.2.2 j
          = runSumIf (inQuad 1 0) (Ideal.ofBits .f32 0x00000000#32) (fun t' => tileSum (kern T Q) (ti t') (tj t')) n
              (lt_of_lt_of_eq h (show cfg1.N = 64 from N_1))
  | 0, h, j => by
    have h64 : (0 : ℕ) < 64 := lt_of_lt_of_eq h (show cfg1.N = 64 from N_1)
    have p00 : inQuad 0 0 ⟨0, h64⟩ := (inQuad00 _).mpr ⟨(show (0 : ℕ) / 8 < 4 by decide), (show (0 : ℕ) % 8 < 4 by decide)⟩
    have p11 : ¬ inQuad 1 1 ⟨0, h64⟩ := fun hc => ((inQuad11 _).mp hc).1 (show (0 : ℕ) / 8 < 4 by decide)
    have p01 : ¬ inQuad 0 1 ⟨0, h64⟩ := fun hc => ((inQuad01 _).mp hc).2 (show (0 : ℕ) % 8 < 4 by decide)
    have p10 : ¬ inQuad 1 0 ⟨0, h64⟩ := fun hc => ((inQuad10 _).mp hc).1 (show (0 : ℕ) / 8 < 4 by decide)
    refine ⟨?_, ?_, ?_, ?_⟩
    · show xxAt V c ⟨0, h⟩ (k1_pay7 (F := Ideal)) j = _
      rw [xxAt_apply V c T Q hT hQ hB, k1_pay7_apply, runSumIf, if_pos p00]
      rfl
    · show k1_pay8 (F := Ideal) j = _
      rw [k1_pay8_apply, runSumIf, if_neg p11]
    · show k1_pay9 (F := Ideal) j = _
      rw [k1_pay9_apply, runSumIf, if_neg p01]
    · show k1_pay10 (F := Ideal) j = _
      rw [k1_pay10_apply, runSumIf, if_neg p10]
  | n + 1, h, j => by
    have h64 : n + 1 < 64 := lt_of_lt_of_eq h (show cfg1.N = 64 from N_1)
    obtain ⟨ih1, ih2, ih3, ih4⟩ := chain1_apply hT hQ hB n (Nat.lt_of_succ_lt h) j
    by_cases h1 : (n + 1) / 8 < 4
    · by_cases h2 : (n + 1) % 8 < 4
      · have p00 : inQuad 0 0 ⟨n + 1, h64⟩ := (inQuad00 _).mpr ⟨h1, h2⟩
        have p11 : ¬ inQuad 1 1 ⟨n + 1, h64⟩ := fun hc => ((inQuad11 _).mp hc).1 h1
        have p01 : ¬ inQuad 0 1 ⟨n + 1, h64⟩ := fun hc => ((inQuad01 _).mp hc).2 h2
        have p10 : ¬ inQuad 1 0 ⟨n + 1, h64⟩ := fun hc => ((inQuad10 _).mp hc).1 h1
        rw [chain1, if_pos h1, if_pos h2, runSumIf_succ_pos _ _ _ _ _ p00, runSumIf_succ_neg _ _ _ _ _ p11,
          runSumIf_succ_neg _ _ _ _ _ p01, runSumIf_succ_neg _ _ _ _ _ p10]
        refine ⟨?_, ih2, ih3, ih4⟩
        show xxAt V c ⟨n + 1, h⟩ (chain1 V c n (Nat.lt_of_succ_lt h)).1 j = _
        rw [xxAt_apply V c T Q hT hQ hB, ih1]
        rfl
      · have p00 : ¬ inQuad 0 0 ⟨n + 1, h64⟩ := fun hc => h2 ((inQuad00 _).mp hc).2
        have p11 : ¬ inQuad 1 1 ⟨n + 1, h64⟩ := fun hc => ((inQuad11 _).mp hc).1 h1
        have p01 : inQuad 0 1 ⟨n + 1, h64⟩ := (inQuad01 _).mpr ⟨h1, h2⟩
        have p10 : ¬ inQuad 1 0 ⟨n + 1, h64⟩ := fun hc => ((inQuad10 _).mp hc).1 h1
        rw [chain1, if_pos h1, if_neg h2, runSumIf_succ_neg _ _ _ _ _ p00, runSumIf_succ_neg _ _ _ _ _ p11,
          runSumIf_succ_pos _ _ _ _ _ p01, runSumIf_succ_neg _ _ _ _ _ p10]
        refine ⟨ih1, ih2, ?_, ih4⟩
        show k1_pay1 (tileAt V c ⟨n + 1, h⟩) (chain1 V c n (Nat.lt_of_succ_lt h)).2.2.1 j = _
        rw [k1_pay1_apply, tileAt_apply V c T Q hT hQ hB, ih3]
        rfl
    · by_cases h2 : (n + 1) % 8 < 4
      · have p00 : ¬ inQuad 0 0 ⟨n + 1, h64⟩ := fun hc => h1 ((inQuad00 _).mp hc).1
        have p11 : ¬ inQuad 1 1 ⟨n + 1, h64⟩ := fun hc => ((inQuad11 _).mp hc).2 h2
        have p01 : ¬ inQuad 0 1 ⟨n + 1, h64⟩ := fun hc => h1 ((inQuad01 _).mp hc).1
        have p10 : inQuad 1 0 ⟨n + 1, h64⟩ := (inQuad10 _).mpr ⟨h1, h2⟩
        rw [chain1, if_neg h1, if_pos h2, runSumIf_succ_neg _ _ _ _ _ p00, runSumIf_succ_neg _ _ _ _ _ p11,
          runSumIf_succ_neg _ _ _ _ _ p01, runSumIf_succ_pos _ _ _ _ _ p10]
        refine ⟨ih1, ih2, ih3, ?_⟩
        show k1_pay2 (tileAt V c ⟨n + 1, h⟩) (chain1 V c n (Nat.lt_of_succ_lt h)).2.2.2 j = _
        rw [k1_pay2_apply, tileAt_apply V c T Q hT hQ hB, ih4]
        rfl
      · have p00 : ¬ inQuad 0 0 ⟨n + 1, h64⟩ := fun hc => h1 ((inQuad00 _).mp hc).1
        have p11 : inQuad 1 1 ⟨n + 1, h64⟩ := (inQuad11 _).mpr ⟨h1, h2⟩
        have p01 : ¬ inQuad 0 1 ⟨n + 1, h64⟩ := fun hc => h1 ((inQuad01 _).mp hc).1
        have p10 : ¬ inQuad 1 0 ⟨n + 1, h64⟩ := fun hc => h2 ((inQuad10 _).mp hc).2
        rw [chain1, if_neg h1, if_neg h2, runSumIf_succ_neg _ _ _ _ _ p00, runSumIf_succ_pos _ _ _ _ _ p11,
          runSumIf_succ_neg _ _ _ _ _ p01, runSumIf_succ_neg _ _ _ _ _ p10]
        refine ⟨ih1, ?_, ih3, ih4⟩
        show k1_pay3 (tileAt V c ⟨n + 1, h⟩) (chain1 V c n (Nat.lt_of_succ_lt h)).2.1 j = _
        rw [k1_pay3_apply, tileAt_apply V c T Q hT hQ hB, ih2]
        rfl

/-! ### The four results -/

/-- A quadrant's accumulator after the last point: the literal zero plus the sum of the specification's kernel values
over the quadrant. -/
theorem quadSum_eq (a b : Fin 2) :
    runSumIf (inQuad a b) (Ideal.ofBits .f32 0x00000000#32) (fun t' => tileSum (kern T Q) (ti t') (tj t')) 63 (by norm_num)
      = Ideal.ofBits .f32 0x00000000#32 + ∑ r : Fin 4096, ∑ c' : Fin 4096, kern T Q (Cert.MMD.row a r) (Cert.MMD.row b c') := by
  rw [Cert.MMD.Tiles.runSumIf_last', ← Cert.MMD.Tiles.sum_quad]

theorem resXX_eq (hT : (V c main_v3 : S8192x256.Idx → EReal) = T) (hQ : (V c main_v2 : S8192.Idx → EReal) = Q)
    (hB : ∀ k : Fin 5, (V c main_v28 : S1x128.Idx → EReal) (ix2 (0 : Fin 1) (⟨k.val, by omega⟩ : Fin 128)) = bw T Q k) :
    (resXX V c : S1x1.Idx → EReal)
      = fun _ => Ideal.ofBits .f32 0x00000000#32 + ∑ r : Fin 4096, ∑ c' : Fin 4096, kern T Q (Cert.MMD.row 0 r) (Cert.MMD.row 0 c') := by
  funext j
  show (chain1 V c 63 tLast1.isLt).1 j = _
  rw [(chain1_apply V c T Q hT hQ hB 63 tLast1.isLt j).1]
  exact quadSum_eq T Q 0 0

theorem resYY_eq (hT : (V c main_v3 : S8192x256.Idx → EReal) = T) (hQ : (V c main_v2 : S8192.Idx → EReal) = Q)
    (hB : ∀ k : Fin 5, (V c main_v28 : S1x128.Idx → EReal) (ix2 (0 : Fin 1) (⟨k.val, by omega⟩ : Fin 128)) = bw T Q k) :
    (resYY V c : S1x1.Idx → EReal)
      = fun _ => Ideal.ofBits .f32 0x00000000#32 + ∑ r : Fin 4096, ∑ c' : Fin 4096, kern T Q (Cert.MMD.row 1 r) (Cert.MMD.row 1 c') := by
  funext j
  show (chain1 V c 63 tLast1.isLt).2.1 j = _
  rw [(chain1_apply V c T Q hT hQ hB 63 tLast1.isLt j).2.1]
  exact quadSum_eq T Q 1 1

theorem resXY_eq (hT : (V c main_v3 : S8192x256.Idx → EReal) = T) (hQ : (V c main_v2 : S8192.Idx → EReal) = Q)
    (hB : ∀ k : Fin 5, (V c main_v28 : S1x128.Idx → EReal) (ix2 (0 : Fin 1) (⟨k.val, by omega⟩ : Fin 128)) = bw T Q k) :
    (resXY V c : S1x1.Idx → EReal)
      = fun _ => Ideal.ofBits .f32 0x00000000#32 + ∑ r : Fin 4096, ∑ c' : Fin 4096, kern T Q (Cert.MMD.row 0 r) (Cert.MMD.row 1 c') := by
  funext j
  show (chain1 V c 63 tLast1.isLt).2.2.1 j = _
  rw [(chain1_apply V c T Q hT hQ hB 63 tLast1.isLt j).2.2.1]
  exact quadSum_eq T Q 0 1

theorem resYX_eq (hT : (V c main_v3 : S8192x256.Idx → EReal) = T) (hQ : (V c main_v2 : S8192.Idx → EReal) = Q)
    (hB : ∀ k : Fin 5, (V c main_v28 : S1x128.Idx → EReal) (ix2 (0 : Fin 1) (⟨k.val, by omega⟩ : Fin 128)) = bw T Q k) :
    (resYX V c : S1x1.Idx → EReal)
      = fun _ => Ideal.ofBits .f32 0x00000000#32 + ∑ r : Fin 4096, ∑ c' : Fin 4096, kern T Q (Cert.MMD.row 1 r) (Cert.MMD.row 0 c') := by
  funext j
  show (chain1 V c 63 tLast1.isLt).2.2.2 j = _
  rw [(chain1_apply V c T Q hT hQ hB 63 tLast1.isLt j).2.2.2]
  exact quadSum_eq T Q 1 0

end Cert.KernelIdeal.Hand

end
-- ==== Proof.KernelIdeal.HostGlue.lean ====
/-
  The second stretch of host operations, read as values at the exact-real instance. The stretch takes the one-element
  array holding a sum S, turns it into a scalar, divides it by two literals (the result is the middle bandwidth), forms
  the five bandwidths  base * 2^k + 1e-9  (k = 0..4), lays them side by side in an array of five, and writes that array
  over the first five columns of a zero row of 128. So column k of that row, k < 5, is the k-th bandwidth.
-/
import proofs.«149507_j24644522344587_1_alg».proof.Proof.Gen.KernelIdeal.Launch
import proofs.«149507_j24644522344587_1_alg».proof.Proof.Spec
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal

noncomputable section

namespace Cert.KernelIdeal.HostValue

open Idealize.ShloMosaic Idealize.ShloMosaic.TcCoe Idealize.ShloMosaic.ValueIdx
open Idealize.SL.Sem Idealize.ShloMosaic.StableHlo
open Cert.KernelIdeal Cert.KernelIdeal.Gen

/-! ## An overwriting scatter whose places are distinct -/

/-- Writing, one position after another, the value of position `n` at the place `tgt n`: when distinct positions
    have distinct places, the place of position `m` ends holding the value of `m`. -/
theorem foldl_overwrite {ι β α : Type} [DecidableEq β] (tgt : ι → β) (htgt : Function.Injective tgt) (val : ι → α) (x : β → α)
    (l : List ι) (m : ι) (hm : m ∈ l) :
    (l.foldl (fun r n => fun i' => if i' = tgt n then val n else r i') x) (tgt m) = val m := by
  induction l using List.reverseRecOn with
  | nil => exact absurd hm (List.not_mem_nil)
  | append_singleton l a ih =>
    rw [List.foldl_append, List.foldl_cons, List.foldl_nil]
    by_cases hma : m = a
    · subst hma; exact if_pos rfl
    · have hne : tgt m ≠ tgt a := fun h => hma (htgt h)
      rw [if_neg hne]
      rcases List.mem_append.1 hm with h | h
      · exact ih h
      · exact absurd (List.mem_singleton.1 h) hma

theorem numel_S5 : S5.numel = 5 := by decide

/-- The column an update position goes to: its own number. -/
def col (n : Fin S5.numel) : Fin 128 := ⟨n.val, by have h := n.isLt; have h5 := numel_S5; omega⟩

theorem col_injective : Function.Injective col := fun a b h => Fin.ext (by simpa [col] using congrArg Fin.val h)

/-- Every update position lands at row 0, at the column of its own number. -/
theorem scatter_resultIdx (n : Fin S5.numel) :
    scatter_S1x128_S2_S5_0_0_01_0.resultIdx? (S5.rowMajor.symm n) (fun _ => (0#32 : BitVec 32))
      = some (ix2 (0 : Fin 1) (col n)) := by
  revert n; decide

theorem ix2_col_injective : Function.Injective (fun a : Fin 128 => ix2 (0 : Fin 1) a) :=
  fun a b h => congrFun h (1 : Fin 2)

/-- An overwriting scatter of five values at the constant start (0, 0): column k of row 0 holds the k-th value. -/
theorem scatter_read {α : Type} (x : S1x128.Idx → α) (idx : IVec S2 32) (hidx : ∀ j, idx j = 0#32)
    (upd : S5.Idx → α) (k : Fin 5) :
    Host.scatter scatter_S1x128_S2_S5_0_0_01_0 (fun _ b => b) x idx upd (ix2 (0 : Fin 1) (⟨k.val, by omega⟩ : Fin 128))
      = upd (ix1 k) := by
  obtain rfl : idx = fun _ => 0#32 := funext hidx
  unfold Host.scatter
  simp only [scatter_resultIdx]
  have hm : (S5.rowMajor (ix1 k)).val = k.val := Shape.rowMajor_val_one (ix1 k)
  have hk : (⟨k.val, by omega⟩ : Fin 128) = col (S5.rowMajor (ix1 k)) := Fin.ext hm.symm
  rw [hk]
  have := foldl_overwrite (fun n : Fin S5.numel => ix2 (0 : Fin 1) (col n)) (ix2_col_injective.comp col_injective)
    (fun n => upd (S5.rowMajor.symm n)) x (List.finRange S5.numel) (S5.rowMajor (ix1 k)) (List.mem_finRange _)
  rw [Equiv.symm_apply_apply] at this
  exact this

/-! ## The stretch as one term of the sum's array -/

/-- The sum as a scalar, over the two literals: the middle bandwidth. -/
abbrev baseV (s : FVec Ideal S1x1 .f32) : FVec Ideal S_ .f32 :=
  Host.divf (Host.divf (shapeCast S_ s shapeCasts_S1x1_S_) (constant (F := Ideal) S_ .f32 0x4C7FF800#32))
    (constant (F := Ideal) S_ .f32 0x40800000#32)

/-- One bandwidth, as an array of one element: the middle one times the literal `c`, plus the literal 1e-9. -/
abbrev bwV (s : FVec Ideal S1x1 .f32) (c : BitVec 32) : FVec Ideal S1 .f32 :=
  broadcastInDim S1 ![] bcast_S_S1
    (addf (mulf (baseV s) (constant (F := Ideal) S_ .f32 c)) (constant (F := Ideal) S_ .f32 0x3089705F#32))

/-- The five bandwidths side by side. -/
abbrev bw5V (s : FVec Ideal S1x1 .f32) : FVec Ideal S5 .f32 :=
  concatenate S5 0 [⟨S1, bwV s 0x3F800000#32⟩, ⟨S1, bwV s 0x40000000#32⟩, ⟨S1, bwV s 0x40800000#32⟩,
    ⟨S1, bwV s 0x41000000#32⟩, ⟨S1, bwV s 0x41800000#32⟩] concatenates_S1_S1_S1_S1_S1_S5_d0

/-- The start index of the scatter: the two-element array of zeros. -/
abbrev startV : IVec S2 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0

/-- The row the stretch leaves: the five bandwidths written over a zero row from column 0. -/
abbrev rowV (s : FVec Ideal S1x1 .f32) : FVec Ideal S1x128 .f32 :=
  Host.scatter scatter_S1x128_S2_S5_0_0_01_0 (fun _ b => b)
    (broadcastInDim S1x128 ![] bcast_S_S1x128 (constant (F := Ideal) S_ .f32 0x00000000#32)) startV (bw5V s)

set_option maxHeartbeats 400000 in
/-- The row after the stretch is that term of the sum's array, whatever the other buffers hold. -/
theorem stretch_eq (W : Valuation τ sig (Elt Ideal)) :
    (StableHlo.after (hostOps1 (F := Ideal)) W (Proc.devRef .tc main_v28) : FVec Ideal S1x128 .f32)
      = rowV (W (Proc.devRef .tc main_v4_0)) := by
  simp (disch := decide) only [after_cons, after_nil,
      nullary_result', unary_result', binary_result', ternary_result', reshape_result',
      nullary_result_ne', unary_result_ne', binary_result_ne', ternary_result_ne', reshape_result_ne', nary_result_ne']
  rfl

/-! ## Reading the pieces -/

/-- Five one-element arrays side by side, read at position k: the k-th array's element. -/
theorem concat5_read {α : Type} (u0 u1 u2 u3 u4 : S1.Idx → α) (k : Fin 5) :
    concatenate S5 0 [⟨S1, u0⟩, ⟨S1, u1⟩, ⟨S1, u2⟩, ⟨S1, u3⟩, ⟨S1, u4⟩] concatenates_S1_S1_S1_S1_S1_S5_d0 (ix1 k)
      = (![u0, u1, u2, u3, u4] k) (ix1 (0 : Fin 1)) := by
  have hi : ∀ b : Fin S1.rank, b.cast (rfl : S1.rank = S5.rank) ≠ (0 : Fin S5.rank) →
      ((ix1 (0 : Fin 1) : S1.Idx) b).val = ((ix1 k : S5.Idx) (b.cast rfl)).val := by
    intro b hb
    refine absurd (Fin.ext ?_) hb
    show b.val = 0
    have h1 : S1.rank = 1 := rfl
    have := b.isLt
    omega
  fin_cases k
  · exact concatenate_apply_piece (0 : Fin S5.rank) [⟨S1, u0⟩, ⟨S1, u1⟩, ⟨S1, u2⟩, ⟨S1, u3⟩, ⟨S1, u4⟩] concatenates_S1_S1_S1_S1_S1_S5_d0 (ix1 0) 0 (by simp) S1 u0 rfl rfl 0 rfl (ix1 0) hi rfl
  · exact concatenate_apply_piece (0 : Fin S5.rank) [⟨S1, u0⟩, ⟨S1, u1⟩, ⟨S1, u2⟩, ⟨S1, u3⟩, ⟨S1, u4⟩] concatenates_S1_S1_S1_S1_S1_S5_d0 (ix1 1) 1 (by simp) S1 u1 rfl rfl 1 rfl (ix1 0) hi rfl
  · exact concatenate_apply_piece (0 : Fin S5.rank) [⟨S1, u0⟩, ⟨S1, u1⟩, ⟨S1, u2⟩, ⟨S1, u3⟩, ⟨S1, u4⟩] concatenates_S1_S1_S1_S1_S1_S5_d0 (ix1 2) 2 (by simp) S1 u2 rfl rfl 2 rfl (ix1 0) hi rfl
  · exact concatenate_apply_piece (0 : Fin S5.rank) [⟨S1, u0⟩, ⟨S1, u1⟩, ⟨S1, u2⟩, ⟨S1, u3⟩, ⟨S1, u4⟩] concatenates_S1_S1_S1_S1_S1_S5_d0 (ix1 3) 3 (by simp) S1 u3 rfl rfl 3 rfl (ix1 0) hi rfl
  · exact concatenate_apply_piece (0 : Fin S5.rank) [⟨S1, u0⟩, ⟨S1, u1⟩, ⟨S1, u2⟩, ⟨S1, u3⟩, ⟨S1, u4⟩] concatenates_S1_S1_S1_S1_S1_S5_d0 (ix1 4) 4 (by simp) S1 u4 rfl rfl 4 rfl (ix1 0) hi rfl

/-- The start index is zero in both components. -/
theorem startV_zero (j : S2.Idx) : startV j = 0#32 := by
  obtain ⟨a, rfl⟩ : ∃ a : Fin 2, j = ix1 a := ⟨j 0, eq_ix1 j⟩
  have hi : ∀ b : Fin S1.rank, b.cast (rfl : S1.rank = S2.rank) ≠ (0 : Fin S2.rank) →
      ((ix1 (0 : Fin 1) : S1.Idx) b).val = ((ix1 a : S2.Idx) (b.cast rfl)).val := by
    intro b hb
    refine absurd (Fin.ext ?_) hb
    show b.val = 0
    have h1 : S1.rank = 1 := rfl
    have := b.isLt
    omega
  fin_cases a
  · exact (concatenate_apply_piece (0 : Fin S2.rank) [⟨S1, broadcastInDim S1 ![] bcast_S_S1 (constantI S_ 32 0#32)⟩,
      ⟨S1, broadcastInDim S1 ![] bcast_S_S1 (constantI S_ 32 0#32)⟩] concatenates_S1_S1_S2_d0 (ix1 0) 0 (by simp) S1 _ rfl rfl 0 rfl
      (ix1 0) hi rfl).trans rfl
  · exact (concatenate_apply_piece (0 : Fin S2.rank) [⟨S1, broadcastInDim S1 ![] bcast_S_S1 (constantI S_ 32 0#32)⟩,
      ⟨S1, broadcastInDim S1 ![] bcast_S_S1 (constantI S_ 32 0#32)⟩] concatenates_S1_S1_S2_d0 (ix1 1) 1 (by simp) S1 _ rfl rfl 1 rfl
      (ix1 0) hi rfl).trans rfl

/-- One bandwidth array's element: the sum over the two literals, times the literal `c`, plus the literal 1e-9. -/
theorem bwV_apply (s : FVec Ideal S1x1 .f32) (c : BitVec 32) :
    bwV s c (ix1 (0 : Fin 1))
      = Ideal.div (Ideal.div (s (ix2 (0 : Fin 1) (0 : Fin 1))) (Ideal.ofBits .f32 0x4C7FF800#32)) (Ideal.ofBits .f32 0x40800000#32)
          * Ideal.ofBits .f32 c + Ideal.ofBits .f32 0x3089705F#32 := by
  unfold bwV baseV
  rw [broadcastInDim_scalar_apply]
  simp only [addf_apply, mulf_apply, hostDivf_apply, constant_apply]
  rw [shapeCast_apply s shapeCasts_S1x1_S_ ix0 (ix2 (0 : Fin 1) (0 : Fin 1)) (by decide)]

/-! ## The row after the stretch -/

/-- When the one-element array the stretch starts from holds the sum of the distances, column k of the row it
    leaves (k < 5) is the k-th bandwidth. -/
theorem bwRow_apply (W : Valuation τ sig (Elt Ideal)) (T : Cert.MMD.STot.Idx → EReal) (Q : Cert.MMD.SSq.Idx → EReal)
    (hS : (W (Proc.devRef .tc main_v4_0) : S1x1.Idx → EReal) (ix2 (0 : Fin 1) (0 : Fin 1)) = Cert.MMD.distSum T Q) (k : Fin 5) :
    (StableHlo.after (hostOps1 (F := Ideal)) W (Proc.devRef .tc main_v28) : S1x128.Idx → EReal)
        (ix2 (0 : Fin 1) (⟨k.val, by omega⟩ : Fin 128)) = Cert.MMD.bw T Q k := by
  refine (congrFun (stretch_eq W) _).trans ?_
  refine (scatter_read _ startV startV_zero _ k).trans ?_
  refine (concat5_read _ _ _ _ _ k).trans ?_
  fin_cases k
  · exact (bwV_apply _ _).trans (by rw [hS]; rfl)
  · exact (bwV_apply _ _).trans (by rw [hS]; rfl)
  · exact (bwV_apply _ _).trans (by rw [hS]; rfl)
  · exact (bwV_apply _ _).trans (by rw [hS]; rfl)
  · exact (bwV_apply _ _).trans (by rw [hS]; rfl)

end Cert.KernelIdeal.HostValue

end
-- ==== Proof.RefIsSpec.lean ====
/-
  The reference computes the specification. With T the two argument arrays joined along the rows and Q the row sums
  of T's squares (both as the reference's own first stages), each of the reference's six results is the
  specification's function of T and Q of the same name: the clamped squared distances element by element, their sum
  and maximum, the bandwidths, the five-term kernel value of a pair, the four block means and the discrepancy.
  A sum over a rank-2 index set is regrouped as the double sum over its coordinates; a slice read at an index is
  a shift of the index by the block's origin; the maximum over all pairs is identified by its universal property.
-/
import proofs.«149507_j24644522344587_1_alg».proof.Proof.Spec
import proofs.«149507_j24644522344587_1_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- T: the two argument arrays joined along the rows (the reference's first stage). -/
def totalOf (a0 a1 : FVec Ideal S4096x256 .f32) : FVec Ideal S8192x256 .f32 :=
  concatenate S8192x256 0 [⟨S4096x256, a0⟩, ⟨S4096x256, a1⟩] concatenates_S4096x256_S4096x256_S8192x256_d0

/-- Q: the row sums of T's squares, from the literal zero (the reference's third stage). -/
def sqOf (a0 a1 : FVec Ideal S4096x256 .f32) : FVec Ideal S8192 .f32 :=
  Host.reduceAdd (mulf (totalOf a0 a1) (totalOf a0 a1)) (constant S_ .f32 0x00000000#32) reducesTo_S8192x256_S8192_d1 h_S_

theorem totalOf_eq (a0 a1 : FVec Ideal S4096x256 .f32) : val_main_v0 (F := Ideal) a0 a1 = totalOf a0 a1 := rfl
theorem sqOf_eq (a0 a1 : FVec Ideal S4096x256 .f32) : val_main_v2 (F := Ideal) a0 a1 = sqOf a0 a1 := rfl

/-! ## The distances -/

/-- The reference's clamped distance array at (r, c) is the specification's `dist`. -/
theorem dist_apply (a0 a1 : FVec Ideal S4096x256 .f32) (r c : Fin 8192) :
    val_main_v14 (F := Ideal) a0 a1 (ix2 r c) = Cert.MMD.dist (totalOf a0 a1) (sqOf a0 a1) r c := by
  have e5 : idx_main_v3 (idx_main_v5 (ix2 r c)) = ix1 r :=
    funext fun a => Fin.ext (by match a with | ⟨0, _⟩ => rfl)
  have e6 : idx_main_v4 (idx_main_v6 (ix2 r c)) = ix1 c :=
    funext fun a => Fin.ext (by match a with | ⟨0, _⟩ => rfl)
  have el : ∀ k : Fin 256, lidx_main_v9 (ix2 r c) k = ix2 r k := fun k =>
    funext fun a => Fin.ext (by match a with | ⟨0, _⟩ => rfl | ⟨1, _⟩ => rfl)
  have er : ∀ k : Fin 256, idx_main_v8 (ridx_main_v9 (ix2 r c) k) = ix2 c k := fun k =>
    funext fun a => Fin.ext (by match a with | ⟨0, _⟩ => rfl | ⟨1, _⟩ => rfl)
  rw [val_main_v14_apply, val_main_v12_apply, val_main_v7_apply, val_main_v5_apply, val_main_v3_apply,
    val_main_v6_apply, val_main_v4_apply, val_main_v11_apply, val_main_v10_apply, val_main_cst_0_apply,
    val_main_v9_apply, val_main_v13_apply, val_main_cst_1_apply, e5, e6]
  simp only [val_main_v8_apply, el, er, totalOf_eq, sqOf_eq, Ideal.maximumf_def, Ideal.subf_def, Ideal.addf_def,
    Ideal.mulf_def, Ideal.ofBits_def]
  rfl

/-! ## The maximum -/

/-- The reference's maximum over all pairs, from the literal −∞, is the specification's `distMax`: the two have the
    same upper bounds. -/
theorem distMax_eq (a0 a1 : FVec Ideal S4096x256 .f32) :
    val_main_v69 (F := Ideal) a0 a1 = fun _ => Cert.MMD.distMax (totalOf a0 a1) (sqOf a0 a1) := by
  funext j
  unfold val_main_v69
  rw [Host.reduce_eq_fold]
  have hall : (Finset.univ.filter fun i : S8192x8192.Idx => reducesTo_S8192x8192_S_d0_1.drop i = j) = Finset.univ :=
    Finset.filter_true_of_mem fun i _ => funext fun a => a.elim0
  rw [hall]
  refine eq_of_forall_ge_iff fun z => ?_
  rw [Cert.MMD.distMax_le_iff]
  show Finset.fold (max : EReal → EReal → EReal) _ _ Finset.univ ≤ z ↔ _
  rw [Finset.fold_max_le]
  refine and_congr Iff.rfl ⟨fun h r c => ?_, fun h i _ => ?_⟩
  · rw [← dist_apply]; exact h (ix2 r c) (Finset.mem_univ _)
  · obtain ⟨r, c, rfl⟩ : ∃ (r : Fin 8192) (c : Fin 8192), i = ix2 r c := ⟨i 0, i 1, eq_ix2 i⟩
    rw [dist_apply]; exact h r c

/-! ## The sum of the distances and the bandwidths -/

/-- The reference's sum of the distance array is the specification's `distSum`: the sum over the pairs regrouped by
    rows. -/
theorem distSum_eq (a0 a1 : FVec Ideal S4096x256 .f32) (j : S_.Idx) :
    val_main_v15 (F := Ideal) a0 a1 j = Cert.MMD.distSum (totalOf a0 a1) (sqOf a0 a1) := by
  rw [val_main_v15_apply, sum_idx2, val_main_cst_2_apply, Ideal.ofBits_def]
  simp only [dist_apply]
  rfl

theorem bwBase_eq (a0 a1 : FVec Ideal S4096x256 .f32) (j : S_.Idx) :
    val_main_v17 (F := Ideal) a0 a1 j = Cert.MMD.bwBase (totalOf a0 a1) (sqOf a0 a1) := by
  rw [val_main_v17_apply, val_main_v16_apply, distSum_eq, val_main_cst_3_apply, val_main_cst_4_apply]
  rfl

theorem bw0_eq (a0 a1 : FVec Ideal S4096x256 .f32) (j : S_.Idx) :
    val_main_v20 (F := Ideal) a0 a1 j = Cert.MMD.bw (totalOf a0 a1) (sqOf a0 a1) 0 := by
  rw [val_main_v20_apply, val_main_v19_apply, bwBase_eq, val_main_cst_6_apply, val_main_cst_7_apply]
  rfl

theorem bw1_eq (a0 a1 : FVec Ideal S4096x256 .f32) (j : S_.Idx) :
    val_main_v27 (F := Ideal) a0 a1 j = Cert.MMD.bw (totalOf a0 a1) (sqOf a0 a1) 1 := by
  rw [val_main_v27_apply, val_main_v26_apply, bwBase_eq, val_main_cst_8_apply, val_main_cst_9_apply]
  rfl

theorem bw2_eq (a0 a1 : FVec Ideal S4096x256 .f32) (j : S_.Idx) :
    val_main_v34 (F := Ideal) a0 a1 j = Cert.MMD.bw (totalOf a0 a1) (sqOf a0 a1) 2 := by
  rw [val_main_v34_apply, val_main_v33_apply, bwBase_eq, val_main_cst_10_apply, val_main_cst_11_apply]
  rfl

theorem bw3_eq (a0 a1 : FVec Ideal S4096x256 .f32) (j : S_.Idx) :
    val_main_v41 (F := Ideal) a0 a1 j = Cert.MMD.bw (totalOf a0 a1) (sqOf a0 a1) 3 := by
  rw [val_main_v41_apply, val_main_v40_apply, bwBase_eq, val_main_cst_12_apply, val_main_cst_13_apply]
  rfl

theorem bw4_eq (a0 a1 : FVec Ideal S4096x256 .f32) (j : S_.Idx) :
    val_main_v48 (F := Ideal) a0 a1 j = Cert.MMD.bw (totalOf a0 a1) (sqOf a0 a1) 4 := by
  rw [val_main_v48_apply, val_main_v47_apply, bwBase_eq, val_main_cst_14_apply, val_main_cst_15_apply]
  rfl

/-! ## The five Gaussian terms and the kernel value of a pair -/

theorem term0_apply (a0 a1 : FVec Ideal S4096x256 .f32) (r c : Fin 8192) :
    val_main_v24 (F := Ideal) a0 a1 (ix2 r c) = Cert.MMD.expTerm (totalOf a0 a1) (sqOf a0 a1) r c 0 := by
  rw [val_main_v24_apply, val_main_v23_apply, val_main_v21_apply, val_main_v22_apply, dist_apply, bw0_eq]
  rfl

theorem term1_apply (a0 a1 : FVec Ideal S4096x256 .f32) (r c : Fin 8192) :
    val_main_v31 (F := Ideal) a0 a1 (ix2 r c) = Cert.MMD.expTerm (totalOf a0 a1) (sqOf a0 a1) r c 1 := by
  rw [val_main_v31_apply, val_main_v30_apply, val_main_v28_apply, val_main_v29_apply, dist_apply, bw1_eq]
  rfl

theorem term2_apply (a0 a1 : FVec Ideal S4096x256 .f32) (r c : Fin 8192) :
    val_main_v38 (F := Ideal) a0 a1 (ix2 r c) = Cert.MMD.expTerm (totalOf a0 a1) (sqOf a0 a1) r c 2 := by
  rw [val_main_v38_apply, val_main_v37_apply, val_main_v35_apply, val_main_v36_apply, dist_apply, bw2_eq]
  rfl

theorem term3_apply (a0 a1 : FVec Ideal S4096x256 .f32) (r c : Fin 8192) :
    val_main_v45 (F := Ideal) a0 a1 (ix2 r c) = Cert.MMD.expTerm (totalOf a0 a1) (sqOf a0 a1) r c 3 := by
  rw [val_main_v45_apply, val_main_v44_apply, val_main_v42_apply, val_main_v43_apply, dist_apply, bw3_eq]
  rfl

theorem term4_apply (a0 a1 : FVec Ideal S4096x256 .f32) (r c : Fin 8192) :
    val_main_v52 (F := Ideal) a0 a1 (ix2 r c) = Cert.MMD.expTerm (totalOf a0 a1) (sqOf a0 a1) r c 4 := by
  rw [val_main_v52_apply, val_main_v51_apply, val_main_v49_apply, val_main_v50_apply, dist_apply, bw4_eq]
  rfl

/-- The reference's kernel array at (r, c) is the specification's `kern`. -/
theorem kern_apply (a0 a1 : FVec Ideal S4096x256 .f32) (r c : Fin 8192) :
    val_main_v53 (F := Ideal) a0 a1 (ix2 r c) = Cert.MMD.kern (totalOf a0 a1) (sqOf a0 a1) r c := by
  rw [val_main_v53_apply, val_main_v46_apply, val_main_v39_apply, val_main_v32_apply, val_main_v25_apply,
    val_main_v18_apply, val_main_cst_5_apply, term0_apply, term1_apply, term2_apply, term3_apply, term4_apply]
  rfl

/-! ## The four block means and the discrepancy -/

theorem row_zero_val (r : Fin 4096) : (Cert.MMD.row 0 r).val = r.val := by
  show 0 * 4096 + r.val = r.val; omega
theorem row_one_val (r : Fin 4096) : (Cert.MMD.row 1 r).val = 4096 + r.val := by
  show 1 * 4096 + r.val = 4096 + r.val; omega

/-- The block [0:4096, 0:4096] read at (r, c) is the array at rows r and c of the first halves. -/
theorem idx54 (r c : Fin 4096) : idx_main_v54 (ix2 r c) = ix2 (Cert.MMD.row 0 r) (Cert.MMD.row 0 c) :=
  funext fun a => Fin.ext (by
    match a with
    | ⟨0, _⟩ => exact (row_zero_val r).symm
    | ⟨1, _⟩ => exact (row_zero_val c).symm)
/-- The block [4096:8192, 4096:8192]: both rows in the second halves. -/
theorem idx57 (r c : Fin 4096) : idx_main_v57 (ix2 r c) = ix2 (Cert.MMD.row 1 r) (Cert.MMD.row 1 c) :=
  funext fun a => Fin.ext (by
    match a with
    | ⟨0, _⟩ => exact (row_one_val r).symm
    | ⟨1, _⟩ => exact (row_one_val c).symm)
/-- The block [0:4096, 4096:8192]. -/
theorem idx60 (r c : Fin 4096) : idx_main_v60 (ix2 r c) = ix2 (Cert.MMD.row 0 r) (Cert.MMD.row 1 c) :=
  funext fun a => Fin.ext (by
    match a with
    | ⟨0, _⟩ => exact (row_zero_val r).symm
    | ⟨1, _⟩ => exact (row_one_val c).symm)
/-- The block [4096:8192, 0:4096]. -/
theorem idx63 (r c : Fin 4096) : idx_main_v63 (ix2 r c) = ix2 (Cert.MMD.row 1 r) (Cert.MMD.row 0 c) :=
  funext fun a => Fin.ext (by
    match a with
    | ⟨0, _⟩ => exact (row_one_val r).symm
    | ⟨1, _⟩ => exact (row_zero_val c).symm)

theorem xx_apply (a0 a1 : FVec Ideal S4096x256 .f32) (j : S_.Idx) :
    val_main_v56 (F := Ideal) a0 a1 j = Cert.MMD.xx (totalOf a0 a1) (sqOf a0 a1) := by
  rw [val_main_v56_apply, val_main_v55_apply, sum_idx2, val_main_cst_16_apply, val_main_cst_17_apply]
  simp only [val_main_v54_apply, idx54, kern_apply]
  rfl

theorem yy_apply (a0 a1 : FVec Ideal S4096x256 .f32) (j : S_.Idx) :
    val_main_v59 (F := Ideal) a0 a1 j = Cert.MMD.yy (totalOf a0 a1) (sqOf a0 a1) := by
  rw [val_main_v59_apply, val_main_v58_apply, sum_idx2, val_main_cst_18_apply, val_main_cst_19_apply]
  simp only [val_main_v57_apply, idx57, kern_apply]
  rfl

theorem xy_apply (a0 a1 : FVec Ideal S4096x256 .f32) (j : S_.Idx) :
    val_main_v62 (F := Ideal) a0 a1 j = Cert.MMD.xy (totalOf a0 a1) (sqOf a0 a1) := by
  rw [val_main_v62_apply, val_main_v61_apply, sum_idx2, val_main_cst_20_apply, val_main_cst_21_apply]
  simp only [val_main_v60_apply, idx60, kern_apply]
  rfl

theorem yx_apply (a0 a1 : FVec Ideal S4096x256 .f32) (j : S_.Idx) :
    val_main_v65 (F := Ideal) a0 a1 j = Cert.MMD.yx (totalOf a0 a1) (sqOf a0 a1) := by
  rw [val_main_v65_apply, val_main_v64_apply, sum_idx2, val_main_cst_22_apply, val_main_cst_23_apply]
  simp only [val_main_v63_apply, idx63, kern_apply]
  rfl

theorem loss_apply (a0 a1 : FVec Ideal S4096x256 .f32) (j : S_.Idx) :
    val_main_v68 (F := Ideal) a0 a1 j = Cert.MMD.loss (totalOf a0 a1) (sqOf a0 a1) := by
  rw [val_main_v68_apply, val_main_v67_apply, val_main_v66_apply, xx_apply, yy_apply, xy_apply, yx_apply]
  rfl

/-! ## The six results, as whole (one-element) arrays -/

theorem loss_eq (a0 a1 : FVec Ideal S4096x256 .f32) :
    val_main_v68 (F := Ideal) a0 a1 = fun _ => Cert.MMD.loss (totalOf a0 a1) (sqOf a0 a1) := funext fun j => loss_apply a0 a1 j
theorem xx_eq (a0 a1 : FVec Ideal S4096x256 .f32) :
    val_main_v56 (F := Ideal) a0 a1 = fun _ => Cert.MMD.xx (totalOf a0 a1) (sqOf a0 a1) := funext fun j => xx_apply a0 a1 j
theorem yy_eq (a0 a1 : FVec Ideal S4096x256 .f32) :
    val_main_v59 (F := Ideal) a0 a1 = fun _ => Cert.MMD.yy (totalOf a0 a1) (sqOf a0 a1) := funext fun j => yy_apply a0 a1 j
theorem xy_eq (a0 a1 : FVec Ideal S4096x256 .f32) :
    val_main_v62 (F := Ideal) a0 a1 = fun _ => Cert.MMD.xy (totalOf a0 a1) (sqOf a0 a1) := funext fun j => xy_apply a0 a1 j
theorem yx_eq (a0 a1 : FVec Ideal S4096x256 .f32) :
    val_main_v65 (F := Ideal) a0 a1 = fun _ => Cert.MMD.yx (totalOf a0 a1) (sqOf a0 a1) := funext fun j => yx_apply a0 a1 j

end Cert.ReferenceIdeal.RefValue

end
-- ==== Proof.RefRun.lean ====
/-
  The reference's run restated over the specification: every weakly fair execution of the reference ends with its
  six results at the specification's six functions of T (the joined argument arrays) and Q (T's squared row norms),
  and its two arguments unchanged.
-/
import proofs.«149507_j24644522344587_1_alg».proof.Proof.RefIsSpec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- T on device `c`: the two argument arrays, as the launch memory holds them, joined along the rows. -/
abbrev refT (m : (ℓ : Loc nD τ sig) → Buf (Elt Ideal) ℓ) (c : Dev nD) : FVec Ideal S8192x256 .f32 :=
  totalOf (m ((c.tc : Thread nD τ).loc main_arg0)) (m ((c.tc : Thread nD τ).loc main_arg1))
/-- Q on device `c`: T's squared row norms. -/
abbrev refQ (m : (ℓ : Loc nD τ sig) → Buf (Elt Ideal) ℓ) (c : Dev nD) : FVec Ideal S8192 .f32 :=
  sqOf (m ((c.tc : Thread nD τ).loc main_arg0)) (m ((c.tc : Thread nD τ).loc main_arg1))

theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
        r.2.mem ((c.tc : Thread nD τ).loc main_v68) = (fun _ => Cert.MMD.loss (refT m c) (refQ m c))
        ∧ r.2.mem ((c.tc : Thread nD τ).loc main_v69) = (fun _ => Cert.MMD.distMax (refT m c) (refQ m c))
        ∧ r.2.mem ((c.tc : Thread nD τ).loc main_v56) = (fun _ => Cert.MMD.xx (refT m c) (refQ m c))
        ∧ r.2.mem ((c.tc : Thread nD τ).loc main_v59) = (fun _ => Cert.MMD.yy (refT m c) (refQ m c))
        ∧ r.2.mem ((c.tc : Thread nD τ).loc main_v62) = (fun _ => Cert.MMD.xy (refT m c) (refQ m c))
        ∧ r.2.mem ((c.tc : Thread nD τ).loc main_v65) = (fun _ => Cert.MMD.yx (refT m c) (refQ m c))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run _ _ _).mono (fun r h c =>
    ⟨(h c).1.trans (by rw [Read.val_main_v68_eq, loss_eq]; rfl),
      (h c).2.1.trans (by rw [Read.val_main_v69_eq, distMax_eq]; rfl),
      (h c).2.2.1.trans (by rw [Read.val_main_v56_eq, xx_eq]; rfl),
      (h c).2.2.2.1.trans (by rw [Read.val_main_v59_eq, yy_eq]; rfl),
      (h c).2.2.2.2.1.trans (by rw [Read.val_main_v62_eq, xy_eq]; rfl),
      (h c).2.2.2.2.2.1.trans (by rw [Read.val_main_v65_eq, yx_eq]; rfl),
      (h c).2.2.2.2.2.2.1, (h c).2.2.2.2.2.2.2⟩)
    (Cert.ReferenceIdeal.Value.run (F := Ideal) m ρ)

end Cert.ReferenceIdeal.RefValue

end
-- ==== Proof.KernelIdeal.TailIdeal.lean ====
/-
  The last stretch of host operations at the exact extended reals, and the first stretch against the reference's.
  A [1,1] array re-typed as a scalar array holds its one entry; a quadrant's mean is its accumulated sum over the
  literal 4096²; the four means combine into the discrepancy ((xx + yy) − xy) − yx; the maximum is passed on as it is.
  The first stretch (stacking the two argument arrays, the rows' sums of squares, the change of format) is the same
  sequence of operations as the reference's first stages, and a change of format is the identity on extended reals.
-/
import proofs.«149507_j24644522344587_1_alg».proof.Proof.KernelIdeal.HostEnds
import proofs.«149507_j24644522344587_1_alg».proof.Proof.Spec
import proofs.«149507_j24644522344587_1_alg».proof.Proof.RefRun
import Idealize.ShloMosaic.Lib.Pipeline.Value
import Idealize.ShloMosaic.Lib.IdealHost

noncomputable section

open scoped BigOperators

namespace Cert.KernelIdeal.Hand

open Idealize.ShloMosaic Idealize.ShloMosaic.ValueIdx
open Cert.KernelIdeal Cert.KernelIdeal.Gen

/-! ### A [1,1] array as a scalar, and a quadrant's mean -/

/-- The scalar array made of a [1,1] array holds that array's one entry. -/
theorem scal_apply (x : FVec Ideal S1x1 .f32) (j : S_.Idx) :
    HostEnds.scal x j = x (ix2 (0 : Fin 1) (0 : Fin 1)) := by
  refine shapeCast_apply x shapeCasts_S1x1_S_ j (ix2 (0 : Fin 1) (0 : Fin 1)) ?_
  have h1 : (S1x1.rowMajor (ix2 (0 : Fin 1) (0 : Fin 1))).val < S1x1.numel := (S1x1.rowMajor _).isLt
  have h2 : (S_.rowMajor j).val < S_.numel := (S_.rowMajor j).isLt
  have n1 : S1x1.numel = 1 := by decide
  have n2 : S_.numel = 1 := by decide
  omega

/-- A quadrant's mean: its accumulated sum over the literal 4096². -/
theorem meanOf_apply (x : FVec Ideal S1x1 .f32) (j : S_.Idx) :
    HostEnds.meanOf x j = Ideal.div (x (ix2 (0 : Fin 1) (0 : Fin 1))) (Ideal.ofBits .f32 0x4B800000#32) := by
  show Ideal.div (HostEnds.scal x j) (Ideal.ofBits .f32 0x4B800000#32) = _
  rw [scal_apply]

/-- The four means are the specification's, once the accumulated sums are the quadrants' sums on the literal zero. -/
theorem mean_xx (T : Cert.MMD.STot.Idx → EReal) (Q : Cert.MMD.SSq.Idx → EReal) (x : FVec Ideal S1x1 .f32)
    (hx : (x : S1x1.Idx → EReal) = fun _ => Ideal.ofBits .f32 0x00000000#32
      + ∑ r : Fin 4096, ∑ c' : Fin 4096, Cert.MMD.kern T Q (Cert.MMD.row 0 r) (Cert.MMD.row 0 c')) :
    (HostEnds.meanOf x : S_.Idx → EReal) = fun _ => Cert.MMD.xx T Q := by
  funext j
  have hx0 := congrFun hx (ix2 (0 : Fin 1) (0 : Fin 1))
  rw [meanOf_apply, hx0]
  rfl

theorem mean_yy (T : Cert.MMD.STot.Idx → EReal) (Q : Cert.MMD.SSq.Idx → EReal) (x : FVec Ideal S1x1 .f32)
    (hx : (x : S1x1.Idx → EReal) = fun _ => Ideal.ofBits .f32 0x00000000#32
      + ∑ r : Fin 4096, ∑ c' : Fin 4096, Cert.MMD.kern T Q (Cert.MMD.row 1 r) (Cert.MMD.row 1 c')) :
    (HostEnds.meanOf x : S_.Idx → EReal) = fun _ => Cert.MMD.yy T Q := by
  funext j
  have hx0 := congrFun hx (ix2 (0 : Fin 1) (0 : Fin 1))
  rw [meanOf_apply, hx0]
  rfl

theorem mean_xy (T : Cert.MMD.STot.Idx → EReal) (Q : Cert.MMD.SSq.Idx → EReal) (x : FVec Ideal S1x1 .f32)
    (hx : (x : S1x1.Idx → EReal) = fun _ => Ideal.ofBits .f32 0x00000000#32
      + ∑ r : Fin 4096, ∑ c' : Fin 4096, Cert.MMD.kern T Q (Cert.MMD.row 0 r) (Cert.MMD.row 1 c')) :
    (HostEnds.meanOf x : S_.Idx → EReal) = fun _ => Cert.MMD.xy T Q := by
  funext j
  have hx0 := congrFun hx (ix2 (0 : Fin 1) (0 : Fin 1))
  rw [meanOf_apply, hx0]
  rfl

theorem mean_yx (T : Cert.MMD.STot.Idx → EReal) (Q : Cert.MMD.SSq.Idx → EReal) (x : FVec Ideal S1x1 .f32)
    (hx : (x : S1x1.Idx → EReal) = fun _ => Ideal.ofBits .f32 0x00000000#32
      + ∑ r : Fin 4096, ∑ c' : Fin 4096, Cert.MMD.kern T Q (Cert.MMD.row 1 r) (Cert.MMD.row 0 c')) :
    (HostEnds.meanOf x : S_.Idx → EReal) = fun _ => Cert.MMD.yx T Q := by
  funext j
  have hx0 := congrFun hx (ix2 (0 : Fin 1) (0 : Fin 1))
  rw [meanOf_apply, hx0]
  rfl

/-- The discrepancy from the four means: ((xx + yy) − xy) − yx. -/
theorem loss_of (T : Cert.MMD.STot.Idx → EReal) (Q : Cert.MMD.SSq.Idx → EReal) (xx yy xy yx : FVec Ideal S_ .f32)
    (h1 : xx = fun _ => Cert.MMD.xx T Q) (h2 : yy = fun _ => Cert.MMD.yy T Q)
    (h3 : xy = fun _ => Cert.MMD.xy T Q) (h4 : yx = fun _ => Cert.MMD.yx T Q) :
    (subf (subf (addf xx yy) xy) yx : S_.Idx → EReal) = fun _ => Cert.MMD.loss T Q := by
  subst h1 h2 h3 h4
  funext j
  rfl

/-- The maximum is passed on as it is. -/
theorem max_of (T : Cert.MMD.STot.Idx → EReal) (Q : Cert.MMD.SSq.Idx → EReal) (x : FVec Ideal S1x1 .f32)
    (hx : (x : S1x1.Idx → EReal) = fun _ => Cert.MMD.distMax T Q) :
    (HostEnds.scal x : S_.Idx → EReal) = fun _ => Cert.MMD.distMax T Q := by
  funext j
  have hx0 := congrFun hx (ix2 (0 : Fin 1) (0 : Fin 1))
  rw [scal_apply, hx0]

/-! ### The first stretch -/

/-- A change of format is the identity on extended reals. -/
theorem truncf_total (a0 a1 : FVec Ideal S4096x256 .f32) :
    ((truncf .bf16 (HostEnds.total a0 a1) bitsLt_bf16_f32 : FVec Ideal S8192x256 .bf16) : S8192x256.Idx → EReal)
      = HostEnds.total a0 a1 := rfl

/-- The stacked array is the reference's. -/
theorem total_eq_ref (a0 a1 : FVec Ideal S4096x256 .f32) :
    (HostEnds.total a0 a1 : Cert.MMD.STot.Idx → EReal) = Cert.ReferenceIdeal.RefValue.totalOf a0 a1 := rfl

/-- The rows' sums of squares are the reference's. -/
theorem sqNorms_eq_ref (a0 a1 : FVec Ideal S4096x256 .f32) :
    (HostEnds.sqNorms a0 a1 : Cert.MMD.SSq.Idx → EReal) = Cert.ReferenceIdeal.RefValue.sqOf a0 a1 := rfl

end Cert.KernelIdeal.Hand

end
-- ==== Proof.KernelIdeal.Final.lean ====
/-
  The idealized kernel's six results are the specification's. The stacked array T and its squared norms Q are what
  the first stretch writes (re-typing for the matrix unit changes nothing over the extended reals), and neither is
  written again; so the first region's accumulators end at the whole-array sum and maximum of the clipped squared
  distances of T, Q; the second stretch turns that sum into the five bandwidths and lays them in the row the second
  region stages; the second region's four accumulators end at the four quadrants' sums of the five-bandwidth
  Gaussian kernel; and the last stretch divides and combines them.
-/
import proofs.«149507_j24644522344587_1_alg».proof.Proof.KernelIdeal.Bounds
import proofs.«149507_j24644522344587_1_alg».proof.Proof.KernelIdeal.Ideal1
import proofs.«149507_j24644522344587_1_alg».proof.Proof.KernelIdeal.Ideal2
import proofs.«149507_j24644522344587_1_alg».proof.Proof.KernelIdeal.HostGlue
import proofs.«149507_j24644522344587_1_alg».proof.Proof.KernelIdeal.TailIdeal

noncomputable section

namespace Cert.KernelIdeal.Hand

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ) (ρ : Dev nD → PrngReg)

/-- Core c's stacked array and its rows' squared norms. -/
abbrev kT (c : Dev nD) : Cert.MMD.STot.Idx → EReal := HostEnds.total (argA m c) (argB m c)
abbrev kQ (c : Dev nD) : Cert.MMD.SSq.Idx → EReal := HostEnds.sqNorms (argA m c) (argB m c)

theorem hT1 (c : Dev nD) : (VV1 m c main_v3 : S8192x256.Idx → EReal) = kT m c :=
  (VV1_v3 m c).trans (truncf_total _ _)
theorem hQ1 (c : Dev nD) : (VV1 m c main_v2 : S8192.Idx → EReal) = kQ m c := VV1_v2 m c
theorem hT3 (c : Dev nD) : (VV3 m c main_v3 : S8192x256.Idx → EReal) = kT m c := (VV3_v3 m c).trans (hT1 m c)
theorem hQ3 (c : Dev nD) : (VV3 m c main_v2 : S8192.Idx → EReal) = kQ m c := (VV3_v2 m c).trans (hQ1 m c)

/-- The first region's results. -/
theorem sum1 (c : Dev nD) : (resSum (VV1 m) c : S1x1.Idx → EReal) = fun _ => Cert.MMD.distSum (kT m c) (kQ m c) :=
  resSum_eq (VV1 m) c _ _ (hT1 m c) (hQ1 m c)
theorem max1 (c : Dev nD) : (resMax (VV1 m) c : S1x1.Idx → EReal) = fun _ => Cert.MMD.distMax (kT m c) (kQ m c) :=
  resMax_eq (VV1 m) c _ _ (hT1 m c) (hQ1 m c)

/-- The bandwidth row the second region stages. -/
theorem hB3 (c : Dev nD) (k : Fin 5) :
    (VV3 m c main_v28 : S1x128.Idx → EReal) (ix2 (0 : Fin 1) (⟨k.val, by omega⟩ : Fin 128)) = Cert.MMD.bw (kT m c) (kQ m c) k :=
  Cert.KernelIdeal.HostValue.bwRow_apply (W2 m c) (kT m c) (kQ m c)
    (by rw [show W2 m c (Proc.devRef .tc main_v4_0) = resSum (VV1 m) c from VV2_v4_0 m c, sum1]) k

/-- The second region's results. -/
theorem xx3 (c : Dev nD) : (resXX (VV3 m) c : S1x1.Idx → EReal) = fun _ => Ideal.ofBits .f32 0x00000000#32
    + ∑ r : Fin 4096, ∑ c' : Fin 4096, Cert.MMD.kern (kT m c) (kQ m c) (Cert.MMD.row 0 r) (Cert.MMD.row 0 c') :=
  resXX_eq (VV3 m) c _ _ (hT3 m c) (hQ3 m c) (hB3 m c)
theorem yy3 (c : Dev nD) : (resYY (VV3 m) c : S1x1.Idx → EReal) = fun _ => Ideal.ofBits .f32 0x00000000#32
    + ∑ r : Fin 4096, ∑ c' : Fin 4096, Cert.MMD.kern (kT m c) (kQ m c) (Cert.MMD.row 1 r) (Cert.MMD.row 1 c') :=
  resYY_eq (VV3 m) c _ _ (hT3 m c) (hQ3 m c) (hB3 m c)
theorem xy3 (c : Dev nD) : (resXY (VV3 m) c : S1x1.Idx → EReal) = fun _ => Ideal.ofBits .f32 0x00000000#32
    + ∑ r : Fin 4096, ∑ c' : Fin 4096, Cert.MMD.kern (kT m c) (kQ m c) (Cert.MMD.row 0 r) (Cert.MMD.row 1 c') :=
  resXY_eq (VV3 m) c _ _ (hT3 m c) (hQ3 m c) (hB3 m c)
theorem yx3 (c : Dev nD) : (resYX (VV3 m) c : S1x1.Idx → EReal) = fun _ => Ideal.ofBits .f32 0x00000000#32
    + ∑ r : Fin 4096, ∑ c' : Fin 4096, Cert.MMD.kern (kT m c) (kQ m c) (Cert.MMD.row 1 r) (Cert.MMD.row 0 c') :=
  resYX_eq (VV3 m) c _ _ (hT3 m c) (hQ3 m c) (hB3 m c)

/-- THE VALUE RUN: every weakly fair execution of the idealized kernel terminates with its six results at the
    specification's values of T, Q and its arguments unchanged. -/
theorem value_run : θ_run defs (onTc (τ := τ) (main (F := Ideal))) ⟨m, fun _ => 0, ρ⟩ (fun r => ∀ c : Dev nD,
      r.2.mem ((c.tc : Thread nD τ).loc main_v40) = (fun _ => Cert.MMD.loss (kT m c) (kQ m c))
      ∧ r.2.mem ((c.tc : Thread nD τ).loc main_v41) = (fun _ => Cert.MMD.distMax (kT m c) (kQ m c))
      ∧ r.2.mem ((c.tc : Thread nD τ).loc main_v31) = (fun _ => Cert.MMD.xx (kT m c) (kQ m c))
      ∧ r.2.mem ((c.tc : Thread nD τ).loc main_v33) = (fun _ => Cert.MMD.yy (kT m c) (kQ m c))
      ∧ r.2.mem ((c.tc : Thread nD τ).loc main_v35) = (fun _ => Cert.MMD.xy (kT m c) (kQ m c))
      ∧ r.2.mem ((c.tc : Thread nD τ).loc main_v37) = (fun _ => Cert.MMD.yx (kT m c) (kQ m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v40 (by decide))).trans ((W5_v40 m c).trans
        (loss_of (kT m c) (kQ m c) _ _ _ _ (mean_xx _ _ _ (xx3 m c)) (mean_yy _ _ _ (yy3 m c)) (mean_xy _ _ _ (xy3 m c)) (mean_yx _ _ _ (yx3 m c)))),
     (h c _ (mem_uc main_v41 (by decide))).trans ((W5_v41 m c).trans (max_of _ _ _ (max1 m c))),
     (h c _ (mem_uc main_v31 (by decide))).trans ((W5_v31 m c).trans (mean_xx _ _ _ (xx3 m c))),
     (h c _ (mem_uc main_v33 (by decide))).trans ((W5_v33 m c).trans (mean_yy _ _ _ (yy3 m c))),
     (h c _ (mem_uc main_v35 (by decide))).trans ((W5_v35 m c).trans (mean_xy _ _ _ (xy3 m c))),
     (h c _ (mem_uc main_v37 (by decide))).trans ((W5_v37 m c).trans (mean_yx _ _ _ (yx3 m c))),
     (h c _ (mem_uc main_arg0 (by decide))).trans (W5_main_arg0 m c),
     (h c _ (mem_uc main_arg1 (by decide))).trans (W5_main_arg1 m c)⟩) (run m ρ)

end Cert.KernelIdeal.Hand

end
-- ==== Proof.lean ====
/-
  Two programs compute the maximum-mean-discrepancy loss of two batches of 4096 vectors of length 256 with a mixture
  of five Gaussian kernels, together with the largest clipped squared distance and the four quadrant means.
  Stack the batches into T (8192 rows) and let Q_r = Σ_k T(r,k)². The clipped squared distance of rows r, c is
  d(r,c) = max(Q_r + Q_c − 2 Σ_k T(r,k) T(c,k), 0); S = Σ_{r,c} d(r,c) and M = max_{r,c} d(r,c); the bandwidths are
  b_k = (S / (8192² − 8192) / 4) · 2^k + 10⁻⁹ for k = 0 … 4; the kernel value is K(r,c) = Σ_k exp(−d(r,c) / b_k); the
  four quadrant means are the sums of K over the 4096 × 4096 quadrants divided by 4096²; the loss is
  xx + yy − xy − yx.
  The reference forms the whole 8192 × 8192 arrays on the host. The kernel never does: a first pass visits the 64
  tiles of 1024 × 1024 pairs, one per grid point, and accumulates each tile's sum and maximum of d into two
  one-element arrays; the host turns the sum into the five bandwidths; a second pass recomputes each tile's d,
  adds up its K and accumulates into the accumulator of the quadrant the tile lies in. Over the extended reals, where
  every float operation is the exact one, sums may be regrouped freely (addition is commutative and associative
  there, infinities included), a maximum of maxima is the maximum, 0 − x is −x, and a change of float format is the
  identity: so the two programs' six results are equal, with no use of the finiteness of the inputs.
  The frames (each program terminates, faults nowhere, leaves its two arguments as launched): the kernel's program is
  run as five segments — host operations, first pass, host operations, second pass, host operations —, each pass
  by running its body once per control case on arbitrary buffers and following the accumulators from grid point to
  grid point; the reference is a straight line of host operations.
-/
import proofs.«149507_j24644522344587_1_alg».proof.Defs
import proofs.«149507_j24644522344587_1_alg».proof.Proof.Gen.Kernel
import proofs.«149507_j24644522344587_1_alg».proof.Proof.Gen.KernelIdeal
import proofs.«149507_j24644522344587_1_alg».proof.Proof.Gen.ReferenceIdeal
import proofs.«149507_j24644522344587_1_alg».proof.Proof.Gen.Pre_finite_inputs
import proofs.«149507_j24644522344587_1_alg».proof.Proof.Gen.ReferenceIdeal.Read
import proofs.«149507_j24644522344587_1_alg».proof.Proof.Kernel.Run
import proofs.«149507_j24644522344587_1_alg».proof.Proof.KernelIdeal.Final
import proofs.«149507_j24644522344587_1_alg».proof.Proof.RefRun
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ
/-- So does the kernel read over the extended reals. -/
theorem frame_ki : Cert.frame_KernelIdeal := fun m ρ _ => Cert.KernelIdeal.Hand.frame m ρ
/-- So does the reference: its run with the results dropped. -/
theorem frame_ri : Cert.frame_ReferenceIdeal := fun m ρ _ =>
  (θ_run Cert.ReferenceIdeal.defs _ _).mono (fun _ h c => ⟨(h c).2.2.2.2.2.2.1, (h c).2.2.2.2.2.2.2⟩)
    (Cert.ReferenceIdeal.Value.run (F := Ideal) m ρ)
/-- The idealization rewrote nothing. -/
theorem preserves : Cert.preserves_Kernel_KernelIdeal := trivial

/-- From memories that agree on the two arguments both programs end with the specification's six values of the same
    stacked array and squared norms. -/
theorem algebraic : Cert.algebraic_KernelIdeal_ReferenceIdeal := by
  intro m ρ m' ρ' _ hagree
  refine ⟨_, _, _, _, _, _, Cert.KernelIdeal.Hand.value_run m ρ, ?_⟩
  refine (θ_run (Cert.ReferenceIdeal.defs (F := Ideal)) _ _).mono (fun _ h c => ?_) (Cert.ReferenceIdeal.RefValue.run_spec m' ρ')
  have hT : (Cert.ReferenceIdeal.RefValue.refT m' c : Cert.MMD.STot.Idx → EReal) = Cert.KernelIdeal.Hand.kT m c := by
    show Cert.ReferenceIdeal.RefValue.totalOf _ _ = _
    rw [(hagree c).1, (hagree c).2]
    exact (Cert.KernelIdeal.Hand.total_eq_ref _ _).symm
  have hQ : (Cert.ReferenceIdeal.RefValue.refQ m' c : Cert.MMD.SSq.Idx → EReal) = Cert.KernelIdeal.Hand.kQ m c := by
    show Cert.ReferenceIdeal.RefValue.sqOf _ _ = _
    rw [(hagree c).1, (hagree c).2]
    exact (Cert.KernelIdeal.Hand.sqNorms_eq_ref _ _).symm
  obtain ⟨h0, h1, h2, h3, h4, h5, h6, h7⟩ := h c
  rw [hT, hQ] at h0 h1 h2 h3 h4 h5
  exact ⟨h0, h1, h2, h3, h4, h5, h6, h7⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
